-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part2 {F : FTy → Type} [FloatOps F] (main_arg9 : FVec F S4x128x128 .f32) (main_arg10 : FVec F S4x128 .f32) (main_v33 : IVec S_ 1) : IVec S_ 1 :=
  let main_v34 : FVec F S4x128x128 .f32 := Host.absf main_arg9
  let main_cst_12 : FVec F S_ .f32 := constant S_ .f32 0x7F800000#32
  let main_v35 : FVec F S4x128x128 .f32 := broadcastInDim S4x128x128 ![] bcast_S_S4x128x128 main_cst_12
  let main_v36 : IVec S4x128x128 1 := cmpf .olt main_v34 main_v35
  let main_c_13 : IVec S_ 1 := constantI S_ 1 1#1
  let main_v37 : IVec S_ 1 := (fun x v => Host.reduce IntOp.andi x v reducesTo_S4x128x128_S_d0_1_2 h_S_) main_v36 main_c_13
  let main_v38 : IVec S_ 1 := andi main_v33 main_v37
  let main_v39 : FVec F S4x128 .f32 := Host.absf main_arg10
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  main_v43

def fn_part1 {F : FTy → Type} [FloatOps F] (main_arg6 : FVec F S4x128 .f32) (main_arg7 : FVec F S4x128 .f32) (main_arg8 : FVec F S4x128 .f32) (main_arg9 : FVec F S4x128x128 .f32) (main_arg10 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x600000 32) (main_arg2 : IVec S600000 32) (main_arg3 : FVec F S128x128 .f32) (main_arg4 : FVec F S128 .f32) (main_arg5 : FVec F S4x128x128 .f32) (main_arg6 : FVec F S4x128 .f32) (main_arg7 : FVec F S4x128 .f32) (main_arg8 : FVec F S4x128 .f32) (main_arg9 : FVec F S4x128x128 .f32) (main_arg10 : FVec F S4x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S200000x128 : Shape := ⟨2, ![200000, 128]⟩
abbrev S4x50000x128 : Shape := ⟨3, ![4, 50000, 128]⟩
abbrev S2000x128 : Shape := ⟨2, ![2000, 128]⟩
abbrev S4x2000x128 : Shape := ⟨3, ![4, 2000, 128]⟩
abbrev S1x2000x128 : Shape := ⟨3, ![1, 2000, 128]⟩
abbrev S1x128x128 : Shape := ⟨3, ![1, 128, 128]⟩
abbrev S1x128 : Shape := ⟨2, ![1, 128]⟩

abbrev nBuf : Space → Nat
  | .hbm => 44
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S4x128x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128x128, .f32⟩
  | .hbm, ⟨10, _⟩ => ⟨S4x128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S200000x128, .f32⟩
  | .hbm, ⟨30, _⟩ => ⟨S600000x1, .i32⟩
  | .hbm, ⟨31, _⟩ => ⟨S200000x128, .f32⟩
  | .hbm, ⟨32, _⟩ => ⟨S4x50000x128, .f32⟩
  | .hbm, ⟨33, _⟩ => ⟨S4x128, .f32⟩
  | .hbm, ⟨34, _⟩ => ⟨S4x128, .f32⟩
  | .hbm, ⟨35, _⟩ => ⟨S_, .f32⟩
  | .hbm, ⟨36, _⟩ => ⟨S4x128, .f32⟩
  | .hbm, ⟨37, _⟩ => ⟨S4x128, .f32⟩
  | .hbm, ⟨38, _⟩ => ⟨S_, .f32⟩
  | .hbm, ⟨39, _⟩ => ⟨S4x128, .f32⟩
  | .hbm, ⟨40, _⟩ => ⟨S4x128, .f32⟩
  | .hbm, ⟨41, _⟩ => ⟨S4x128, .f32⟩
  | .hbm, ⟨42, _⟩ => ⟨S4x128, .f32⟩
  | .hbm, ⟨43, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S4x2000x128, .f32⟩
  | .local _ .vmem, ⟨3, _⟩ => ⟨S4x2000x128, .f32⟩
  | .local _ .vmem, ⟨4, _⟩ => ⟨S4x128x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | .local _ .vmem, ⟨8, _⟩ => ⟨S2000x128, .f32⟩
  | .local _ .vmem, ⟨9, _⟩ => ⟨S2000x128, .f32⟩
  | .local _ .vmem, ⟨10, _⟩ => ⟨S4x2000x128, .f32⟩
  | .local _ .vmem, ⟨11, _⟩ => ⟨S4x2000x128, .f32⟩
  | .local _ .vmem, ⟨12, _⟩ => ⟨S4x128x128, .f32⟩
  | .local _ .vmem, ⟨13, _⟩ => ⟨S4x128, .f32⟩
  | .local _ .vmem, ⟨14, _⟩ => ⟨S4x128, .f32⟩
  | .local _ .vmem, ⟨15, _⟩ => ⟨S4x128, .f32⟩
  | .local _ .vmem, ⟨16, _⟩ => ⟨S4x128, .f32⟩
  | .local _ .vmem, ⟨17, _⟩ => ⟨S4x128, .f32⟩
  | .local _ .vmem, ⟨18, _⟩ => ⟨S4x128x128, .f32⟩
  | .local _ .vmem, ⟨19, _⟩ => ⟨S4x128, .f32⟩
  | .local _ .vmem, ⟨20, _⟩ => ⟨S128x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem12_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  shapeCasts_S200000x128_S4x50000x128 : S200000x128.ShapeCasts S4x50000x128
  inb_S4x128_S4x128_0_0 : ∀ a, (![0, 0] : Fin 2 → Nat) a + S4x128.size a ≤ S4x128.size a
  h_S4x128 : 0 < S4x128.numel
  inb_S2000x128_S2000x128_0_0 : ∀ a, (![0, 0] : Fin 2 → Nat) a + S2000x128.size a ≤ S2000x128.size a
  h_S2000x128 : 0 < S2000x128.numel
  inb_S4x2000x128_S1x2000x128_0_0_0 : ∀ a, (![0, 0, 0] : Fin 3 → Nat) a + S1x2000x128.size a ≤ S4x2000x128.size a
  h_S1x2000x128 : 0 < S1x2000x128.numel
  shapeCasts_S1x2000x128_S2000x128 : S1x2000x128.ShapeCasts S2000x128
  bitsLt_bf16_f32 : FTy.bits .bf16 < FTy.bits .f32
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  broadcasts_S1x128_S2000x128 : S1x128.Broadcasts S2000x128
  reduces_S2000x128_S128 : S2000x128.Reduces [0] S128
  inb_S4x2000x128_S1x2000x128_1_0_0 : ∀ a, (![1, 0, 0] : Fin 3 → Nat) a + S1x2000x128.size a ≤ S4x2000x128.size a
  inb_S4x128x128_S1x128x128_1_0_0 : ∀ a, (![1, 0, 0] : Fin 3 → Nat) a + S1x128x128.size a ≤ S4x128x128.size a
  inb_S4x128_S1x128_1_0 : ∀ a, (![1, 0] : Fin 2 → Nat) a + S1x128.size a ≤ S4x128.size a
  inb_S4x2000x128_S1x2000x128_2_0_0 : ∀ a, (![2, 0, 0] : Fin 3 → Nat) a + S1x2000x128.size a ≤ S4x2000x128.size a
  inb_S4x128x128_S1x128x128_2_0_0 : ∀ a, (![2, 0, 0] : Fin 3 → Nat) a + S1x128x128.size a ≤ S4x128x128.size a
  inb_S4x128_S1x128_2_0 : ∀ a, (![2, 0] : Fin 2 → Nat) a + S1x128.size a ≤ S4x128.size a
  inb_S4x2000x128_S1x2000x128_3_0_0 : ∀ a, (![3, 0, 0] : Fin 3 → Nat) a + S1x2000x128.size a ≤ S4x2000x128.size a
  inb_S4x128x128_S1x128x128_3_0_0 : ∀ a, (![3, 0, 0] : Fin 3 → Nat) a + S1x128x128.size a ≤ S4x128x128.size a
  inb_S4x128_S1x128_3_0 : ∀ a, (![3, 0] : Fin 2 → Nat) a + S1x128.size a ≤ S4x128.size a
  bcast_S_S4x128 : S_.BroadcastsInDim S4x128 (![] : Fin 0 → Fin S4x128.rank)
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  gather_S50000x128_S600000x1_S600000x128_1_0_n_n_0_1_1128_wf : GatherDims.WF S50000x128 S600000x1 S600000x128 [1] [0] [] [0] [] 1 ![1, 128]
  scatter_S200000x128_S600000x1_S600000x128_1_0_0_1_wf : ScatterDims.WF S200000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2000x128.size a ≤ S4x50000x128.size a
  hwx0_1 : ∀ i : grid0.Coords, EltTy.bits .f32 = 32 ∨ (Rect.block (s := S4x50000x128) S4x2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128x128.size a ≤ S4x128x128.size a
  hwx0_2 : ∀ i : grid0.Coords, EltTy.bits .f32 = 32 ∨ (Rect.block (s := S4x128x128) S4x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128.size a ≤ S4x128.size a
  hwx0_4 : ∀ i : grid0.Coords, EltTy.bits .f32 = 32 ∨ (Rect.block (s := S4x128) S4x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x128.size a ≤ S4x128.size a
  hwx0_5 : ∀ i : grid0.Coords, EltTy.bits .f32 = 32 ∨ (Rect.block (s := S4x128) S4x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x2000x128.size a ≤ S4x50000x128.size a
  hwx1_1 : ∀ i : grid1.Coords, EltTy.bits .f32 = 32 ∨ (Rect.block (s := S4x50000x128) S4x2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x128x128.size a ≤ S4x128x128.size a
  hwx1_2 : ∀ i : grid1.Coords, EltTy.bits .f32 = 32 ∨ (Rect.block (s := S4x128x128) S4x128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x128.size a ≤ S4x128.size a
  hwx1_3 : ∀ i : grid1.Coords, EltTy.bits .f32 = 32 ∨ (Rect.block (s := S4x128) S4x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x128.size a ≤ S4x128.size a
  hwx1_4 : ∀ i : grid1.Coords, EltTy.bits .f32 = 32 ∨ (Rect.block (s := S4x128) S4x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4x128.size a ≤ S4x128.size a
  hwx1_5 : ∀ i : grid1.Coords, EltTy.bits .f32 = 32 ∨ (Rect.block (s := S4x128) S4x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4x128.size a ≤ S4x128.size a
  hwx1_6 : ∀ i : grid1.Coords, EltTy.bits .f32 = 32 ∨ (Rect.block (s := S4x128) S4x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4x128.size a ≤ S4x128.size a
  hwx1_7 : ∀ i : grid1.Coords, EltTy.bits .f32 = 32 ∨ (Rect.block (s := S4x128) S4x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4x128x128.size a ≤ S4x128x128.size a
  hwx1_8 : ∀ i : grid1.Coords, EltTy.bits .f32 = 32 ∨ (Rect.block (s := S4x128x128) S4x128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4x128.size a ≤ S4x128.size a
  hwx1_9 : ∀ i : grid1.Coords, EltTy.bits .f32 = 32 ∨ (Rect.block (s := S4x128) S4x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x128.size a ≤ S50000x128.size a
  hwx1_12 : ∀ i : grid1.Coords, EltTy.bits .f32 = 32 ∨ (Rect.block (s := S50000x128) S2000x128.size (cc1_transform_12 i) (hinb1_12 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4x2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S4x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S4x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S4x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4x2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S4x128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S4x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S4x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S4x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S4x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S4x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S4x128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S4x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg3) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg4) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v25) S2000x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S200000x128 : Shape := ⟨2, ![200000, 128]⟩
abbrev S4x50000x128 : Shape := ⟨3, ![4, 50000, 128]⟩
abbrev S1x50000x128 : Shape := ⟨3, ![1, 50000, 128]⟩
abbrev S4x1x128 : Shape := ⟨3, ![4, 1, 128]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S4x128x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128x128, .f32⟩
  | .hbm, ⟨10, _⟩ => ⟨S4x128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S200000x128, .f32⟩
  | .hbm, ⟨30, _⟩ => ⟨S600000x1, .i32⟩
  | .hbm, ⟨31, _⟩ => ⟨S200000x128, .f32⟩
  | .hbm, ⟨32, _⟩ => ⟨S4x50000x128, .f32⟩
  | .hbm, ⟨33, _⟩ => ⟨S1x50000x128, .f32⟩
  | .hbm, ⟨34, _⟩ => ⟨S4x50000x128, .f32⟩
  | .hbm, ⟨35, _⟩ => ⟨S4x50000x128, .f32⟩
  | .hbm, ⟨36, _⟩ => ⟨S4x50000x128, .f32⟩
  | .hbm, ⟨37, _⟩ => ⟨S4x1x128, .f32⟩
  | .hbm, ⟨38, _⟩ => ⟨S4x50000x128, .f32⟩
  | .hbm, ⟨39, _⟩ => ⟨S4x50000x128, .f32⟩
  | .hbm, ⟨40, _⟩ => ⟨S_, .f32⟩
  | .hbm, ⟨41, _⟩ => ⟨S4x128, .f32⟩
  | .hbm, ⟨42, _⟩ => ⟨S4x1x128, .f32⟩
  | .hbm, ⟨43, _⟩ => ⟨S_, .f32⟩
  | .hbm, ⟨44, _⟩ => ⟨S4x1x128, .f32⟩
  | .hbm, ⟨45, _⟩ => ⟨S4x1x128, .f32⟩
  | .hbm, ⟨46, _⟩ => ⟨S_, .i32⟩
  | .hbm, ⟨47, _⟩ => ⟨S_, .f32⟩
  | .hbm, ⟨48, _⟩ => ⟨S4x128, .f32⟩
  | .hbm, ⟨49, _⟩ => ⟨S4x1x128, .f32⟩
  | .hbm, ⟨50, _⟩ => ⟨S_, .f32⟩
  | .hbm, ⟨51, _⟩ => ⟨S4x1x128, .f32⟩
  | .hbm, ⟨52, _⟩ => ⟨S4x1x128, .f32⟩
  | .hbm, ⟨53, _⟩ => ⟨S4x50000x128, .f32⟩
  | .hbm, ⟨54, _⟩ => ⟨S4x50000x128, .f32⟩
  | .hbm, ⟨55, _⟩ => ⟨S4x50000x128, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4x128, .f32⟩
  | .hbm, ⟨61, _⟩ => ⟨S4x1x128, .f32⟩
  | .hbm, ⟨62, _⟩ => ⟨S4x1x128, .f32⟩
  | .hbm, ⟨63, _⟩ => ⟨S4x1x128, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S4x1x128, .f32⟩
  | .hbm, ⟨69, _⟩ => ⟨S4x1x128, .f32⟩
  | .hbm, ⟨70, _⟩ => ⟨S4x50000x128, .f32⟩
  | .hbm, ⟨71, _⟩ => ⟨S4x50000x128, .f32⟩
  | .hbm, ⟨72, _⟩ => ⟨S_, .f32⟩
  | .hbm, ⟨73, _⟩ => ⟨S4x1x128, .f32⟩
  | .hbm, ⟨74, _⟩ => ⟨S4x1x128, .f32⟩
  | .hbm, ⟨75, _⟩ => ⟨S4x1x128, .f32⟩
  | .hbm, ⟨76, _⟩ => ⟨S4x50000x128, .f32⟩
  | .hbm, ⟨77, _⟩ => ⟨S4x50000x128, .f32⟩
  | .hbm, ⟨78, _⟩ => ⟨S4x1x128, .f32⟩
  | .hbm, ⟨79, _⟩ => ⟨S4x50000x128, .f32⟩
  | .hbm, ⟨80, _⟩ => ⟨S4x50000x128, .f32⟩
  | .hbm, ⟨81, _⟩ => ⟨S4x1x128, .f32⟩
  | .hbm, ⟨82, _⟩ => ⟨S4x50000x128, .f32⟩
  | .hbm, ⟨83, _⟩ => ⟨S4x50000x128, .f32⟩
  | .hbm, ⟨84, _⟩ => ⟨S_, .f32⟩
  | .hbm, ⟨85, _⟩ => ⟨S4x50000x128, .f32⟩
  | .hbm, ⟨86, _⟩ => ⟨S4x50000x128, .f32⟩
  | .hbm, ⟨87, _⟩ => ⟨S4x50000x128, .f32⟩
  | .hbm, ⟨88, _⟩ => ⟨S4x1x128, .f32⟩
  | .hbm, ⟨89, _⟩ => ⟨S4x50000x128, .f32⟩
  | .hbm, ⟨90, _⟩ => ⟨S4x50000x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_cst_3 : Ref sig .tc := ⟨.hbm, 64, rfl⟩
abbrev main_call0_v13 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_5 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_call1_cst : Ref sig .tc := ⟨.hbm, 84, rfl⟩
abbrev main_call1_v0 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_6 : Ref sig .tc := ⟨.hbm, 95, rfl⟩
abbrev main_v52 : Ref sig .tc := ⟨.hbm, 96, rfl⟩
abbrev main_v53 : Ref sig .tc := ⟨.hbm, 97, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  shapeCasts_S200000x128_S4x50000x128 : S200000x128.ShapeCasts S4x50000x128
  bcast_S50000x128_S1x50000x128_1_2 : S50000x128.BroadcastsInDim S1x50000x128 (![1, 2] : Fin 2 → Fin S1x50000x128.rank)
  bcast_S1x50000x128_S4x50000x128_0_1_2 : S1x50000x128.BroadcastsInDim S4x50000x128 (![0, 1, 2] : Fin 3 → Fin S4x50000x128.rank)
  bcast_S4x128_S4x1x128_0_2 : S4x128.BroadcastsInDim S4x1x128 (![0, 2] : Fin 2 → Fin S4x1x128.rank)
  bcast_S4x1x128_S4x50000x128_0_1_2 : S4x1x128.BroadcastsInDim S4x50000x128 (![0, 1, 2] : Fin 3 → Fin S4x50000x128.rank)
  reducesTo_S4x50000x128_S4x128_d1 : S4x50000x128.ReducesTo [1] S4x128
  h_S_ : 0 < S_.numel
  bcast_S_S4x1x128 : S_.BroadcastsInDim S4x1x128 (![] : Fin 0 → Fin S4x1x128.rank)
  bcast_S_S4x50000x128 : S_.BroadcastsInDim S4x50000x128 (![] : Fin 0 → Fin S4x50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S4x50000x128_S50000x128_d0 : S4x50000x128.ReducesTo [0] S50000x128
  gather_S50000x128_S600000x1_S600000x128_1_0_n_n_0_1_1128_wf : GatherDims.WF S50000x128 S600000x1 S600000x128 [1] [0] [] [0] [] 1 ![1, 128]
  scatter_S200000x128_S600000x1_S600000x128_1_0_0_1_wf : ScatterDims.WF S200000x128 S600000x1 S600000x128 [1] [0] [0] 1
  dot_S4x50000x128_S4x128x128_S4x50000x128_2_1_1_2_0_0_wf : DotDims.WF S4x50000x128 S4x128x128 S4x50000x128 [2] [1] [1] [2] [0] [0]
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S4x50000x128_S4x128x128_S4x50000x128_2_1_1_2_0_0 : DotDims S4x50000x128 S4x128x128 S4x50000x128 where
  lhsContracting := [2]
  rhsContracting := [1]
  lhsNonContracting := [1]
  rhsNonContracting := [2]
  lhsBatch := [0]
  rhsBatch := [0]
  wf := dot_S4x50000x128_S4x128x128_S4x50000x128_2_1_1_2_0_0_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KAgg.lean ====
/-
  The summed neighbour features as one function of the node features, the edge list and the edge types, and
  what the statistics region finds in its arrays when it is entered: the node features, the two weight
  arrays of the first linear map as launched, and the summed neighbour features.
-/
import proofs.«110614_j51762945852038_2_alg».proof.Proof.Gen.KernelIdeal.Frame
import Idealize.ShloMosaic.Lib.StableHlo.Run
import Idealize.ShloMosaic.PureOps.Ideal

noncomputable section

namespace Cert.KernelSide

open Idealize.ShloMosaic Idealize.ShloMosaic.TcCoe Idealize.SL.Sem
open Cert.KernelIdeal Cert.KernelIdeal.Gen

/-- The summed neighbour features: the edges' source rows gathered from x (a negative node number counted from the
    end), added into row (edge type · 50000 + target node) of a zero [200000,128] array, read as [4,50000,128]. -/
def aggK (a0 : (⟨S50000x128, .f32⟩ : BufTy).Contents (Elt Ideal)) (a1 : (⟨S2x600000, .i32⟩ : BufTy).Contents (Elt Ideal))
    (a2 : (⟨S600000, .i32⟩ : BufTy).Contents (Elt Ideal)) : (⟨S4x50000x128, .f32⟩ : BufTy).Contents (Elt Ideal) :=
  shapeCast S4x50000x128
    (Host.scatterAdd (F := Ideal) scatter_S200000x128_S600000x1_S600000x128_1_0_0_1
      (broadcastInDim S200000x128 ![] bcast_S_S200000x128 (constant (F := Ideal) S_ .f32 0x00000000#32))
      (broadcastInDim S600000x1 ![0] bcast_S600000_S600000x1_0
        (addi (muli a2 (broadcastInDim S600000 ![] bcast_S_S600000 (constantI S_ 32 50000#32)))
          (shapeCast S600000 (extractStridedSlice S1x600000 ![0, 0] a1 slices_S2x600000_S1x600000_0_0) shapeCasts_S1x600000_S600000)))
      (Host.gather gather_S50000x128_S600000x1_S600000x128_1_0_n_n_0_1_1128 a0
        (broadcastInDim S600000x1 ![0] bcast_S600000_S600000x1_0
          (select
            (cmpi .slt (shapeCast S600000 (extractStridedSlice S1x600000 ![1, 0] a1 slices_S2x600000_S1x600000_1_0) shapeCasts_S1x600000_S600000)
              (broadcastInDim S600000 ![] bcast_S_S600000 (constantI S_ 32 0#32)))
            (addi (shapeCast S600000 (extractStridedSlice S1x600000 ![1, 0] a1 slices_S2x600000_S1x600000_1_0) shapeCasts_S1x600000_S600000)
              (broadcastInDim S600000 ![] bcast_S_S600000 (constantI S_ 32 50000#32)))
            (shapeCast S600000 (extractStridedSlice S1x600000 ![1, 0] a1 slices_S2x600000_S1x600000_1_0) shapeCasts_S1x600000_S600000)))))
    shapeCasts_S200000x128_S4x50000x128

variable (m : (ℓ : Loc nD τ sig) → Buf (Elt Ideal) ℓ) (ρ : Dev nD → PrngReg)

set_option maxHeartbeats 2000000 in
/-- When the statistics region is entered the second window's array holds the summed neighbour features. -/
theorem V1_agg (c : Dev nD) :
    V1 m ρ c main_v17 = aggK (m ((c : Thread nD τ).loc main_arg0)) (m ((c : Thread nD τ).loc main_arg1)) (m ((c : Thread nD τ).loc main_arg2)) := by
  show StableHlo.after hostOps0 (W0 m ρ c) (Proc.devRef .tc main_v17) = _
  unfold aggK
  after_results_simp
  rfl

set_option maxHeartbeats 2000000 in
/-- The node features are as launched. -/
theorem V1_x (c : Dev nD) : V1 m ρ c main_arg0 = m ((c : Thread nD τ).loc main_arg0) := by
  show StableHlo.after hostOps0 (W0 m ρ c) (Proc.devRef .tc main_arg0) = _
  after_results_simp

set_option maxHeartbeats 2000000 in
/-- The first linear map's weights are as launched. -/
theorem V1_w1 (c : Dev nD) : V1 m ρ c main_arg5 = m ((c : Thread nD τ).loc main_arg5) := by
  show StableHlo.after hostOps0 (W0 m ρ c) (Proc.devRef .tc main_arg5) = _
  after_results_simp

set_option maxHeartbeats 2000000 in
/-- The first linear map's bias is as launched. -/
theorem V1_b1 (c : Dev nD) : V1 m ρ c main_arg6 = m ((c : Thread nD τ).loc main_arg6) := by
  show StableHlo.after hostOps0 (W0 m ρ c) (Proc.devRef .tc main_arg6) = _
  after_results_simp

end Cert.KernelSide

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibDense.lean ====
/-
  Dense layers read at coordinates, at the extended reals.

  A row-major `[M, K]` array times a `[K, N]` matrix into a zero accumulator, plus a length-`N` bias laid out as one row
  and repeated over the `M` rows, is at `(p, q)` the sum over `k` of `l (p, k) · W (k, q)`, plus `b q`. A length-`c`
  vector laid out as `[1, 1, c]` and repeated over two leading axes reads, at `(p, q, k)`, the vector at `k`.
-/
import proofs.«110614_j51762945852038_2_alg».proof.Proof.LibPlainDot
import Idealize.ShloMosaic.Lib.ValueLayout
import Idealize.ShloMosaic.Lib.Pipeline.Value

noncomputable section

namespace Cert.LibDense

open Idealize.ShloMosaic Idealize.ShloMosaic.ValueIdx
open scoped BigOperators

variable {α : Type}

/-- A length-`c` vector cast to `[1, 1, c]` reads, at `(u, v, k)`, the vector at `k`. -/
theorem shapeCast_c_11c_apply {c : ℕ} (x : (⟨1, ![c]⟩ : Shape).Idx → α) (h : (⟨1, ![c]⟩ : Shape).ShapeCasts ⟨3, ![1, 1, c]⟩)
    (u v : Fin 1) (k : Fin c) : shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    omega)

/-- A `[1, 1, c]` array broadcast to `[a, b, c]` reads, at `(p, q, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => show 0 = if (1 : ℕ) = 1 then 0 else p.val; rw [if_pos rfl]
  | ⟨1, _⟩ => show 0 = if (1 : ℕ) = 1 then 0 else q.val; rw [if_pos rfl]
  | ⟨2, _⟩ =>
    show k.val = if c = 1 then 0 else k.val
    split
    · have := k.isLt; omega
    · rfl

variable {M K N : ℕ} (d : DotDims ⟨2, ![M, K]⟩ ⟨2, ![K, N]⟩ ⟨2, ![M, N]⟩)

/-- A dense layer before its activation, at `(p, q)`. -/
theorem dense_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (q : Fin N) :
    addf (FloatOps.matmul d prec l W (constant ⟨2, ![M, N]⟩ .f32 0x00000000#32))
        (broadcastTo ⟨2, ![M, N]⟩ (shapeCast ⟨2, ![1, N]⟩ b hc) hb) (ix2 p q)
      = (∑ k : Fin K, l (ix2 p k) * W (ix2 k q)) + b (ix1 q) := by
  rw [addf_apply, Cert.LibPlainDot.matmul_plain_apply d hlc hrc hlb hrb hln hrn, broadcastTo_1b_ab_apply, shapeCast_a_1a_apply]

end Cert.LibDense

end
-- ==== Proof.LibCols.lean ====
/-
  A reduction over the FIRST axis of a matrix, and a square root, read at explicit coordinates at the exact
  (extended-real) values.

  Column `t` of an [a, b] array reduced over its first axis collects the entries (s, t), s running over the a rows:
  a sum is their sum. A square root of an array reads, at an index, the square root of the entry.
-/
import Idealize.ShloMosaic.PureOps.Ideal.Laws
import Idealize.ShloMosaic.Lib.ValueIdx

open scoped BigOperators

namespace Idealize.ShloMosaic.ValueIdx

open Idealize.ShloMosaic

/-- Inserting the row `s` into the column index `t` gives the entry `(s, t)`. -/
theorem lift_first_ix2 {a b : ℕ} (h : (⟨2, ![a, b]⟩ : Shape).Reduces [0] ⟨1, ![b]⟩) (t : Fin b) (s : Fin a) :
    h.lift (ix1 t) s = ix2 s t := by
  funext d
  refine Fin.ext ?_
  match d with
  | ⟨0, _⟩ => rfl
  | ⟨1, _⟩ => rfl

variable {φ : FTy}

/-- A column's sum: the sum of the column's entries. -/
theorem colSum_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (t : Fin b) :
    multiReduction .add [0] ⟨1, ![b]⟩ v acc h hφ hacc (ix1 t) = ∑ s : Fin a, v (ix2 s t) := by
  rw [Ideal.multiReduction_add_single]
  show ∑ s : Fin a, _ = _
  exact Finset.sum_congr rfl fun s _ => congrArg v (lift_first_ix2 h t s)

/-- A square root read at an index. -/
theorem sqrt_apply {s : Shape} (a : FVec Ideal s φ) (i : s.Idx) : sqrt a i = Ideal.sqrt (a i) := rfl

end Idealize.ShloMosaic.ValueIdx
-- ==== Proof.KTile.lean ====
/-
  One node tile of the first linear map, read at coordinates over the extended reals.

  A tile holds 2000 consecutive nodes. For relation r the body forms, from the tile's node features x0, the
  tile's summed neighbour features x1 r, the weights x2 r and the bias x3 r,
      tilePre r s o = (∑ k, (x0 s k + x1 r s k) · x2 r k o) + x3 r o
  and adds to row r of the two running statistics the tile's column sums of tilePre and of its square.
-/
import proofs.«110614_j51762945852038_2_alg».proof.Proof.Gen.KernelIdeal.Skeleton
import proofs.«110614_j51762945852038_2_alg».proof.Proof.LibDense
import proofs.«110614_j51762945852038_2_alg».proof.Proof.LibCols
import Idealize.ShloMosaic.Lib.Pipeline.Value
import Idealize.ShloMosaic.Lib.ValueIdx
import Idealize.ShloMosaic.Lib.ValueLayout

noncomputable section

namespace Cert.KernelSide

open Idealize.ShloMosaic Idealize.ShloMosaic.ValueIdx
open Cert.KernelIdeal Cert.KernelIdeal.Gen

variable {Val : EltTy → Type} {e : EltTy}

/-- Slab r of an [n, a, b] array, loaded through the unit rectangle at (r, 0, 0). -/
theorem ld_slab {n a b : ℕ} (X : (⟨3, ![n, a, b]⟩ : Shape).Idx → Val e) (r : Fin n) (off : Fin 3 → ℕ) (hoff : off = ![r.val, 0, 0])
    (inb : ∀ x, off x + (![1, a, b] : Fin 3 → ℕ) x ≤ (⟨3, ![n, a, b]⟩ : Shape).size x) (u : Fin 1) (j : Fin a) (k : Fin b) :
    View.ld X (Rect.unit (s := ⟨3, ![n, a, b]⟩) off ![1, a, b] inb) (ix3 u j k) = X (ix3 r j k) := by
  subst hoff
  show X _ = X _
  congr 1
  funext x
  apply Fin.ext
  match x with
  | ⟨0, _⟩ => show r.val + 1 * u.val = r.val; omega
  | ⟨1, _⟩ => show 0 + 1 * j.val = j.val; omega
  | ⟨2, _⟩ => show 0 + 1 * k.val = k.val; omega

/-- Row r of an [n, b] array, loaded through the unit rectangle at (r, 0). -/
theorem ld_row {n b : ℕ} (X : (⟨2, ![n, b]⟩ : Shape).Idx → Val e) (r : Fin n) (off : Fin 2 → ℕ) (hoff : off = ![r.val, 0])
    (inb : ∀ x, off x + (![1, b] : Fin 2 → ℕ) x ≤ (⟨2, ![n, b]⟩ : Shape).size x) (u : Fin 1) (k : Fin b) :
    View.ld X (Rect.unit (s := ⟨2, ![n, b]⟩) off ![1, b] inb) (ix2 u k) = X (ix2 r k) := by
  subst hoff
  show X _ = X _
  congr 1
  funext x
  apply Fin.ext
  match x with
  | ⟨0, _⟩ => show r.val + 1 * u.val = r.val; omega
  | ⟨1, _⟩ => show 0 + 1 * k.val = k.val; omega

/-- The place of entry (u, k) of the row rectangle at (r, 0) in the [n, b] array: (r, k). -/
theorem emb_row {n b : ℕ} (r : Fin n) (off : Fin 2 → ℕ) (hoff : off = ![r.val, 0])
    (inb : ∀ x, off x + (![1, b] : Fin 2 → ℕ) x ≤ (⟨2, ![n, b]⟩ : Shape).size x) (u : Fin 1) (k : Fin b) :
    (Rect.unit (s := ⟨2, ![n, b]⟩) off ![1, b] inb).emb (ix2 u k) = ix2 r k := by
  subst hoff
  funext x
  apply Fin.ext
  rw [Rect.emb_apply]
  match x with
  | ⟨0, _⟩ => show r.val + 1 * u.val = r.val; omega
  | ⟨1, _⟩ => show 0 + 1 * k.val = k.val; omega

/-- The first linear map on one tile, over blocks: node s of the tile, relation r, output feature o. -/
def tilePre (x0 : Vec Ideal S2000x128 .f32) (x1 : Vec Ideal S4x2000x128 .f32) (x2 : Vec Ideal S4x128x128 .f32)
    (x3 : Vec Ideal S4x128 .f32) (r : Fin 4) (s : Fin 2000) (o : Fin 128) : EReal :=
  (∑ k : Fin 128, (x0 (ix2 s k) + x1 (ix3 r s k)) * x2 (ix3 r k o)) + x3 (ix2 r o)

/-- The body's first linear map of one relation, from the four loaded pieces, at node s and feature o. -/
theorem dense_apply (X0 : Vec Ideal S2000x128 .f32) (A : Vec Ideal S1x2000x128 .f32) (W : Vec Ideal S1x128x128 .f32)
    (B : Vec Ideal S1x128 .f32) (s : Fin 2000) (o : Fin 128) :
    k0_pay5 (F := Ideal) X0 A W B (ix2 s o)
      = (∑ k : Fin 128, (X0 (ix2 s k) + A (ix3 (0 : Fin 1) s k)) * W (ix3 (0 : Fin 1) k o)) + B (ix2 (0 : Fin 1) o) := by
  unfold k0_pay5
  refine (Cert.LibDense.dense_apply dot_S2000x128_S128x128_S2000x128_1_0_0_1_n_n rfl rfl rfl rfl rfl rfl none _ _ _ _ _ s o).trans ?_
  congr 1
  · refine Finset.sum_congr rfl fun k _ => ?_
    rw [truncf_apply, truncf_apply, addf_apply, shapeCast_1ab_ab_apply, shapeCast_1ab_ab_apply]
  · exact shapeCast_1a_a_apply _ _ o

/-- The running sum's row after the tile: what it held plus the tile's column sum. -/
theorem sumRow_apply (X0 : Vec Ideal S2000x128 .f32) (A : Vec Ideal S1x2000x128 .f32) (W : Vec Ideal S1x128x128 .f32)
    (B L : Vec Ideal S1x128 .f32) (u : Fin 1) (o : Fin 128) :
    k0_pay6 (F := Ideal) X0 A W B L (ix2 u o) = L (ix2 (0 : Fin 1) o) + ∑ s : Fin 2000, k0_pay5 (F := Ideal) X0 A W B (ix2 s o) := by
  unfold k0_pay6
  refine (shapeCast_a_1a_apply _ _ u o).trans ?_
  rw [addf_apply]
  congr 1
  · exact shapeCast_1a_a_apply _ _ o
  · exact colSum_apply _ _ _ _ _ o

/-- The running sum of squares' row after the tile: what it held plus the tile's column sum of squares. -/
theorem sqRow_apply (X0 : Vec Ideal S2000x128 .f32) (A : Vec Ideal S1x2000x128 .f32) (W : Vec Ideal S1x128x128 .f32)
    (B L : Vec Ideal S1x128 .f32) (u : Fin 1) (o : Fin 128) :
    k0_pay7 (F := Ideal) X0 A W B L (ix2 u o)
      = L (ix2 (0 : Fin 1) o) + ∑ s : Fin 2000, k0_pay5 (F := Ideal) X0 A W B (ix2 s o) * k0_pay5 (F := Ideal) X0 A W B (ix2 s o) := by
  unfold k0_pay7
  refine (shapeCast_a_1a_apply _ _ u o).trans ?_
  rw [addf_apply]
  congr 1
  · exact shapeCast_1a_a_apply _ _ o
  · refine (colSum_apply _ _ _ _ _ o).trans ?_
    rfl

/-- The running sum's row r after the tile, from the buffers' contents: the row as found plus the tile's column
    sum of the first linear map of relation r. -/
theorem rowVal_sum (x0 : Vec Ideal S2000x128 .f32) (x1 : Vec Ideal S4x2000x128 .f32) (x2 : Vec Ideal S4x128x128 .f32)
    (x3 : Vec Ideal S4x128 .f32) (P : Vec Ideal S1x128 .f32) (r : Fin 4)
    (o0 : Fin 2 → ℕ) (ho0 : o0 = fun _ => 0) (i0 : ∀ a, o0 a + S2000x128.size a ≤ S2000x128.size a)
    (o1 : Fin 3 → ℕ) (ho1 : o1 = ![r.val, 0, 0]) (i1 : ∀ a, o1 a + (![1, 2000, 128] : Fin 3 → ℕ) a ≤ S4x2000x128.size a)
    (o2 : Fin 3 → ℕ) (ho2 : o2 = ![r.val, 0, 0]) (i2 : ∀ a, o2 a + (![1, 128, 128] : Fin 3 → ℕ) a ≤ S4x128x128.size a)
    (o3 : Fin 2 → ℕ) (ho3 : o3 = ![r.val, 0]) (i3 : ∀ a, o3 a + (![1, 128] : Fin 2 → ℕ) a ≤ S4x128.size a)
    (u : Fin 1) (o : Fin 128) :
    k0_pay6 (F := Ideal) (View.ld x0 (Rect.unit (s := S2000x128) o0 S2000x128.size i0)) (View.ld x1 (Rect.unit (s := S4x2000x128) o1 ![1, 2000, 128] i1))
        (View.ld x2 (Rect.unit (s := S4x128x128) o2 ![1, 128, 128] i2)) (View.ld x3 (Rect.unit (s := S4x128) o3 ![1, 128] i3)) P (ix2 u o)
      = P (ix2 (0 : Fin 1) o) + ∑ s : Fin 2000, tilePre x0 x1 x2 x3 r s o := by
  rw [sumRow_apply]
  congr 1
  refine Finset.sum_congr rfl fun s _ => ?_
  rw [dense_apply, View.ld_unit_zero ho0]
  unfold tilePre
  congr 1
  · refine Finset.sum_congr rfl fun k _ => ?_
    rw [ld_slab x1 r o1 ho1, ld_slab x2 r o2 ho2]
  · exact ld_row x3 r o3 ho3 i3 _ o

/-- The running sum of squares' row r after the tile. -/
theorem rowVal_sq (x0 : Vec Ideal S2000x128 .f32) (x1 : Vec Ideal S4x2000x128 .f32) (x2 : Vec Ideal S4x128x128 .f32)
    (x3 : Vec Ideal S4x128 .f32) (P : Vec Ideal S1x128 .f32) (r : Fin 4)
    (o0 : Fin 2 → ℕ) (ho0 : o0 = fun _ => 0) (i0 : ∀ a, o0 a + S2000x128.size a ≤ S2000x128.size a)
    (o1 : Fin 3 → ℕ) (ho1 : o1 = ![r.val, 0, 0]) (i1 : ∀ a, o1 a + (![1, 2000, 128] : Fin 3 → ℕ) a ≤ S4x2000x128.size a)
    (o2 : Fin 3 → ℕ) (ho2 : o2 = ![r.val, 0, 0]) (i2 : ∀ a, o2 a + (![1, 128, 128] : Fin 3 → ℕ) a ≤ S4x128x128.size a)
    (o3 : Fin 2 → ℕ) (ho3 : o3 = ![r.val, 0]) (i3 : ∀ a, o3 a + (![1, 128] : Fin 2 → ℕ) a ≤ S4x128.size a)
    (u : Fin 1) (o : Fin 128) :
    k0_pay7 (F := Ideal) (View.ld x0 (Rect.unit (s := S2000x128) o0 S2000x128.size i0)) (View.ld x1 (Rect.unit (s := S4x2000x128) o1 ![1, 2000, 128] i1))
        (View.ld x2 (Rect.unit (s := S4x128x128) o2 ![1, 128, 128] i2)) (View.ld x3 (Rect.unit (s := S4x128) o3 ![1, 128] i3)) P (ix2 u o)
      = P (ix2 (0 : Fin 1) o) + ∑ s : Fin 2000, tilePre x0 x1 x2 x3 r s o * tilePre x0 x1 x2 x3 r s o := by
  rw [sqRow_apply]
  congr 1
  refine Finset.sum_congr rfl fun s _ => ?_
  have e : k0_pay5 (F := Ideal) (View.ld x0 (Rect.unit (s := S2000x128) o0 S2000x128.size i0)) (View.ld x1 (Rect.unit (s := S4x2000x128) o1 ![1, 2000, 128] i1))
        (View.ld x2 (Rect.unit (s := S4x128x128) o2 ![1, 128, 128] i2)) (View.ld x3 (Rect.unit (s := S4x128) o3 ![1, 128] i3)) (ix2 s o)
      = tilePre x0 x1 x2 x3 r s o := by
    rw [dense_apply, View.ld_unit_zero ho0]
    unfold tilePre
    congr 1
    · refine Finset.sum_congr rfl fun k _ => ?_
      rw [ld_slab x1 r o1 ho1, ld_slab x2 r o2 ho2]
    · exact ld_row x3 r o3 ho3 i3 _ o
  rw [e]

/-! The body's four relations run the same arithmetic on different slabs; the printed pieces of relations 1, 2
    and 3 are the pieces of relation 0 under other names. -/

variable {F : FTy → Type} [FloatOps F]

theorem sum_rel1 (a : Vec F S2000x128 .f32) (b : Vec F S1x2000x128 .f32) (c : Vec F S1x128x128 .f32) (d L : Vec F S1x128 .f32) :
    k0_pay9 a b c d L = k0_pay6 a b c d L := rfl
theorem sum_rel2 (a : Vec F S2000x128 .f32) (b : Vec F S1x2000x128 .f32) (c : Vec F S1x128x128 .f32) (d L : Vec F S1x128 .f32) :
    k0_pay14 (k0_pay11 a b) (k0_pay12 c) d L = k0_pay6 a b c d L := rfl
theorem sum_rel3 (a : Vec F S2000x128 .f32) (b : Vec F S1x2000x128 .f32) (c : Vec F S1x128x128 .f32) (d L : Vec F S1x128 .f32) :
    k0_pay1 (k0_pay16 a b c d) L = k0_pay6 a b c d L := rfl
theorem sq_rel1 (a : Vec F S2000x128 .f32) (b : Vec F S1x2000x128 .f32) (c : Vec F S1x128x128 .f32) (d L : Vec F S1x128 .f32) :
    k0_pay10 a b c d L = k0_pay7 a b c d L := rfl
theorem sq_rel2 (a : Vec F S2000x128 .f32) (b : Vec F S1x2000x128 .f32) (c : Vec F S1x128x128 .f32) (d L : Vec F S1x128 .f32) :
    k0_pay15 (k0_pay11 a b) (k0_pay12 c) d L = k0_pay7 a b c d L := rfl
theorem sq_rel3 (a : Vec F S2000x128 .f32) (b : Vec F S1x2000x128 .f32) (c : Vec F S1x128x128 .f32) (d L : Vec F S1x128 .f32) :
    k0_pay2 (k0_pay16 a b c d) L = k0_pay7 a b c d L := rfl

end Cert.KernelSide

end
-- ==== Proof.KRows.lean ====
/-
  Four row stores into a [4, 128] buffer, read back.

  The statistics buffers are written one row at a time. After the four row stores (whatever was stored before
  them) entry (r, o) holds what the store of row r wrote at o; a row is disjoint from every other row; and a row
  loaded after one store of the whole buffer reads that store's row.
-/
import Idealize.ShloMosaic.Lib.Pipeline.Value
import Idealize.ShloMosaic.Lib.Pipeline.FrameBody
import Idealize.ShloMosaic.Lib.ValueIdx

noncomputable section

namespace Cert.KernelSide

open Idealize.ShloMosaic Idealize.ShloMosaic.ValueIdx

variable {Val : EltTy → Type} [∀ e, Nonempty (Val e)] {e : EltTy}

/-- The shape of a statistics buffer. -/
abbrev SStat : Shape := ⟨2, ![4, 128]⟩

theorem zeros2 : (![0, 0] : Fin 2 → ℕ) = fun _ => 0 := funext fun a => by fin_cases a <;> rfl

/-- Entry (k, o) of the row rectangle at row r sits at (r, o). -/
theorem emb_statRow (r : Fin 4) (off : Fin 2 → ℕ) (hoff : off = ![r.val, 0])
    (inb : ∀ x, off x + (![1, 128] : Fin 2 → ℕ) x ≤ SStat.size x) (u : Fin 1) (k : Fin 128) :
    (Rect.unit (s := SStat) off ![1, 128] inb).emb (ix2 u k) = ix2 r k := by
  subst hoff
  funext x
  apply Fin.ext
  rw [Rect.emb_apply]
  match x with
  | ⟨0, _⟩ => show r.val + 1 * u.val = r.val; omega
  | ⟨1, _⟩ => show 0 + 1 * k.val = k.val; omega

/-- Entry (r, o) is not in another row's rectangle. -/
theorem not_mem_statRow (r' : ℕ) (r : Fin 4) (hne : r' ≠ r.val) (off : Fin 2 → ℕ) (hoff : off = ![r', 0])
    (inb : ∀ x, off x + (![1, 128] : Fin 2 → ℕ) x ≤ SStat.size x) (o : Fin 128) :
    ix2 r o ∉ (Rect.unit (s := SStat) off ![1, 128] inb).set := by
  subst hoff
  rw [Rect.mem_set_unit]
  intro h
  have h0 := h 0
  change r' ≤ r.val ∧ r.val < r' + 1 at h0
  omega

variable (w0 w1 w2 w3 : (⟨2, ![1, 128]⟩ : Shape).Idx → Val e) (L : List (View.Piece Val SStat e))
  (i0 : ∀ x, (![0, 0] : Fin 2 → ℕ) x + (![1, 128] : Fin 2 → ℕ) x ≤ SStat.size x)
  (i1 : ∀ x, (![1, 0] : Fin 2 → ℕ) x + (![1, 128] : Fin 2 → ℕ) x ≤ SStat.size x)
  (i2 : ∀ x, (![2, 0] : Fin 2 → ℕ) x + (![1, 128] : Fin 2 → ℕ) x ≤ SStat.size x)
  (i3 : ∀ x, (![3, 0] : Fin 2 → ℕ) x + (![1, 128] : Fin 2 → ℕ) x ≤ SStat.size x)

/-- After the four row stores, row 3 holds its store. -/
theorem canon_rows3 (o : Fin 128) :
    View.canon ((⟨Rect.unit (s := SStat) ![3, 0] ![1, 128] i3, w3⟩ : View.Piece Val SStat e) :: ⟨Rect.unit (s := SStat) ![2, 0] ![1, 128] i2, w2⟩
      :: ⟨Rect.unit (s := SStat) ![1, 0] ![1, 128] i1, w1⟩ :: ⟨Rect.unit (s := SStat) ![0, 0] ![1, 128] i0, w0⟩ :: L) (ix2 (3 : Fin 4) o)
      = w3 (ix2 (0 : Fin 1) o) := by
  rw [← emb_statRow (3 : Fin 4) ![3, 0] rfl i3 (0 : Fin 1) o]
  exact View.canon_cons_emb (Rect.unit (s := SStat) ![3, 0] ![1, 128] i3) w3 _ _

/-- After the four row stores, row 2 holds its store. -/
theorem canon_rows2 (o : Fin 128) :
    View.canon ((⟨Rect.unit (s := SStat) ![3, 0] ![1, 128] i3, w3⟩ : View.Piece Val SStat e) :: ⟨Rect.unit (s := SStat) ![2, 0] ![1, 128] i2, w2⟩
      :: ⟨Rect.unit (s := SStat) ![1, 0] ![1, 128] i1, w1⟩ :: ⟨Rect.unit (s := SStat) ![0, 0] ![1, 128] i0, w0⟩ :: L) (ix2 (2 : Fin 4) o)
      = w2 (ix2 (0 : Fin 1) o) := by
  rw [View.canon_cons_of_not_mem (⟨Rect.unit (s := SStat) ![3, 0] ![1, 128] i3, w3⟩ : View.Piece Val SStat e) _ (not_mem_statRow 3 (2 : Fin 4) (Nat.ne_of_gt (by decide)) ![3, 0] rfl i3 o)]
  rw [← emb_statRow (2 : Fin 4) ![2, 0] rfl i2 (0 : Fin 1) o]
  exact View.canon_cons_emb (Rect.unit (s := SStat) ![2, 0] ![1, 128] i2) w2 _ _

/-- After the four row stores, row 1 holds its store. -/
theorem canon_rows1 (o : Fin 128) :
    View.canon ((⟨Rect.unit (s := SStat) ![3, 0] ![1, 128] i3, w3⟩ : View.Piece Val SStat e) :: ⟨Rect.unit (s := SStat) ![2, 0] ![1, 128] i2, w2⟩
      :: ⟨Rect.unit (s := SStat) ![1, 0] ![1, 128] i1, w1⟩ :: ⟨Rect.unit (s := SStat) ![0, 0] ![1, 128] i0, w0⟩ :: L) (ix2 (1 : Fin 4) o)
      = w1 (ix2 (0 : Fin 1) o) := by
  rw [View.canon_cons_of_not_mem (⟨Rect.unit (s := SStat) ![3, 0] ![1, 128] i3, w3⟩ : View.Piece Val SStat e) _ (not_mem_statRow 3 (1 : Fin 4) (Nat.ne_of_gt (by decide)) ![3, 0] rfl i3 o),
    View.canon_cons_of_not_mem (⟨Rect.unit (s := SStat) ![2, 0] ![1, 128] i2, w2⟩ : View.Piece Val SStat e) _ (not_mem_statRow 2 (1 : Fin 4) (Nat.ne_of_gt (by decide)) ![2, 0] rfl i2 o)]
  rw [← emb_statRow (1 : Fin 4) ![1, 0] rfl i1 (0 : Fin 1) o]
  exact View.canon_cons_emb (Rect.unit (s := SStat) ![1, 0] ![1, 128] i1) w1 _ _

/-- After the four row stores, row 0 holds its store. -/
theorem canon_rows0 (o : Fin 128) :
    View.canon ((⟨Rect.unit (s := SStat) ![3, 0] ![1, 128] i3, w3⟩ : View.Piece Val SStat e) :: ⟨Rect.unit (s := SStat) ![2, 0] ![1, 128] i2, w2⟩
      :: ⟨Rect.unit (s := SStat) ![1, 0] ![1, 128] i1, w1⟩ :: ⟨Rect.unit (s := SStat) ![0, 0] ![1, 128] i0, w0⟩ :: L) (ix2 (0 : Fin 4) o)
      = w0 (ix2 (0 : Fin 1) o) := by
  rw [View.canon_cons_of_not_mem (⟨Rect.unit (s := SStat) ![3, 0] ![1, 128] i3, w3⟩ : View.Piece Val SStat e) _ (not_mem_statRow 3 (0 : Fin 4) (Nat.ne_of_gt (by decide)) ![3, 0] rfl i3 o),
    View.canon_cons_of_not_mem (⟨Rect.unit (s := SStat) ![2, 0] ![1, 128] i2, w2⟩ : View.Piece Val SStat e) _ (not_mem_statRow 2 (0 : Fin 4) (Nat.ne_of_gt (by decide)) ![2, 0] rfl i2 o),
    View.canon_cons_of_not_mem (⟨Rect.unit (s := SStat) ![1, 0] ![1, 128] i1, w1⟩ : View.Piece Val SStat e) _ (not_mem_statRow 1 (0 : Fin 4) (Nat.ne_of_gt (by decide)) ![1, 0] rfl i1 o)]
  rw [← emb_statRow (0 : Fin 4) ![0, 0] rfl i0 (0 : Fin 1) o]
  exact View.canon_cons_emb (Rect.unit (s := SStat) ![0, 0] ![1, 128] i0) w0 _ _

/-- A store of another row does not show in a load of row r. -/
theorem readCov_skip_row {sig : RefSig} {κ : Kind} {sp : Space} (v : View sig κ sp SStat e) (r' r : ℕ) (hne : r' ≠ r)
    (off' off : Fin 2 → ℕ) (h' : off' = ![r', 0]) (h : off = ![r, 0])
    (inb' : ∀ x, off' x + (![1, 128] : Fin 2 → ℕ) x ≤ SStat.size x) (inb : ∀ x, off x + (![1, 128] : Fin 2 → ℕ) x ≤ SStat.size x)
    (w : (⟨2, ![1, 128]⟩ : Shape).Idx → Val e) (L : List (View.Piece Val SStat e)) :
    v.readCov ((⟨Rect.unit (s := SStat) off' ![1, 128] inb', w⟩ : View.Piece Val SStat e) :: L) (Rect.unit (s := SStat) off ![1, 128] inb).toLoadRect
      = v.readCov L (Rect.unit (s := SStat) off ![1, 128] inb).toLoadRect := by
  subst h' h
  refine View.readCov_cons_of_disjoint v _ L _ (Finset.disjoint_left.mpr fun y h1 h2 => ?_)
  rw [Rect.mem_set_unit] at h1
  rw [LoadRect.mem_set] at h2
  obtain ⟨j, hj, ej⟩ := h2 0
  have h0 := h1 0
  change r' ≤ (y 0).val ∧ (y 0).val < r' + 1 at h0
  change j < 1 at hj
  change (y 0).val = r + 1 * j at ej
  omega

/-- Row r loaded after one store of the whole buffer reads that store's row r. -/
theorem readCov_whole_row {sig : RefSig} {κ : Kind} {sp : Space} (v : View sig κ sp SStat e) (w : SStat.Idx → Val e)
    (iw : ∀ x, (![0, 0] : Fin 2 → ℕ) x + SStat.size x ≤ SStat.size x) (r : Fin 4) (off : Fin 2 → ℕ) (hoff : off = ![r.val, 0])
    (inb : ∀ x, off x + (![1, 128] : Fin 2 → ℕ) x ≤ SStat.size x) (u : Fin 1) (o : Fin 128) :
    v.readCov [(⟨Rect.unit (s := SStat) ![0, 0] SStat.size iw, w⟩ : View.Piece Val SStat e)] (Rect.unit (s := SStat) off ![1, 128] inb).toLoadRect (ix2 u o)
      = w (ix2 r o) := by
  subst hoff
  rw [View.readCov_eq_canon', View.canon_unit_zero zeros2]
  show w _ = w _
  congr 1
  funext x
  apply Fin.ext
  match x with
  | ⟨0, _⟩ => show r.val + 1 * u.val = r.val; omega
  | ⟨1, _⟩ => show 0 + 1 * o.val = o.val; omega

end Cert.KernelSide

end
-- ==== Proof.KStatsA.lean ====
/-
  The statistics region at the first tile: the two running statistics are cleared, then each row gains the
  tile's column sum of the first linear map, and of its square; so after the first tile they hold the first
  tile's column sums.
-/
import proofs.«110614_j51762945852038_2_alg».proof.Proof.Gen.KernelIdeal.Frame
import proofs.«110614_j51762945852038_2_alg».proof.Proof.KTile
import proofs.«110614_j51762945852038_2_alg».proof.Proof.KRows
import Idealize.ShloMosaic.PureOps.Ideal.Laws
import Idealize.ShloMosaic.Lib.Pipeline.Value
import Idealize.ShloMosaic.Lib.ValueIdx
import Idealize.ShloMosaic.Lib.Tactic

noncomputable section

namespace Cert.KernelSide

open Idealize.ShloMosaic Idealize.ShloMosaic.TcCoe Idealize.SL.Sem Idealize.ShloMosaic.ValueIdx
open Cert.KernelIdeal Cert.KernelIdeal.Gen

/-- The cleared running sum is zero everywhere. -/
theorem zero_sum (y : S4x128.Idx) : k0_pay3 (F := Ideal) y = 0 := by
  unfold k0_pay3
  exact Ideal.ofBits_zero_f32

/-- The cleared running sum of squares is zero everywhere. -/
theorem zero_sq (y : S4x128.Idx) : k0_pay4 (F := Ideal) y = 0 := by
  unfold k0_pay4
  exact Ideal.ofBits_zero_f32

/-- After the first tile the running sum holds the tile's column sums. -/
theorem firstSum_apply (c : Dev nD) (i : grid0.Coords) (a1 : Memref sig .tc .vmem S2000x128 .f32) (h1 : a1.IsWhole) (a2 : Memref sig .tc .vmem S4x2000x128 .f32) (h2 : a2.IsWhole) (a3 : Memref sig .tc .vmem S4x128x128 .f32) (h3 : a3.IsWhole) (a4 : Memref sig .tc .vmem S4x128 .f32) (h4 : a4.IsWhole) (a5 : Memref sig .tc .vmem S4x128 .f32) (h5 : a5.IsWhole) (a6 : Memref sig .tc .vmem S4x128 .f32) (h6 : a6.IsWhole) (hc : cond0_0 i) (x0 : Vec Ideal S2000x128 .f32) (x1 : Vec Ideal S4x2000x128 .f32) (x2 : Vec Ideal S4x128x128 .f32) (x3 : Vec Ideal S4x128 .f32) (r : Fin 4) (o : Fin 128) :
    out0_A_4 (F := Ideal) c i a1 h1 a2 h2 a3 h3 a4 h4 a5 h5 a6 h6 hc x0 x1 x2 x3 (ix2 r o) = ∑ s : Fin 2000, tilePre x0 x1 x2 x3 r s o := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  simp only [View.readAt_eq_ld, h1.read_unread, h2.read_unread, h3.read_unread, h4.read_unread, h5.read_unread, h6.read_unread,
    sum_rel1, sum_rel2, sum_rel3]
  fin_cases r
  · refine (canon_rows0 _ _ _ _ _ _ _ _ _ o).trans ?_
    refine (rowVal_sum x0 x1 x2 x3 _ (0 : Fin 4) ![0, 0] zeros2 _ ![0, 0, 0] rfl _ ![0, 0, 0] rfl _ ![0, 0] rfl _ 0 o).trans ?_
    rw [readCov_whole_row a5.view _ _ (0 : Fin 4) ![0, 0] rfl,
      zero_sum,
      zero_add]
    rfl
  · refine (canon_rows1 _ _ _ _ _ _ _ _ _ o).trans ?_
    refine (rowVal_sum x0 x1 x2 x3 _ (1 : Fin 4) ![0, 0] zeros2 _ ![1, 0, 0] rfl _ ![1, 0, 0] rfl _ ![1, 0] rfl _ 0 o).trans ?_
    rw [readCov_skip_row a5.view 0 1 (by decide) ![0, 0] ![1, 0] rfl rfl,
      readCov_whole_row a5.view _ _ (1 : Fin 4) ![1, 0] rfl,
      zero_sum,
      zero_add]
    rfl
  · refine (canon_rows2 _ _ _ _ _ _ _ _ _ o).trans ?_
    refine (rowVal_sum x0 x1 x2 x3 _ (2 : Fin 4) ![0, 0] zeros2 _ ![2, 0, 0] rfl _ ![2, 0, 0] rfl _ ![2, 0] rfl _ 0 o).trans ?_
    rw [readCov_skip_row a5.view 1 2 (by decide) ![1, 0] ![2, 0] rfl rfl,
      readCov_skip_row a5.view 0 2 (by decide) ![0, 0] ![2, 0] rfl rfl,
      readCov_whole_row a5.view _ _ (2 : Fin 4) ![2, 0] rfl,
      zero_sum,
      zero_add]
    rfl
  · refine (canon_rows3 _ _ _ _ _ _ _ _ _ o).trans ?_
    refine (rowVal_sum x0 x1 x2 x3 _ (3 : Fin 4) ![0, 0] zeros2 _ ![3, 0, 0] rfl _ ![3, 0, 0] rfl _ ![3, 0] rfl _ 0 o).trans ?_
    rw [readCov_skip_row a5.view 2 3 (by decide) ![2, 0] ![3, 0] rfl rfl,
      readCov_skip_row a5.view 1 3 (by decide) ![1, 0] ![3, 0] rfl rfl,
      readCov_skip_row a5.view 0 3 (by decide) ![0, 0] ![3, 0] rfl rfl,
      readCov_whole_row a5.view _ _ (3 : Fin 4) ![3, 0] rfl,
      zero_sum,
      zero_add]
    rfl

/-- After the first tile the running sum of squares holds the tile's column sums of squares. -/
theorem firstSq_apply (c : Dev nD) (i : grid0.Coords) (a1 : Memref sig .tc .vmem S2000x128 .f32) (h1 : a1.IsWhole) (a2 : Memref sig .tc .vmem S4x2000x128 .f32) (h2 : a2.IsWhole) (a3 : Memref sig .tc .vmem S4x128x128 .f32) (h3 : a3.IsWhole) (a4 : Memref sig .tc .vmem S4x128 .f32) (h4 : a4.IsWhole) (a5 : Memref sig .tc .vmem S4x128 .f32) (h5 : a5.IsWhole) (a6 : Memref sig .tc .vmem S4x128 .f32) (h6 : a6.IsWhole) (hc : cond0_0 i) (x0 : Vec Ideal S2000x128 .f32) (x1 : Vec Ideal S4x2000x128 .f32) (x2 : Vec Ideal S4x128x128 .f32) (x3 : Vec Ideal S4x128 .f32) (r : Fin 4) (o : Fin 128) :
    out0_A_5 (F := Ideal) c i a1 h1 a2 h2 a3 h3 a4 h4 a5 h5 a6 h6 hc x0 x1 x2 x3 (ix2 r o) = ∑ s : Fin 2000, tilePre x0 x1 x2 x3 r s o * tilePre x0 x1 x2 x3 r s o := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  simp only [View.readAt_eq_ld, h1.read_unread, h2.read_unread, h3.read_unread, h4.read_unread, h5.read_unread, h6.read_unread,
    sq_rel1, sq_rel2, sq_rel3]
  fin_cases r
  · refine (canon_rows0 _ _ _ _ _ _ _ _ _ o).trans ?_
    refine (rowVal_sq x0 x1 x2 x3 _ (0 : Fin 4) ![0, 0] zeros2 _ ![0, 0, 0] rfl _ ![0, 0, 0] rfl _ ![0, 0] rfl _ 0 o).trans ?_
    rw [readCov_whole_row a6.view _ _ (0 : Fin 4) ![0, 0] rfl,
      zero_sq,
      zero_add]
    rfl
  · refine (canon_rows1 _ _ _ _ _ _ _ _ _ o).trans ?_
    refine (rowVal_sq x0 x1 x2 x3 _ (1 : Fin 4) ![0, 0] zeros2 _ ![1, 0, 0] rfl _ ![1, 0, 0] rfl _ ![1, 0] rfl _ 0 o).trans ?_
    rw [readCov_skip_row a6.view 0 1 (by decide) ![0, 0] ![1, 0] rfl rfl,
      readCov_whole_row a6.view _ _ (1 : Fin 4) ![1, 0] rfl,
      zero_sq,
      zero_add]
    rfl
  · refine (canon_rows2 _ _ _ _ _ _ _ _ _ o).trans ?_
    refine (rowVal_sq x0 x1 x2 x3 _ (2 : Fin 4) ![0, 0] zeros2 _ ![2, 0, 0] rfl _ ![2, 0, 0] rfl _ ![2, 0] rfl _ 0 o).trans ?_
    rw [readCov_skip_row a6.view 1 2 (by decide) ![1, 0] ![2, 0] rfl rfl,
      readCov_skip_row a6.view 0 2 (by decide) ![0, 0] ![2, 0] rfl rfl,
      readCov_whole_row a6.view _ _ (2 : Fin 4) ![2, 0] rfl,
      zero_sq,
      zero_add]
    rfl
  · refine (canon_rows3 _ _ _ _ _ _ _ _ _ o).trans ?_
    refine (rowVal_sq x0 x1 x2 x3 _ (3 : Fin 4) ![0, 0] zeros2 _ ![3, 0, 0] rfl _ ![3, 0, 0] rfl _ ![3, 0] rfl _ 0 o).trans ?_
    rw [readCov_skip_row a6.view 2 3 (by decide) ![2, 0] ![3, 0] rfl rfl,
      readCov_skip_row a6.view 1 3 (by decide) ![1, 0] ![3, 0] rfl rfl,
      readCov_skip_row a6.view 0 3 (by decide) ![0, 0] ![3, 0] rfl rfl,
      readCov_whole_row a6.view _ _ (3 : Fin 4) ![3, 0] rfl,
      zero_sq,
      zero_add]
    rfl

end Cert.KernelSide

end
-- ==== Proof.KStatsB.lean ====
/-
  The statistics region at a tile after the first: each row of the two running statistics gains the tile's
  column sum of the first linear map, and of its square.
-/
import proofs.«110614_j51762945852038_2_alg».proof.Proof.Gen.KernelIdeal.Frame
import proofs.«110614_j51762945852038_2_alg».proof.Proof.KTile
import proofs.«110614_j51762945852038_2_alg».proof.Proof.KRows
import Idealize.ShloMosaic.Lib.Pipeline.Value
import Idealize.ShloMosaic.Lib.ValueIdx
import Idealize.ShloMosaic.Lib.Tactic

noncomputable section

namespace Cert.KernelSide

open Idealize.ShloMosaic Idealize.ShloMosaic.TcCoe Idealize.SL.Sem Idealize.ShloMosaic.ValueIdx
open Cert.KernelIdeal Cert.KernelIdeal.Gen

/-- After a later tile the running sum holds what it held plus the tile's column sums. -/
theorem laterSum_apply (c : Dev nD) (i : grid0.Coords) (a1 : Memref sig .tc .vmem S2000x128 .f32) (h1 : a1.IsWhole) (a2 : Memref sig .tc .vmem S4x2000x128 .f32) (h2 : a2.IsWhole) (a3 : Memref sig .tc .vmem S4x128x128 .f32) (h3 : a3.IsWhole) (a4 : Memref sig .tc .vmem S4x128 .f32) (h4 : a4.IsWhole) (a5 : Memref sig .tc .vmem S4x128 .f32) (h5 : a5.IsWhole) (a6 : Memref sig .tc .vmem S4x128 .f32) (h6 : a6.IsWhole) (hc : ¬cond0_0 i) (x0 : Vec Ideal S2000x128 .f32) (x1 : Vec Ideal S4x2000x128 .f32) (x2 : Vec Ideal S4x128x128 .f32) (x3 : Vec Ideal S4x128 .f32) (xo4 : Vec Ideal S4x128 .f32) (xo5 : Vec Ideal S4x128 .f32) (r : Fin 4) (o : Fin 128) :
    out0_B_4 (F := Ideal) c i a1 h1 a2 h2 a3 h3 a4 h4 a5 h5 a6 h6 hc x0 x1 x2 x3 xo4 xo5 (ix2 r o) = xo4 (ix2 r o) + ∑ s : Fin 2000, tilePre x0 x1 x2 x3 r s o := by
  unfold out0_B_4
  rw [View.read_writes_eq_canon _ _ _ (cover0_B_4 c i a1 h1 a2 h2 a3 h3 a4 h4 a5 h5 a6 h6 hc x0 x1 x2 x3 xo4 xo5)]
  unfold kernelRun0_B
  dsimp only
  sl_unfold_words
  simp only [View.readAt_eq_ld, h1.read_unread, h2.read_unread, h3.read_unread, h4.read_unread, h5.read_unread, h6.read_unread,
    sum_rel1, sum_rel2, sum_rel3]
  fin_cases r
  · refine (canon_rows0 _ _ _ _ [] _ _ _ _ o).trans ?_
    refine (rowVal_sum x0 x1 x2 x3 _ (0 : Fin 4) ![0, 0] zeros2 _ ![0, 0, 0] rfl _ ![0, 0, 0] rfl _ ![0, 0] rfl _ 0 o).trans ?_
    rw [ld_row xo4 (0 : Fin 4) ![0, 0] rfl]
    rfl
  · refine (canon_rows1 _ _ _ _ [] _ _ _ _ o).trans ?_
    refine (rowVal_sum x0 x1 x2 x3 _ (1 : Fin 4) ![0, 0] zeros2 _ ![1, 0, 0] rfl _ ![1, 0, 0] rfl _ ![1, 0] rfl _ 0 o).trans ?_
    rw [ld_row xo4 (1 : Fin 4) ![1, 0] rfl]
    rfl
  · refine (canon_rows2 _ _ _ _ [] _ _ _ _ o).trans ?_
    refine (rowVal_sum x0 x1 x2 x3 _ (2 : Fin 4) ![0, 0] zeros2 _ ![2, 0, 0] rfl _ ![2, 0, 0] rfl _ ![2, 0] rfl _ 0 o).trans ?_
    rw [ld_row xo4 (2 : Fin 4) ![2, 0] rfl]
    rfl
  · refine (canon_rows3 _ _ _ _ [] _ _ _ _ o).trans ?_
    refine (rowVal_sum x0 x1 x2 x3 _ (3 : Fin 4) ![0, 0] zeros2 _ ![3, 0, 0] rfl _ ![3, 0, 0] rfl _ ![3, 0] rfl _ 0 o).trans ?_
    rw [ld_row xo4 (3 : Fin 4) ![3, 0] rfl]
    rfl

/-- After a later tile the running sum of squares holds what it held plus the tile's column sums of squares. -/
theorem laterSq_apply (c : Dev nD) (i : grid0.Coords) (a1 : Memref sig .tc .vmem S2000x128 .f32) (h1 : a1.IsWhole) (a2 : Memref sig .tc .vmem S4x2000x128 .f32) (h2 : a2.IsWhole) (a3 : Memref sig .tc .vmem S4x128x128 .f32) (h3 : a3.IsWhole) (a4 : Memref sig .tc .vmem S4x128 .f32) (h4 : a4.IsWhole) (a5 : Memref sig .tc .vmem S4x128 .f32) (h5 : a5.IsWhole) (a6 : Memref sig .tc .vmem S4x128 .f32) (h6 : a6.IsWhole) (hc : ¬cond0_0 i) (x0 : Vec Ideal S2000x128 .f32) (x1 : Vec Ideal S4x2000x128 .f32) (x2 : Vec Ideal S4x128x128 .f32) (x3 : Vec Ideal S4x128 .f32) (xo4 : Vec Ideal S4x128 .f32) (xo5 : Vec Ideal S4x128 .f32) (r : Fin 4) (o : Fin 128) :
    out0_B_5 (F := Ideal) c i a1 h1 a2 h2 a3 h3 a4 h4 a5 h5 a6 h6 hc x0 x1 x2 x3 xo4 xo5 (ix2 r o)
      = xo5 (ix2 r o) + ∑ s : Fin 2000, tilePre x0 x1 x2 x3 r s o * tilePre x0 x1 x2 x3 r s o := by
  unfold out0_B_5
  rw [View.read_writes_eq_canon _ _ _ (cover0_B_5 c i a1 h1 a2 h2 a3 h3 a4 h4 a5 h5 a6 h6 hc x0 x1 x2 x3 xo4 xo5)]
  unfold kernelRun0_B
  dsimp only
  sl_unfold_words
  simp only [View.readAt_eq_ld, h1.read_unread, h2.read_unread, h3.read_unread, h4.read_unread, h5.read_unread, h6.read_unread,
    sq_rel1, sq_rel2, sq_rel3]
  fin_cases r
  · refine (canon_rows0 _ _ _ _ [] _ _ _ _ o).trans ?_
    refine (rowVal_sq x0 x1 x2 x3 _ (0 : Fin 4) ![0, 0] zeros2 _ ![0, 0, 0] rfl _ ![0, 0, 0] rfl _ ![0, 0] rfl _ 0 o).trans ?_
    rw [ld_row xo5 (0 : Fin 4) ![0, 0] rfl]
    rfl
  · refine (canon_rows1 _ _ _ _ [] _ _ _ _ o).trans ?_
    refine (rowVal_sq x0 x1 x2 x3 _ (1 : Fin 4) ![0, 0] zeros2 _ ![1, 0, 0] rfl _ ![1, 0, 0] rfl _ ![1, 0] rfl _ 0 o).trans ?_
    rw [ld_row xo5 (1 : Fin 4) ![1, 0] rfl]
    rfl
  · refine (canon_rows2 _ _ _ _ [] _ _ _ _ o).trans ?_
    refine (rowVal_sq x0 x1 x2 x3 _ (2 : Fin 4) ![0, 0] zeros2 _ ![2, 0, 0] rfl _ ![2, 0, 0] rfl _ ![2, 0] rfl _ 0 o).trans ?_
    rw [ld_row xo5 (2 : Fin 4) ![2, 0] rfl]
    rfl
  · refine (canon_rows3 _ _ _ _ [] _ _ _ _ o).trans ?_
    refine (rowVal_sq x0 x1 x2 x3 _ (3 : Fin 4) ![0, 0] zeros2 _ ![3, 0, 0] rfl _ ![3, 0, 0] rfl _ ![3, 0] rfl _ 0 o).trans ?_
    rw [ld_row xo5 (3 : Fin 4) ![3, 0] rfl]
    rfl

end Cert.KernelSide

end
-- ==== Proof.KBlocks0.lean ====
/-
  What the statistics region's windows show at a grid point, read at coordinates: tile t of the node features
  and of the summed neighbour features is rows 2000·t … 2000·t + 1999 of those arrays; the weights and the bias
  are seen whole at every point.
-/
import proofs.«110614_j51762945852038_2_alg».proof.Proof.Gen.KernelIdeal.Frame
import Idealize.ShloMosaic.Lib.Pipeline.Value
import Idealize.ShloMosaic.Lib.ValueIdx
import Idealize.ShloMosaic.PureOps.Ideal

noncomputable section

namespace Cert.KernelSide

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- Where window 0 of region 0 points at each grid point. -/
theorem index0_0 : ∀ t : Fin cfg0.N, win0_0.index t 0 = t.val ∧ win0_0.index t 1 = 0 :=
  (by decide +kernel : ∀ t : Fin grid0.N, win0_0.index t 0 = t.val ∧ win0_0.index t 1 = 0)

/-- The tile of node features: row s of tile t is node 2000·t + s. -/
theorem stat_x (c : Dev nD) (t : Fin cfg0.N) (y0 : Fin 2000) (y1 : Fin 128) (hb : t.val * 2000 + y0.val < 50000) :
    (iblk0 V c 0 t : Vec Ideal S2000x128 .f32) (ix2 y0 y1) = (V c main_arg0 : Vec Ideal S50000x128 .f32) (ix2 ⟨t.val * 2000 + y0.val, hb⟩ y1) := by
  unfold iblk0
  rw [View.read_apply]
  show V c main_arg0 _ = V c main_arg0 _
  congr 1
  funext a
  apply Fin.ext
  match a with
  | ⟨0, _⟩ => show win0_0.index t 0 * 2000 + 1 * y0.val = t.val * 2000 + y0.val; rw [(index0_0 t).1]; omega
  | ⟨1, _⟩ => show win0_0.index t 1 * 128 + 1 * y1.val = y1.val; rw [(index0_0 t).2]; omega

/-- Where window 1 of region 0 points at each grid point. -/
theorem index0_1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

/-- The tile of summed neighbour features, all four relations. -/
theorem stat_agg (c : Dev nD) (t : Fin cfg0.N) (y0 : Fin 4) (y1 : Fin 2000) (y2 : Fin 128) (hb : t.val * 2000 + y1.val < 50000) :
    (iblk0 V c 1 t : Vec Ideal S4x2000x128 .f32) (ix3 y0 y1 y2) = (V c main_v17 : Vec Ideal S4x50000x128 .f32) (ix3 y0 ⟨t.val * 2000 + y1.val, hb⟩ y2) := by
  unfold iblk0
  rw [View.read_apply]
  show V c main_v17 _ = V c main_v17 _
  congr 1
  funext a
  apply Fin.ext
  match a with
  | ⟨0, _⟩ => show win0_1.index t 0 * 4 + 1 * y0.val = y0.val; rw [(index0_1 t).1]; omega
  | ⟨1, _⟩ => show win0_1.index t 1 * 2000 + 1 * y1.val = t.val * 2000 + y1.val; rw [(index0_1 t).2.1]; omega
  | ⟨2, _⟩ => show win0_1.index t 2 * 128 + 1 * y2.val = y2.val; rw [(index0_1 t).2.2]; omega

/-- Where window 2 of region 0 points at each grid point. -/
theorem index0_2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

/-- The first linear map's weights, whole. -/
theorem stat_w1 (c : Dev nD) (t : Fin cfg0.N) (y0 : Fin 4) (y1 : Fin 128) (y2 : Fin 128) :
    (iblk0 V c 2 t : Vec Ideal S4x128x128 .f32) (ix3 y0 y1 y2) = (V c main_arg5 : Vec Ideal S4x128x128 .f32) (ix3 y0 y1 y2) := by
  unfold iblk0
  rw [View.read_apply]
  show V c main_arg5 _ = V c main_arg5 _
  congr 1
  funext a
  apply Fin.ext
  match a with
  | ⟨0, _⟩ => show win0_2.index t 0 * 4 + 1 * y0.val = y0.val; rw [(index0_2 t).1]; omega
  | ⟨1, _⟩ => show win0_2.index t 1 * 128 + 1 * y1.val = y1.val; rw [(index0_2 t).2.1]; omega
  | ⟨2, _⟩ => show win0_2.index t 2 * 128 + 1 * y2.val = y2.val; rw [(index0_2 t).2.2]; omega

/-- Where window 3 of region 0 points at each grid point. -/
theorem index0_3 : ∀ t : Fin cfg0.N, win0_3.index t 0 = 0 ∧ win0_3.index t 1 = 0 :=
  (by decide +kernel : ∀ t : Fin grid0.N, win0_3.index t 0 = 0 ∧ win0_3.index t 1 = 0)

/-- The first linear map's bias, whole. -/
theorem stat_b1 (c : Dev nD) (t : Fin cfg0.N) (y0 : Fin 4) (y1 : Fin 128) :
    (iblk0 V c 3 t : Vec Ideal S4x128 .f32) (ix2 y0 y1) = (V c main_arg6 : Vec Ideal S4x128 .f32) (ix2 y0 y1) := by
  unfold iblk0
  rw [View.read_apply]
  show V c main_arg6 _ = V c main_arg6 _
  congr 1
  funext a
  apply Fin.ext
  match a with
  | ⟨0, _⟩ => show win0_3.index t 0 * 4 + 1 * y0.val = y0.val; rw [(index0_3 t).1]; omega
  | ⟨1, _⟩ => show win0_3.index t 1 * 128 + 1 * y1.val = y1.val; rw [(index0_3 t).2]; omega

end Cert.KernelSide

end
-- ==== Proof.Spec.lean ====
/-
  The specification both programs are compared against, over coordinate functions on the extended reals.

  A graph-isomorphism layer with four relations. With x the node features, agg r the summed neighbour
  features of relation r, the layer computes per relation
    pre r n o  = (∑ k, (x n k + agg r n k) · w1 r k o) + b1 r o              (first linear map)
    mean r o   = (∑ n, pre r n o) / N                                        (batch mean over the N nodes)
    var r o    = (∑ n, (pre r n o − mean r o)²) / N                          (biased batch variance)
    act r n o  = max (((pre − mean) · rsqrt (var + ε)) · γ + β) 0            (normalise, scale, shift, rectify)
    lin2 r n p = (∑ o, act r n o · w2 r o p) + b2 r p                        (second linear map)
  and the result is  (∑ k, x n k · wself k p + bself p) + ∑ r, lin2 r n p.
  `varK` is the variance in its "mean of squares minus square of the mean" form.
-/
import Idealize.ShloMosaic.PureOps.Ideal
import Idealize.ShloMosaic.Lib.ValueIdx
import Mathlib.Algebra.BigOperators.Fin

noncomputable section

namespace Cert.Gin

open Idealize.ShloMosaic

/-- The node count N = 50000 as the f32 literal both programs divide by. -/
abbrev cN : EReal := Ideal.ofBits .f32 0x47435000#32
/-- The variance guard ε as the f32 literal both programs add. -/
abbrev cEps : EReal := Ideal.ofBits .f32 0x3727C5AC#32

section
variable (x : Fin 50000 → Fin 128 → EReal) (agg : Fin 4 → Fin 50000 → Fin 128 → EReal)
  (w1 : Fin 4 → Fin 128 → Fin 128 → EReal) (b1 : Fin 4 → Fin 128 → EReal)

/-- The first linear map of relation r at node n, output feature o. -/
def pre (r : Fin 4) (n : Fin 50000) (o : Fin 128) : EReal :=
  (∑ k : Fin 128, (x n k + agg r n k) * w1 r k o) + b1 r o

/-- The batch mean of `pre` over the nodes. -/
def mean (r : Fin 4) (o : Fin 128) : EReal :=
  Ideal.div (∑ n : Fin 50000, pre x agg w1 b1 r n o) cN

/-- The biased batch variance: the mean of the squared deviations. -/
def var (r : Fin 4) (o : Fin 128) : EReal :=
  Ideal.div (∑ n : Fin 50000, (pre x agg w1 b1 r n o - mean x agg w1 b1 r o) * (pre x agg w1 b1 r n o - mean x agg w1 b1 r o)) cN

/-- The same variance as the mean of the squares less the square of the mean. -/
def varK (r : Fin 4) (o : Fin 128) : EReal :=
  Ideal.div (∑ n : Fin 50000, pre x agg w1 b1 r n o * pre x agg w1 b1 r n o) cN - mean x agg w1 b1 r o * mean x agg w1 b1 r o

variable (V : Fin 4 → Fin 128 → EReal) (g be : Fin 4 → Fin 128 → EReal)
  (w2 : Fin 4 → Fin 128 → Fin 128 → EReal) (b2 : Fin 4 → Fin 128 → EReal)
  (wself : Fin 128 → Fin 128 → EReal) (bself : Fin 128 → EReal)

/-- Normalised by a given variance `V`, scaled, shifted and rectified. -/
def act (r : Fin 4) (n : Fin 50000) (o : Fin 128) : EReal :=
  max (((pre x agg w1 b1 r n o - mean x agg w1 b1 r o) * Ideal.rsqrt (V r o + cEps)) * g r o + be r o) 0

/-- The second linear map. -/
def lin2 (r : Fin 4) (n : Fin 50000) (p : Fin 128) : EReal :=
  (∑ o : Fin 128, act x agg w1 b1 V g be r n o * w2 r o p) + b2 r p

/-- The layer's output with the variance `V`: the self-loop linear map plus the four relations' results. -/
def outV (n : Fin 50000) (p : Fin 128) : EReal :=
  ((∑ k : Fin 128, x n k * wself k p) + bself p) + ∑ r : Fin 4, lin2 x agg w1 b1 V g be w2 b2 r n p

end

end Cert.Gin

end
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.KAccum.lean ====
/-
  The statistics region's two results. Tile by tile the running statistics gain the tile's column sums, so after
  the last of the 25 tiles they hold, for relation r and output feature o, the sum over all 50000 nodes of the
  first linear map and of its square; the one write-back, after the last tile, puts them in the result arrays.
-/
import proofs.«110614_j51762945852038_2_alg».proof.Proof.Gen.KernelIdeal.Frame
import proofs.«110614_j51762945852038_2_alg».proof.Proof.KStatsA
import proofs.«110614_j51762945852038_2_alg».proof.Proof.KStatsB
import proofs.«110614_j51762945852038_2_alg».proof.Proof.KBlocks0
import proofs.«110614_j51762945852038_2_alg».proof.Proof.Spec
import proofs.«110614_j51762945852038_2_alg».proof.Proof.LibBlocks
import Idealize.ShloMosaic.Lib.Pipeline.Value

noncomputable section

namespace Cert.KernelSide

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The arrays the statistics region reads, by coordinates. -/
abbrev xOf (c : Dev nD) : Fin 50000 → Fin 128 → EReal := fun n k => (V c main_arg0 : Vec Ideal S50000x128 .f32) (ix2 n k)
abbrev aggOf (c : Dev nD) : Fin 4 → Fin 50000 → Fin 128 → EReal := fun r n k => (V c main_v17 : Vec Ideal S4x50000x128 .f32) (ix3 r n k)
abbrev w1Of (c : Dev nD) : Fin 4 → Fin 128 → Fin 128 → EReal := fun r k o => (V c main_arg5 : Vec Ideal S4x128x128 .f32) (ix3 r k o)
abbrev b1Of (c : Dev nD) : Fin 4 → Fin 128 → EReal := fun r o => (V c main_arg6 : Vec Ideal S4x128 .f32) (ix2 r o)

theorem points25 : cfg0.N = 25 := N_0

/-- The four input windows' blocks at a grid point. -/
def tileX (c : Dev nD) (t : Fin cfg0.N) : Vec Ideal S2000x128 .f32 := iblk0 V c 0 t
def tileAgg (c : Dev nD) (t : Fin cfg0.N) : Vec Ideal S4x2000x128 .f32 := iblk0 V c 1 t
def tileW1 (c : Dev nD) (t : Fin cfg0.N) : Vec Ideal S4x128x128 .f32 := iblk0 V c 2 t
def tileB1 (c : Dev nD) (t : Fin cfg0.N) : Vec Ideal S4x128 .f32 := iblk0 V c 3 t

/-- Node s of tile t is node 2000·t + s: the tile's first linear map is the layer's at that node. -/
theorem tile_pre (c : Dev nD) (t : Fin cfg0.N) (r : Fin 4) (s : Fin 2000) (o : Fin 128) (hb : t.val * 2000 + s.val < 50000) :
    tilePre (tileX V c t) (tileAgg V c t) (tileW1 V c t) (tileB1 V c t) r s o
      = Cert.Gin.pre (xOf V c) (aggOf V c) (w1Of V c) (b1Of V c) r ⟨t.val * 2000 + s.val, hb⟩ o := by
  unfold tilePre Cert.Gin.pre tileX tileAgg tileW1 tileB1
  refine congrArg₂ (· + ·) (Finset.sum_congr rfl fun k _ => ?_) (stat_b1 V c t r o)
  rw [stat_x V c t s k hb, stat_agg V c t r s k hb, stat_w1 V c t r k o]

/-- What the running statistics hold after tile n: the column sums of tiles 0 … n. -/
def RunsTo (c : Dev nD) (n : ℕ) (h : n < cfg0.N) : Prop :=
  (∀ (r : Fin 4) (o : Fin 128), (outsAt0 V c n h).1 (ix2 r o)
      = ∑ t' : Fin (n + 1), ∑ s : Fin 2000, tilePre (tileX V c ⟨t'.val, lt_of_lt_of_le t'.isLt h⟩) (tileAgg V c ⟨t'.val, lt_of_lt_of_le t'.isLt h⟩) (tileW1 V c ⟨t'.val, lt_of_lt_of_le t'.isLt h⟩) (tileB1 V c ⟨t'.val, lt_of_lt_of_le t'.isLt h⟩) r s o)
  ∧ (∀ (r : Fin 4) (o : Fin 128), (outsAt0 V c n h).2 (ix2 r o)
      = ∑ t' : Fin (n + 1), ∑ s : Fin 2000, tilePre (tileX V c ⟨t'.val, lt_of_lt_of_le t'.isLt h⟩) (tileAgg V c ⟨t'.val, lt_of_lt_of_le t'.isLt h⟩) (tileW1 V c ⟨t'.val, lt_of_lt_of_le t'.isLt h⟩) (tileB1 V c ⟨t'.val, lt_of_lt_of_le t'.isLt h⟩) r s o
          * tilePre (tileX V c ⟨t'.val, lt_of_lt_of_le t'.isLt h⟩) (tileAgg V c ⟨t'.val, lt_of_lt_of_le t'.isLt h⟩) (tileW1 V c ⟨t'.val, lt_of_lt_of_le t'.isLt h⟩) (tileB1 V c ⟨t'.val, lt_of_lt_of_le t'.isLt h⟩) r s o)

set_option maxHeartbeats 1000000 in
/-- After the first tile the running statistics hold its column sums. -/
theorem running_zero (c : Dev nD) (h : 0 < cfg0.N) : RunsTo V c 0 h := by
  unfold RunsTo
  rw [outsAt0_A V c ⟨0, h⟩ rfl]
  dsimp only
  refine ⟨fun r o => ?_, fun r o => ?_⟩
  · rw [Fin.sum_univ_one]
    exact firstSum_apply c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (tileX V c ⟨0, h⟩) (tileAgg V c ⟨0, h⟩) (tileW1 V c ⟨0, h⟩) (tileB1 V c ⟨0, h⟩) r o
  · rw [Fin.sum_univ_one]
    exact firstSq_apply c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (tileX V c ⟨0, h⟩) (tileAgg V c ⟨0, h⟩) (tileW1 V c ⟨0, h⟩) (tileB1 V c ⟨0, h⟩) r o

set_option maxHeartbeats 1000000 in
/-- A later tile adds its column sums. -/
theorem running_succ (c : Dev nD) (n : ℕ) (h : n + 1 < cfg0.N) (ih : RunsTo V c n (Nat.lt_of_succ_lt h)) : RunsTo V c (n + 1) h := by
  have hN : cfg0.N = 25 := points25
  have hB : ¬(⟨n + 1, h⟩ : Fin cfg0.N).val % 25 = 0 := by dsimp only; omega
  obtain ⟨ih1, ih2⟩ := ih
  unfold RunsTo
  rw [outsAt0_B V c ⟨n + 1, h⟩ hB]
  dsimp only
  refine ⟨fun r o => ?_, fun r o => ?_⟩
  · refine (laterSum_apply c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh))
      (tileX V c ⟨n + 1, h⟩) (tileAgg V c ⟨n + 1, h⟩) (tileW1 V c ⟨n + 1, h⟩) (tileB1 V c ⟨n + 1, h⟩) (outsAt0 V c n (Nat.lt_of_succ_lt h)).1 (outsAt0 V c n (Nat.lt_of_succ_lt h)).2 r o).trans ?_
    conv_rhs => rw [Fin.sum_univ_castSucc]
    exact congrArg₂ (· + ·) (ih1 r o) rfl
  · refine (laterSq_apply c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh))
      (tileX V c ⟨n + 1, h⟩) (tileAgg V c ⟨n + 1, h⟩) (tileW1 V c ⟨n + 1, h⟩) (tileB1 V c ⟨n + 1, h⟩) (outsAt0 V c n (Nat.lt_of_succ_lt h)).1 (outsAt0 V c n (Nat.lt_of_succ_lt h)).2 r o).trans ?_
    conv_rhs => rw [Fin.sum_univ_castSucc]
    exact congrArg₂ (· + ·) (ih2 r o) rfl

/-- After tile n the running statistics hold the column sums of tiles 0 … n. -/
theorem running (c : Dev nD) (n : ℕ) : ∀ h : n < cfg0.N, RunsTo V c n h := by
  induction n with
  | zero => exact fun h => running_zero V c h
  | succ n ih => exact fun h => running_succ V c n h (ih (Nat.lt_of_succ_lt h))

/-- The last grid point. -/
abbrev lastPoint : Fin cfg0.N := ⟨24, by rw [points25]; decide⟩

/-- The 25 tiles of 2000 nodes are the 50000 nodes. -/
theorem tiles_sum (c : Dev nD) (g : Fin 50000 → EReal) (f : (t : Fin 25) → Fin 2000 → EReal)
    (hf : ∀ (t : Fin 25) (s : Fin 2000) (hb : t.val * 2000 + s.val < 50000), f t s = g ⟨t.val * 2000 + s.val, hb⟩) :
    ∑ t : Fin 25, ∑ s : Fin 2000, f t s = ∑ n : Fin 50000, g n := by
  refine Eq.trans ?_ (Cert.LibBlocks.sum_entries (A := 25) (B := 2000) g).symm
  refine Finset.sum_congr rfl fun t _ => Finset.sum_congr rfl fun s _ => ?_
  exact hf t s (Cert.LibBlocks.entry t s).isLt

/-- After the last tile the running sum is the sum over all nodes of the first linear map. -/
theorem sum_all (c : Dev nD) (r : Fin 4) (o : Fin 128) :
    (outsAt0 V c (lastPoint).val (lastPoint).isLt).1 (ix2 r o)
      = ∑ n : Fin 50000, Cert.Gin.pre (xOf V c) (aggOf V c) (w1Of V c) (b1Of V c) r n o := by
  rw [(running V c 24 (lastPoint).isLt).1 r o]
  exact tiles_sum c _ _ fun t s hb => tile_pre V c ⟨t.val, lt_of_lt_of_le t.isLt (lastPoint).isLt⟩ r s o hb

/-- After the last tile the running sum of squares is the sum over all nodes of the squared first linear map. -/
theorem sq_all (c : Dev nD) (r : Fin 4) (o : Fin 128) :
    (outsAt0 V c (lastPoint).val (lastPoint).isLt).2 (ix2 r o)
      = ∑ n : Fin 50000, Cert.Gin.pre (xOf V c) (aggOf V c) (w1Of V c) (b1Of V c) r n o
          * Cert.Gin.pre (xOf V c) (aggOf V c) (w1Of V c) (b1Of V c) r n o := by
  rw [(running V c 24 (lastPoint).isLt).2 r o]
  refine tiles_sum c (fun n => Cert.Gin.pre (xOf V c) (aggOf V c) (w1Of V c) (b1Of V c) r n o
          * Cert.Gin.pre (xOf V c) (aggOf V c) (w1Of V c) (b1Of V c) r n o) _ fun t s hb => ?_
  rw [tile_pre V c ⟨t.val, lt_of_lt_of_le t.isLt (lastPoint).isLt⟩ r s o hb]

end Cert.KernelSide

end
-- ==== Proof.KStatOut.lean ====
/-
  The statistics region's result arrays: each is written back once, after the last tile, with the running
  statistic — the sum over all nodes of the first linear map, and of its square.
-/
import proofs.«110614_j51762945852038_2_alg».proof.Proof.KAccum
import Idealize.ShloMosaic.Lib.Pipeline.Value

noncomputable section

namespace Cert.KernelSide

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The one write-back of window 4, after the last tile, writes what the running statistic then holds: its one
    block is the whole [4,128] array. -/
theorem flushed_sum (c : Dev nD) (t : Fin cfg0.N) (hf : (cfg0.win 4).flush t = true) :
    (dat0 V c).flushed 4 t = ((cfg0.win 4).blk t).view.read (Elt Ideal)
      ((outsAt0 V c (lastPoint).val (lastPoint).isLt).1 : Buf (Elt Ideal) ((c : Thread nD τ).loc main_v18_0)) := by
  have hN : cfg0.N = 25 := points25
  have h24 : t.val = 24 := by have := (flush0_4 t).mp hf; have := t.isLt; omega
  obtain rfl : t = lastPoint := Fin.ext h24
  show (cfg0.win 4).cut (grid0.coords lastPoint) ((dat0 V c).after 4 lastPoint) = _
  rw [after0_4]
  have hz' : (fun a => win0_4.index lastPoint a * main_v18_0.ty.shape.size a) = fun _ => 0 := funext fun a => by fin_cases a <;> decide +kernel
  exact (Memref.read_access_unit_zero (Elt Ideal) main_v18_0 hz' (fun a => by rw [congrFun hz' a]; simp) _).symm

/-- The one write-back of window 5, after the last tile, writes what the running statistic then holds: its one
    block is the whole [4,128] array. -/
theorem flushed_sq (c : Dev nD) (t : Fin cfg0.N) (hf : (cfg0.win 5).flush t = true) :
    (dat0 V c).flushed 5 t = ((cfg0.win 5).blk t).view.read (Elt Ideal)
      ((outsAt0 V c (lastPoint).val (lastPoint).isLt).2 : Buf (Elt Ideal) ((c : Thread nD τ).loc main_v18_1)) := by
  have hN : cfg0.N = 25 := points25
  have h24 : t.val = 24 := by have := (flush0_5 t).mp hf; have := t.isLt; omega
  obtain rfl : t = lastPoint := Fin.ext h24
  show (cfg0.win 5).cut (grid0.coords lastPoint) ((dat0 V c).after 5 lastPoint) = _
  rw [after0_5]
  have hz' : (fun a => win0_5.index lastPoint a * main_v18_1.ty.shape.size a) = fun _ => 0 := funext fun a => by fin_cases a <;> decide +kernel
  exact (Memref.read_access_unit_zero (Elt Ideal) main_v18_1 hz' (fun a => by rw [congrFun hz' a]; simp) _).symm

/-- The first result array ends holding the running sum after the last tile. -/
theorem out_sum (c : Dev nD) : (dat0 V c).arrAt 4 cfg0.N = (outsAt0 V c (lastPoint).val (lastPoint).isLt).1 :=
  (dat0 V c).arrAt_eq_of_cover 4 _ (flushed_sum V c) fun i => ⟨lastPoint, (flush0_4 lastPoint).mpr rfl, by
      show i ∈ ((View.whole main_v18_0).slice (win0_4.rect lastPoint)).set
      rw [View.set_slice_whole, Rect.mem_set_unit]
      intro a
      have h0 : (i 0 : Nat) < 4 := (i 0).isLt
      have h1 : (i 1 : Nat) < 128 := (i 1).isLt
      match a with
      | ⟨0, _⟩ =>
        show win0_4.index lastPoint 0 * win0_4.size 0 ≤ (i 0 : Nat) ∧ (i 0 : Nat) < win0_4.index lastPoint 0 * win0_4.size 0 + win0_4.xsize (grid0.coords lastPoint) 0
        rw [show win0_4.index lastPoint 0 * win0_4.size 0 = 0 from by decide +kernel, show win0_4.xsize (grid0.coords lastPoint) 0 = 4 from by decide +kernel]; omega
      | ⟨1, _⟩ =>
        show win0_4.index lastPoint 1 * win0_4.size 1 ≤ (i 1 : Nat) ∧ (i 1 : Nat) < win0_4.index lastPoint 1 * win0_4.size 1 + win0_4.xsize (grid0.coords lastPoint) 1
        rw [show win0_4.index lastPoint 1 * win0_4.size 1 = 0 from by decide +kernel, show win0_4.xsize (grid0.coords lastPoint) 1 = 128 from by decide +kernel]; omega⟩

/-- The second result array ends holding the running sum of squares after the last tile. -/
theorem out_sq (c : Dev nD) : (dat0 V c).arrAt 5 cfg0.N = (outsAt0 V c (lastPoint).val (lastPoint).isLt).2 :=
  (dat0 V c).arrAt_eq_of_cover 5 _ (flushed_sq V c) fun i => ⟨lastPoint, (flush0_5 lastPoint).mpr rfl, by
      show i ∈ ((View.whole main_v18_1).slice (win0_5.rect lastPoint)).set
      rw [View.set_slice_whole, Rect.mem_set_unit]
      intro a
      have h0 : (i 0 : Nat) < 4 := (i 0).isLt
      have h1 : (i 1 : Nat) < 128 := (i 1).isLt
      match a with
      | ⟨0, _⟩ =>
        show win0_5.index lastPoint 0 * win0_5.size 0 ≤ (i 0 : Nat) ∧ (i 0 : Nat) < win0_5.index lastPoint 0 * win0_5.size 0 + win0_5.xsize (grid0.coords lastPoint) 0
        rw [show win0_5.index lastPoint 0 * win0_5.size 0 = 0 from by decide +kernel, show win0_5.xsize (grid0.coords lastPoint) 0 = 4 from by decide +kernel]; omega
      | ⟨1, _⟩ =>
        show win0_5.index lastPoint 1 * win0_5.size 1 ≤ (i 1 : Nat) ∧ (i 1 : Nat) < win0_5.index lastPoint 1 * win0_5.size 1 + win0_5.xsize (grid0.coords lastPoint) 1
        rw [show win0_5.index lastPoint 1 * win0_5.size 1 = 0 from by decide +kernel, show win0_5.xsize (grid0.coords lastPoint) 1 = 128 from by decide +kernel]; omega⟩

end Cert.KernelSide

end
-- ==== Proof.KGlue.lean ====
/-
  What the fused region finds in its arrays when it is entered. The node features, the summed neighbour
  features and the layer's weights are as the statistics region found them; the two small arrays the host
  computes between the regions are the batch mean — the sum over the nodes divided by their number — and the
  batch variance in its "mean of squares minus square of the mean" form.
-/
import proofs.«110614_j51762945852038_2_alg».proof.Proof.KAgg
import proofs.«110614_j51762945852038_2_alg».proof.Proof.KStatOut
import Idealize.ShloMosaic.Lib.StableHlo.Run

noncomputable section

namespace Cert.KernelSide

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

set_option maxHeartbeats 2000000 in
/-- The self-loop weights are as launched. -/
theorem V1_main_arg3 (c : Dev nD) : V1 m ρ c main_arg3 = m ((c : Thread nD τ).loc main_arg3) := by
  show StableHlo.after hostOps0 (W0 m ρ c) (Proc.devRef .tc main_arg3) = _
  after_results_simp

set_option maxHeartbeats 2000000 in
/-- The self-loop bias is as launched. -/
theorem V1_main_arg4 (c : Dev nD) : V1 m ρ c main_arg4 = m ((c : Thread nD τ).loc main_arg4) := by
  show StableHlo.after hostOps0 (W0 m ρ c) (Proc.devRef .tc main_arg4) = _
  after_results_simp

set_option maxHeartbeats 2000000 in
/-- The scale is as launched. -/
theorem V1_main_arg7 (c : Dev nD) : V1 m ρ c main_arg7 = m ((c : Thread nD τ).loc main_arg7) := by
  show StableHlo.after hostOps0 (W0 m ρ c) (Proc.devRef .tc main_arg7) = _
  after_results_simp

set_option maxHeartbeats 2000000 in
/-- The shift is as launched. -/
theorem V1_main_arg8 (c : Dev nD) : V1 m ρ c main_arg8 = m ((c : Thread nD τ).loc main_arg8) := by
  show StableHlo.after hostOps0 (W0 m ρ c) (Proc.devRef .tc main_arg8) = _
  after_results_simp

set_option maxHeartbeats 2000000 in
/-- The second linear map's weights are as launched. -/
theorem V1_main_arg9 (c : Dev nD) : V1 m ρ c main_arg9 = m ((c : Thread nD τ).loc main_arg9) := by
  show StableHlo.after hostOps0 (W0 m ρ c) (Proc.devRef .tc main_arg9) = _
  after_results_simp

set_option maxHeartbeats 2000000 in
/-- The second linear map's bias is as launched. -/
theorem V1_main_arg10 (c : Dev nD) : V1 m ρ c main_arg10 = m ((c : Thread nD τ).loc main_arg10) := by
  show StableHlo.after hostOps0 (W0 m ρ c) (Proc.devRef .tc main_arg10) = _
  after_results_simp

set_option maxHeartbeats 2000000 in
/-- The fused region finds the self-loop weights as launched. -/
theorem V3_main_arg3 (c : Dev nD) : V3 m ρ c main_arg3 = m ((c : Thread nD τ).loc main_arg3) := by
  have e1 : V3 m ρ c main_arg3 = W2 m ρ c (Proc.devRef .tc main_arg3) := by
    show StableHlo.after hostOps1 (W2 m ρ c) (Proc.devRef .tc main_arg3) = _
    after_results_simp
  rw [e1, W2_of_ne m ρ c main_arg3 (fun w => by fin_cases w <;> decide)]
  exact V1_main_arg3 m ρ c

set_option maxHeartbeats 2000000 in
/-- The fused region finds the self-loop bias as launched. -/
theorem V3_main_arg4 (c : Dev nD) : V3 m ρ c main_arg4 = m ((c : Thread nD τ).loc main_arg4) := by
  have e1 : V3 m ρ c main_arg4 = W2 m ρ c (Proc.devRef .tc main_arg4) := by
    show StableHlo.after hostOps1 (W2 m ρ c) (Proc.devRef .tc main_arg4) = _
    after_results_simp
  rw [e1, W2_of_ne m ρ c main_arg4 (fun w => by fin_cases w <;> decide)]
  exact V1_main_arg4 m ρ c

set_option maxHeartbeats 2000000 in
/-- The fused region finds the scale as launched. -/
theorem V3_main_arg7 (c : Dev nD) : V3 m ρ c main_arg7 = m ((c : Thread nD τ).loc main_arg7) := by
  have e1 : V3 m ρ c main_arg7 = W2 m ρ c (Proc.devRef .tc main_arg7) := by
    show StableHlo.after hostOps1 (W2 m ρ c) (Proc.devRef .tc main_arg7) = _
    after_results_simp
  rw [e1, W2_of_ne m ρ c main_arg7 (fun w => by fin_cases w <;> decide)]
  exact V1_main_arg7 m ρ c

set_option maxHeartbeats 2000000 in
/-- The fused region finds the shift as launched. -/
theorem V3_main_arg8 (c : Dev nD) : V3 m ρ c main_arg8 = m ((c : Thread nD τ).loc main_arg8) := by
  have e1 : V3 m ρ c main_arg8 = W2 m ρ c (Proc.devRef .tc main_arg8) := by
    show StableHlo.after hostOps1 (W2 m ρ c) (Proc.devRef .tc main_arg8) = _
    after_results_simp
  rw [e1, W2_of_ne m ρ c main_arg8 (fun w => by fin_cases w <;> decide)]
  exact V1_main_arg8 m ρ c

set_option maxHeartbeats 2000000 in
/-- The fused region finds the second linear map's weights as launched. -/
theorem V3_main_arg9 (c : Dev nD) : V3 m ρ c main_arg9 = m ((c : Thread nD τ).loc main_arg9) := by
  have e1 : V3 m ρ c main_arg9 = W2 m ρ c (Proc.devRef .tc main_arg9) := by
    show StableHlo.after hostOps1 (W2 m ρ c) (Proc.devRef .tc main_arg9) = _
    after_results_simp
  rw [e1, W2_of_ne m ρ c main_arg9 (fun w => by fin_cases w <;> decide)]
  exact V1_main_arg9 m ρ c

set_option maxHeartbeats 2000000 in
/-- The fused region finds the second linear map's bias as launched. -/
theorem V3_main_arg10 (c : Dev nD) : V3 m ρ c main_arg10 = m ((c : Thread nD τ).loc main_arg10) := by
  have e1 : V3 m ρ c main_arg10 = W2 m ρ c (Proc.devRef .tc main_arg10) := by
    show StableHlo.after hostOps1 (W2 m ρ c) (Proc.devRef .tc main_arg10) = _
    after_results_simp
  rw [e1, W2_of_ne m ρ c main_arg10 (fun w => by fin_cases w <;> decide)]
  exact V1_main_arg10 m ρ c

set_option maxHeartbeats 2000000 in
/-- The fused region finds the node features as launched. -/
theorem V3_main_arg0 (c : Dev nD) : V3 m ρ c main_arg0 = m ((c : Thread nD τ).loc main_arg0) := by
  have e1 : V3 m ρ c main_arg0 = W2 m ρ c (Proc.devRef .tc main_arg0) := by
    show StableHlo.after hostOps1 (W2 m ρ c) (Proc.devRef .tc main_arg0) = _
    after_results_simp
  rw [e1]
  exact ((W2_arr m ρ c 0).trans (((dat0 (V1 m ρ) c).arrAt_in 0 rfl _).trans (A_eq0 (V1 m ρ) c 0))).trans (V1_x m ρ c)

set_option maxHeartbeats 2000000 in
/-- The fused region finds the summed neighbour features. -/
theorem V3_main_v17 (c : Dev nD) : V3 m ρ c main_v17 = aggK (m ((c : Thread nD τ).loc main_arg0)) (m ((c : Thread nD τ).loc main_arg1)) (m ((c : Thread nD τ).loc main_arg2)) := by
  have e1 : V3 m ρ c main_v17 = W2 m ρ c (Proc.devRef .tc main_v17) := by
    show StableHlo.after hostOps1 (W2 m ρ c) (Proc.devRef .tc main_v17) = _
    after_results_simp
  rw [e1]
  exact ((W2_arr m ρ c 1).trans (((dat0 (V1 m ρ) c).arrAt_in 1 rfl _).trans (A_eq0 (V1 m ρ) c 1))).trans (V1_agg m ρ c)

set_option maxHeartbeats 2000000 in
/-- The fused region finds the first linear map's weights as launched. -/
theorem V3_main_arg5 (c : Dev nD) : V3 m ρ c main_arg5 = m ((c : Thread nD τ).loc main_arg5) := by
  have e1 : V3 m ρ c main_arg5 = W2 m ρ c (Proc.devRef .tc main_arg5) := by
    show StableHlo.after hostOps1 (W2 m ρ c) (Proc.devRef .tc main_arg5) = _
    after_results_simp
  rw [e1]
  exact ((W2_arr m ρ c 2).trans (((dat0 (V1 m ρ) c).arrAt_in 2 rfl _).trans (A_eq0 (V1 m ρ) c 2))).trans (V1_w1 m ρ c)

set_option maxHeartbeats 2000000 in
/-- The fused region finds the first linear map's bias as launched. -/
theorem V3_main_arg6 (c : Dev nD) : V3 m ρ c main_arg6 = m ((c : Thread nD τ).loc main_arg6) := by
  have e1 : V3 m ρ c main_arg6 = W2 m ρ c (Proc.devRef .tc main_arg6) := by
    show StableHlo.after hostOps1 (W2 m ρ c) (Proc.devRef .tc main_arg6) = _
    after_results_simp
  rw [e1]
  exact ((W2_arr m ρ c 3).trans (((dat0 (V1 m ρ) c).arrAt_in 3 rfl _).trans (A_eq0 (V1 m ρ) c 3))).trans (V1_b1 m ρ c)

/-- The launched arrays by coordinates. -/
abbrev xC (c : Dev nD) : Fin 50000 → Fin 128 → EReal := fun n k => (m ((c : Thread nD τ).loc main_arg0) : Vec Ideal S50000x128 .f32) (ix2 n k)
abbrev aggC (c : Dev nD) : Fin 4 → Fin 50000 → Fin 128 → EReal := fun r n k =>
  aggK (m ((c : Thread nD τ).loc main_arg0)) (m ((c : Thread nD τ).loc main_arg1)) (m ((c : Thread nD τ).loc main_arg2)) (ix3 r n k)
abbrev w1C (c : Dev nD) : Fin 4 → Fin 128 → Fin 128 → EReal := fun r k o => (m ((c : Thread nD τ).loc main_arg5) : Vec Ideal S4x128x128 .f32) (ix3 r k o)
abbrev b1C (c : Dev nD) : Fin 4 → Fin 128 → EReal := fun r o => (m ((c : Thread nD τ).loc main_arg6) : Vec Ideal S4x128 .f32) (ix2 r o)

/-- The statistics region read exactly these. -/
theorem stat_reads (c : Dev nD) : xOf (V1 m ρ) c = xC m c ∧ aggOf (V1 m ρ) c = aggC m c ∧ w1Of (V1 m ρ) c = w1C m c ∧ b1Of (V1 m ρ) c = b1C m c := by
  refine ⟨?_, ?_, ?_, ?_⟩
  · funext n k; show (V1 m ρ c main_arg0 : Vec Ideal S50000x128 .f32) (ix2 n k) = _; rw [V1_x]
  · funext r n k; show (V1 m ρ c main_v17 : Vec Ideal S4x50000x128 .f32) (ix3 r n k) = _; rw [V1_agg]
  · funext r k o; show (V1 m ρ c main_arg5 : Vec Ideal S4x128x128 .f32) (ix3 r k o) = _; rw [V1_w1]
  · funext r o; show (V1 m ρ c main_arg6 : Vec Ideal S4x128 .f32) (ix2 r o) = _; rw [V1_b1]

/-- The sum over the nodes of the first linear map, as the statistics region leaves it. -/
theorem W2_sum (c : Dev nD) (r : Fin 4) (o : Fin 128) :
    (W2 m ρ c (Proc.devRef .tc main_v18_0) : Vec Ideal S4x128 .f32) (ix2 r o)
      = ∑ n : Fin 50000, Cert.Gin.pre (xC m c) (aggC m c) (w1C m c) (b1C m c) r n o := by
  obtain ⟨e0, e1, e2, e3⟩ := stat_reads m ρ c
  rw [← e0, ← e1, ← e2, ← e3, ← sum_all (V1 m ρ) c r o, ← out_sum (V1 m ρ) c]
  exact congrFun (W2_arr m ρ c 4) (ix2 r o)

/-- The sum over the nodes of the squared first linear map, as the statistics region leaves it. -/
theorem W2_sq (c : Dev nD) (r : Fin 4) (o : Fin 128) :
    (W2 m ρ c (Proc.devRef .tc main_v18_1) : Vec Ideal S4x128 .f32) (ix2 r o)
      = ∑ n : Fin 50000, Cert.Gin.pre (xC m c) (aggC m c) (w1C m c) (b1C m c) r n o * Cert.Gin.pre (xC m c) (aggC m c) (w1C m c) (b1C m c) r n o := by
  obtain ⟨e0, e1, e2, e3⟩ := stat_reads m ρ c
  rw [← e0, ← e1, ← e2, ← e3, ← sq_all (V1 m ρ) c r o, ← out_sq (V1 m ρ) c]
  exact congrFun (W2_arr m ρ c 5) (ix2 r o)

set_option maxHeartbeats 2000000 in
/-- The batch mean the host computes between the regions. -/
theorem V3_mean (c : Dev nD) (r : Fin 4) (o : Fin 128) :
    (V3 m ρ c main_v20 : Vec Ideal S4x128 .f32) (ix2 r o) = Cert.Gin.mean (xC m c) (aggC m c) (w1C m c) (b1C m c) r o := by
  have e1 : V3 m ρ c main_v20 = Host.divf (F := Ideal) (W2 m ρ c (Proc.devRef .tc main_v18_0))
      (broadcastInDim S4x128 ![] bcast_S_S4x128 (constant (F := Ideal) S_ .f32 0x47435000#32)) := by
    show StableHlo.after hostOps1 (W2 m ρ c) (Proc.devRef .tc main_v20) = _
    after_results_simp
  rw [e1]
  unfold Cert.Gin.mean
  rw [← W2_sum m ρ c r o]
  rfl

set_option maxHeartbeats 2000000 in
/-- The batch variance the host computes between the regions: the mean of the squares less the square of the mean. -/
theorem V3_var (c : Dev nD) (r : Fin 4) (o : Fin 128) :
    (V3 m ρ c main_v24 : Vec Ideal S4x128 .f32) (ix2 r o) = Cert.Gin.varK (xC m c) (aggC m c) (w1C m c) (b1C m c) r o := by
  have e1 : V3 m ρ c main_v24 = subf (Host.divf (F := Ideal) (W2 m ρ c (Proc.devRef .tc main_v18_1))
        (broadcastInDim S4x128 ![] bcast_S_S4x128 (constant (F := Ideal) S_ .f32 0x47435000#32)))
      (mulf (Host.divf (F := Ideal) (W2 m ρ c (Proc.devRef .tc main_v18_0)) (broadcastInDim S4x128 ![] bcast_S_S4x128 (constant (F := Ideal) S_ .f32 0x47435000#32)))
        (Host.divf (F := Ideal) (W2 m ρ c (Proc.devRef .tc main_v18_0)) (broadcastInDim S4x128 ![] bcast_S_S4x128 (constant (F := Ideal) S_ .f32 0x47435000#32)))) := by
    show StableHlo.after hostOps1 (W2 m ρ c) (Proc.devRef .tc main_v24) = _
    after_results_simp
  rw [e1]
  unfold Cert.Gin.varK Cert.Gin.mean
  rw [← W2_sum m ρ c r o, ← W2_sq m ρ c r o]
  rfl

end Cert.KernelSide

end
-- ==== Proof.KFused.lean ====
/-
  The fused region's block value, read at coordinates over the extended reals.

  For one tile of 2000 nodes the body computes, per relation r, the first linear map tilePre r (node features plus
  summed neighbour features, times W1 r, plus b1 r), normalises it with the given mean x4 r and variance x5 r
  (subtract the mean, multiply by the inverse square root of variance plus epsilon), scales by x6 r, shifts by x7 r,
  rectifies, applies the second linear map (times x8 r, plus x9 r), and adds the four relations' results, in order,
  onto a zero accumulator; the tile's result is the self-loop linear map x0 · x10 + x11 plus that accumulator.
  Format changes are the identity on the extended reals, and every load reads the block's slab or row of relation r.
-/
import proofs.«110614_j51762945852038_2_alg».proof.Proof.Gen.KernelIdeal.Frame
import proofs.«110614_j51762945852038_2_alg».proof.Proof.KTile
import proofs.«110614_j51762945852038_2_alg».proof.Proof.KRows
import proofs.«110614_j51762945852038_2_alg».proof.Proof.Spec
import proofs.«110614_j51762945852038_2_alg».proof.Proof.LibPlainDot
import Idealize.ShloMosaic.Lib.Pipeline.Value
import Idealize.ShloMosaic.Lib.ValueIdx
import Idealize.ShloMosaic.Lib.ValueLayout

noncomputable section

namespace Cert.KernelSide

open Idealize.ShloMosaic Idealize.ShloMosaic.ValueIdx
open Cert.KernelIdeal Cert.KernelIdeal.Gen

/-- The body's matrix product into a zero accumulator, at (j, p): the sum over k of l (j, k) · W (k, p). -/
theorem mm_apply (l : FVec Ideal S2000x128 .bf16) (W : FVec Ideal S128x128 .bf16) (j : Fin 2000) (p : Fin 128) :
    matmul dot_S2000x128_S128x128_S2000x128_1_0_0_1_n_n none l W (constant S2000x128 .f32 0x00000000#32) (ix2 j p)
      = ∑ k : Fin 128, l (ix2 j k) * W (ix2 k p) :=
  Cert.LibPlainDot.matmul_plain_apply _ rfl rfl rfl rfl rfl rfl none l W j p

/-- A loaded row, flattened, laid out as one row again and repeated over the tile's nodes, reads the row. -/
theorem bcastRow_apply (v : Vec Ideal S1x128 .f32) (j : Fin 2000) (o : Fin 128) :
    broadcastTo S2000x128 (shapeCast S1x128 (shapeCast S128 v shapeCasts_S1x128_S128) shapeCasts_S128_S1x128) broadcasts_S1x128_S2000x128 (ix2 j o)
      = v (ix2 (0 : Fin 1) o) := by
  rw [broadcastTo_1b_ab_apply, shapeCast_a_1a_apply, shapeCast_1a_a_apply]

/-- One row repeated over the tile's nodes reads the row. -/
theorem bcastRow1_apply (v : FVec Ideal S1x128 .f32) (j : Fin 2000) (o : Fin 128) :
    broadcastTo S2000x128 v broadcasts_S1x128_S2000x128 (ix2 j o) = v (ix2 (0 : Fin 1) o) := by
  rw [broadcastTo_1b_ab_apply]

/-- An inverse square root of an array reads, at an index, the inverse square root of the entry. -/
theorem rsqrt_apply {s : Shape} {φ : FTy} (a : FVec Ideal s φ) (i : s.Idx) : rsqrt a i = Ideal.rsqrt (a i) := rfl

theorem zeros1 : (![0] : Fin 1 → ℕ) = fun _ => 0 := funext fun a => by fin_cases a; rfl

/-! The loads: whole blocks, and the slab or row of each relation. -/

theorem ld_whole0 (X : Vec Ideal S2000x128 .f32) : View.ld X r1_0 = X := View.ld_unit_zero zeros2 _ X
theorem ld_whole13 (X : Vec Ideal S128x128 .f32) : View.ld X r1_13 = X := View.ld_unit_zero zeros2 _ X
theorem ld_whole14 (X : Vec Ideal S128 .f32) : View.ld X r1_14 = X := View.ld_unit_zero zeros1 _ X

/-- Entry (u, j, k) of the unit slab rectangle at (r, 0, 0) sits at (r, j, k). -/
theorem idx_slab {n a b : ℕ} (r : Fin n) (off : Fin 3 → ℕ) (hoff : off = ![r.val, 0, 0])
    (inb : ∀ x, off x + (![1, a, b] : Fin 3 → ℕ) x ≤ (⟨3, ![n, a, b]⟩ : Shape).size x) (u : Fin 1) (j : Fin a) (k : Fin b) :
    (Rect.unit (s := ⟨3, ![n, a, b]⟩) off ![1, a, b] inb).idx (ix3 u j k) = ix3 r j k := by
  subst hoff
  funext x
  apply Fin.ext
  match x with
  | ⟨0, _⟩ => show r.val + 1 * u.val = r.val; omega
  | ⟨1, _⟩ => show 0 + 1 * j.val = j.val; omega
  | ⟨2, _⟩ => show 0 + 1 * k.val = k.val; omega

/-- Entry (u, k) of the unit row rectangle at (r, 0) sits at (r, k). -/
theorem idx_row {n b : ℕ} (r : Fin n) (off : Fin 2 → ℕ) (hoff : off = ![r.val, 0])
    (inb : ∀ x, off x + (![1, b] : Fin 2 → ℕ) x ≤ (⟨2, ![n, b]⟩ : Shape).size x) (u : Fin 1) (k : Fin b) :
    (Rect.unit (s := ⟨2, ![n, b]⟩) off ![1, b] inb).idx (ix2 u k) = ix2 r k := by
  subst hoff
  funext x
  apply Fin.ext
  match x with
  | ⟨0, _⟩ => show r.val + 1 * u.val = r.val; omega
  | ⟨1, _⟩ => show 0 + 1 * k.val = k.val; omega

theorem idx_agg0 (j : Fin 2000) (k : Fin 128) : r1_1.idx (ix3 (0 : Fin 1) j k) = ix3 (0 : Fin 4) j k := idx_slab 0 _ rfl _ 0 j k
theorem idx_agg1 (j : Fin 2000) (k : Fin 128) : r1_4.idx (ix3 (0 : Fin 1) j k) = ix3 (1 : Fin 4) j k := idx_slab 1 _ rfl _ 0 j k
theorem idx_agg2 (j : Fin 2000) (k : Fin 128) : r1_7.idx (ix3 (0 : Fin 1) j k) = ix3 (2 : Fin 4) j k := idx_slab 2 _ rfl _ 0 j k
theorem idx_agg3 (j : Fin 2000) (k : Fin 128) : r1_10.idx (ix3 (0 : Fin 1) j k) = ix3 (3 : Fin 4) j k := idx_slab 3 _ rfl _ 0 j k

theorem idx_mat0 (k o : Fin 128) : r1_2.idx (ix3 (0 : Fin 1) k o) = ix3 (0 : Fin 4) k o := idx_slab 0 _ rfl _ 0 k o
theorem idx_mat1 (k o : Fin 128) : r1_5.idx (ix3 (0 : Fin 1) k o) = ix3 (1 : Fin 4) k o := idx_slab 1 _ rfl _ 0 k o
theorem idx_mat2 (k o : Fin 128) : r1_8.idx (ix3 (0 : Fin 1) k o) = ix3 (2 : Fin 4) k o := idx_slab 2 _ rfl _ 0 k o
theorem idx_mat3 (k o : Fin 128) : r1_11.idx (ix3 (0 : Fin 1) k o) = ix3 (3 : Fin 4) k o := idx_slab 3 _ rfl _ 0 k o

theorem idx_vec0 (o : Fin 128) : r1_3.idx (ix2 (0 : Fin 1) o) = ix2 (0 : Fin 4) o := idx_row 0 _ rfl _ 0 o
theorem idx_vec1 (o : Fin 128) : r1_6.idx (ix2 (0 : Fin 1) o) = ix2 (1 : Fin 4) o := idx_row 1 _ rfl _ 0 o
theorem idx_vec2 (o : Fin 128) : r1_9.idx (ix2 (0 : Fin 1) o) = ix2 (2 : Fin 4) o := idx_row 2 _ rfl _ 0 o
theorem idx_vec3 (o : Fin 128) : r1_12.idx (ix2 (0 : Fin 1) o) = ix2 (3 : Fin 4) o := idx_row 3 _ rfl _ 0 o

/-- The tile's result at node j and output feature p: the self-loop linear map plus the four relations' results. -/
theorem fused_apply (x0 : Vec Ideal S2000x128 .f32) (x1 : Vec Ideal S4x2000x128 .f32) (x2 : Vec Ideal S4x128x128 .f32)
    (x3 x4 x5 x6 x7 : Vec Ideal S4x128 .f32) (x8 : Vec Ideal S4x128x128 .f32) (x9 : Vec Ideal S4x128 .f32)
    (x10 : Vec Ideal S128x128 .f32) (x11 : Vec Ideal S128 .f32) (j : Fin 2000) (p : Fin 128) :
    out1_12 (F := Ideal) x0 x1 x2 x3 x4 x5 x6 x7 x8 x9 x10 x11 (ix2 j p)
      = ((∑ k : Fin 128, x0 (ix2 j k) * x10 (ix2 k p)) + x11 (ix1 p))
        + ∑ r : Fin 4, ((∑ o : Fin 128, max (((tilePre x0 x1 x2 x3 r j o - x4 (ix2 r o)) * Ideal.rsqrt (x5 (ix2 r o) + Cert.Gin.cEps)) * x6 (ix2 r o) + x7 (ix2 r o)) 0 * x8 (ix3 r o p)) + x9 (ix2 r p)) := by
  unfold out1_12
  rw [View.canon_unit_zero zeros2]
  unfold k1_pay1 k1_pay2 k1_pay3 k1_pay4 k1_pay5 k1_pay6 k1_pay7 k1_pay8 k1_pay9 k1_pay10 k1_pay11 k1_pay12 k1_pay13
  simp only [addf_apply, subf_apply, mulf_apply, maximumf_apply, truncf_apply, mm_apply, bcastRow_apply, bcastRow1_apply, broadcast_apply,
    shapeCast_1ab_ab_apply, shapeCast_a_1a_apply, shapeCast_1a_a_apply, rsqrt_apply,
    ld_whole0, ld_whole13, ld_whole14, Ideal.ofBits_def, Ideal.ofBits_zero_f32, zero_add]
  simp only [View.ld, idx_agg0, idx_agg1, idx_agg2, idx_agg3, idx_mat0, idx_mat1, idx_mat2, idx_mat3,
    idx_vec0, idx_vec1, idx_vec2, idx_vec3]
  rw [Fin.sum_univ_four]
  unfold tilePre
  rfl

end Cert.KernelSide

end
-- ==== Proof.KBlocks1.lean ====
/-
  What the fused region's windows show at a grid point, read at coordinates: tile t of the node features and of
  the summed neighbour features is rows 2000·t … 2000·t + 1999; every other operand is seen whole at every point;
  and the result's block at point t is rows 2000·t … 2000·t + 1999 of the result.
-/
import proofs.«110614_j51762945852038_2_alg».proof.Proof.Gen.KernelIdeal.Frame
import Idealize.ShloMosaic.Lib.Pipeline.Value
import Idealize.ShloMosaic.Lib.ValueIdx
import Idealize.ShloMosaic.PureOps.Ideal

noncomputable section

namespace Cert.KernelSide

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- Where window 0 of region 1 points at each grid point. -/
theorem index1_0 : ∀ t : Fin cfg1.N, win1_0.index t 0 = t.val ∧ win1_0.index t 1 = 0 :=
  (by decide +kernel : ∀ t : Fin grid1.N, win1_0.index t 0 = t.val ∧ win1_0.index t 1 = 0)

/-- The tile of node features. -/
theorem fused_x (c : Dev nD) (t : Fin cfg1.N) (y0 : Fin 2000) (y1 : Fin 128) (hb : t.val * 2000 + y0.val < 50000) :
    (iblk1 V c 0 t : Vec Ideal S2000x128 .f32) (ix2 y0 y1) = (V c main_arg0 : Vec Ideal S50000x128 .f32) (ix2 ⟨t.val * 2000 + y0.val, hb⟩ y1) := by
  unfold iblk1
  rw [View.read_apply]
  show V c main_arg0 _ = V c main_arg0 _
  congr 1
  funext a
  apply Fin.ext
  match a with
  | ⟨0, _⟩ => show win1_0.index t 0 * 2000 + 1 * y0.val = t.val * 2000 + y0.val; rw [(index1_0 t).1]; omega
  | ⟨1, _⟩ => show win1_0.index t 1 * 128 + 1 * y1.val = y1.val; rw [(index1_0 t).2]; omega

/-- Where window 1 of region 1 points at each grid point. -/
theorem index1_1 : ∀ t : Fin cfg1.N, win1_1.index t 0 = 0 ∧ win1_1.index t 1 = t.val ∧ win1_1.index t 2 = 0 :=
  (by decide +kernel : ∀ t : Fin grid1.N, win1_1.index t 0 = 0 ∧ win1_1.index t 1 = t.val ∧ win1_1.index t 2 = 0)

/-- The tile of summed neighbour features. -/
theorem fused_agg (c : Dev nD) (t : Fin cfg1.N) (y0 : Fin 4) (y1 : Fin 2000) (y2 : Fin 128) (hb : t.val * 2000 + y1.val < 50000) :
    (iblk1 V c 1 t : Vec Ideal S4x2000x128 .f32) (ix3 y0 y1 y2) = (V c main_v17 : Vec Ideal S4x50000x128 .f32) (ix3 y0 ⟨t.val * 2000 + y1.val, hb⟩ y2) := by
  unfold iblk1
  rw [View.read_apply]
  show V c main_v17 _ = V c main_v17 _
  congr 1
  funext a
  apply Fin.ext
  match a with
  | ⟨0, _⟩ => show win1_1.index t 0 * 4 + 1 * y0.val = y0.val; rw [(index1_1 t).1]; omega
  | ⟨1, _⟩ => show win1_1.index t 1 * 2000 + 1 * y1.val = t.val * 2000 + y1.val; rw [(index1_1 t).2.1]; omega
  | ⟨2, _⟩ => show win1_1.index t 2 * 128 + 1 * y2.val = y2.val; rw [(index1_1 t).2.2]; omega

/-- Where window 2 of region 1 points at each grid point. -/
theorem index1_2 : ∀ t : Fin cfg1.N, win1_2.index t 0 = 0 ∧ win1_2.index t 1 = 0 ∧ win1_2.index t 2 = 0 :=
  (by decide +kernel : ∀ t : Fin grid1.N, win1_2.index t 0 = 0 ∧ win1_2.index t 1 = 0 ∧ win1_2.index t 2 = 0)

/-- The first linear map's weights, whole. -/
theorem fused_w1 (c : Dev nD) (t : Fin cfg1.N) (y0 : Fin 4) (y1 : Fin 128) (y2 : Fin 128) :
    (iblk1 V c 2 t : Vec Ideal S4x128x128 .f32) (ix3 y0 y1 y2) = (V c main_arg5 : Vec Ideal S4x128x128 .f32) (ix3 y0 y1 y2) := by
  unfold iblk1
  rw [View.read_apply]
  show V c main_arg5 _ = V c main_arg5 _
  congr 1
  funext a
  apply Fin.ext
  match a with
  | ⟨0, _⟩ => show win1_2.index t 0 * 4 + 1 * y0.val = y0.val; rw [(index1_2 t).1]; omega
  | ⟨1, _⟩ => show win1_2.index t 1 * 128 + 1 * y1.val = y1.val; rw [(index1_2 t).2.1]; omega
  | ⟨2, _⟩ => show win1_2.index t 2 * 128 + 1 * y2.val = y2.val; rw [(index1_2 t).2.2]; omega

/-- Where window 3 of region 1 points at each grid point. -/
theorem index1_3 : ∀ t : Fin cfg1.N, win1_3.index t 0 = 0 ∧ win1_3.index t 1 = 0 :=
  (by decide +kernel : ∀ t : Fin grid1.N, win1_3.index t 0 = 0 ∧ win1_3.index t 1 = 0)

/-- The first linear map's bias, whole. -/
theorem fused_b1 (c : Dev nD) (t : Fin cfg1.N) (y0 : Fin 4) (y1 : Fin 128) :
    (iblk1 V c 3 t : Vec Ideal S4x128 .f32) (ix2 y0 y1) = (V c main_arg6 : Vec Ideal S4x128 .f32) (ix2 y0 y1) := by
  unfold iblk1
  rw [View.read_apply]
  show V c main_arg6 _ = V c main_arg6 _
  congr 1
  funext a
  apply Fin.ext
  match a with
  | ⟨0, _⟩ => show win1_3.index t 0 * 4 + 1 * y0.val = y0.val; rw [(index1_3 t).1]; omega
  | ⟨1, _⟩ => show win1_3.index t 1 * 128 + 1 * y1.val = y1.val; rw [(index1_3 t).2]; omega

/-- Where window 4 of region 1 points at each grid point. -/
theorem index1_4 : ∀ t : Fin cfg1.N, win1_4.index t 0 = 0 ∧ win1_4.index t 1 = 0 :=
  (by decide +kernel : ∀ t : Fin grid1.N, win1_4.index t 0 = 0 ∧ win1_4.index t 1 = 0)

/-- The batch mean, whole. -/
theorem fused_mean (c : Dev nD) (t : Fin cfg1.N) (y0 : Fin 4) (y1 : Fin 128) :
    (iblk1 V c 4 t : Vec Ideal S4x128 .f32) (ix2 y0 y1) = (V c main_v20 : Vec Ideal S4x128 .f32) (ix2 y0 y1) := by
  unfold iblk1
  rw [View.read_apply]
  show V c main_v20 _ = V c main_v20 _
  congr 1
  funext a
  apply Fin.ext
  match a with
  | ⟨0, _⟩ => show win1_4.index t 0 * 4 + 1 * y0.val = y0.val; rw [(index1_4 t).1]; omega
  | ⟨1, _⟩ => show win1_4.index t 1 * 128 + 1 * y1.val = y1.val; rw [(index1_4 t).2]; omega

/-- Where window 5 of region 1 points at each grid point. -/
theorem index1_5 : ∀ t : Fin cfg1.N, win1_5.index t 0 = 0 ∧ win1_5.index t 1 = 0 :=
  (by decide +kernel : ∀ t : Fin grid1.N, win1_5.index t 0 = 0 ∧ win1_5.index t 1 = 0)

/-- The batch variance, whole. -/
theorem fused_var (c : Dev nD) (t : Fin cfg1.N) (y0 : Fin 4) (y1 : Fin 128) :
    (iblk1 V c 5 t : Vec Ideal S4x128 .f32) (ix2 y0 y1) = (V c main_v24 : Vec Ideal S4x128 .f32) (ix2 y0 y1) := by
  unfold iblk1
  rw [View.read_apply]
  show V c main_v24 _ = V c main_v24 _
  congr 1
  funext a
  apply Fin.ext
  match a with
  | ⟨0, _⟩ => show win1_5.index t 0 * 4 + 1 * y0.val = y0.val; rw [(index1_5 t).1]; omega
  | ⟨1, _⟩ => show win1_5.index t 1 * 128 + 1 * y1.val = y1.val; rw [(index1_5 t).2]; omega

/-- Where window 6 of region 1 points at each grid point. -/
theorem index1_6 : ∀ t : Fin cfg1.N, win1_6.index t 0 = 0 ∧ win1_6.index t 1 = 0 :=
  (by decide +kernel : ∀ t : Fin grid1.N, win1_6.index t 0 = 0 ∧ win1_6.index t 1 = 0)

/-- The scale, whole. -/
theorem fused_gamma (c : Dev nD) (t : Fin cfg1.N) (y0 : Fin 4) (y1 : Fin 128) :
    (iblk1 V c 6 t : Vec Ideal S4x128 .f32) (ix2 y0 y1) = (V c main_arg7 : Vec Ideal S4x128 .f32) (ix2 y0 y1) := by
  unfold iblk1
  rw [View.read_apply]
  show V c main_arg7 _ = V c main_arg7 _
  congr 1
  funext a
  apply Fin.ext
  match a with
  | ⟨0, _⟩ => show win1_6.index t 0 * 4 + 1 * y0.val = y0.val; rw [(index1_6 t).1]; omega
  | ⟨1, _⟩ => show win1_6.index t 1 * 128 + 1 * y1.val = y1.val; rw [(index1_6 t).2]; omega

/-- Where window 7 of region 1 points at each grid point. -/
theorem index1_7 : ∀ t : Fin cfg1.N, win1_7.index t 0 = 0 ∧ win1_7.index t 1 = 0 :=
  (by decide +kernel : ∀ t : Fin grid1.N, win1_7.index t 0 = 0 ∧ win1_7.index t 1 = 0)

/-- The shift, whole. -/
theorem fused_beta (c : Dev nD) (t : Fin cfg1.N) (y0 : Fin 4) (y1 : Fin 128) :
    (iblk1 V c 7 t : Vec Ideal S4x128 .f32) (ix2 y0 y1) = (V c main_arg8 : Vec Ideal S4x128 .f32) (ix2 y0 y1) := by
  unfold iblk1
  rw [View.read_apply]
  show V c main_arg8 _ = V c main_arg8 _
  congr 1
  funext a
  apply Fin.ext
  match a with
  | ⟨0, _⟩ => show win1_7.index t 0 * 4 + 1 * y0.val = y0.val; rw [(index1_7 t).1]; omega
  | ⟨1, _⟩ => show win1_7.index t 1 * 128 + 1 * y1.val = y1.val; rw [(index1_7 t).2]; omega

/-- Where window 8 of region 1 points at each grid point. -/
theorem index1_8 : ∀ t : Fin cfg1.N, win1_8.index t 0 = 0 ∧ win1_8.index t 1 = 0 ∧ win1_8.index t 2 = 0 :=
  (by decide +kernel : ∀ t : Fin grid1.N, win1_8.index t 0 = 0 ∧ win1_8.index t 1 = 0 ∧ win1_8.index t 2 = 0)

/-- The second linear map's weights, whole. -/
theorem fused_w2 (c : Dev nD) (t : Fin cfg1.N) (y0 : Fin 4) (y1 : Fin 128) (y2 : Fin 128) :
    (iblk1 V c 8 t : Vec Ideal S4x128x128 .f32) (ix3 y0 y1 y2) = (V c main_arg9 : Vec Ideal S4x128x128 .f32) (ix3 y0 y1 y2) := by
  unfold iblk1
  rw [View.read_apply]
  show V c main_arg9 _ = V c main_arg9 _
  congr 1
  funext a
  apply Fin.ext
  match a with
  | ⟨0, _⟩ => show win1_8.index t 0 * 4 + 1 * y0.val = y0.val; rw [(index1_8 t).1]; omega
  | ⟨1, _⟩ => show win1_8.index t 1 * 128 + 1 * y1.val = y1.val; rw [(index1_8 t).2.1]; omega
  | ⟨2, _⟩ => show win1_8.index t 2 * 128 + 1 * y2.val = y2.val; rw [(index1_8 t).2.2]; omega

/-- Where window 9 of region 1 points at each grid point. -/
theorem index1_9 : ∀ t : Fin cfg1.N, win1_9.index t 0 = 0 ∧ win1_9.index t 1 = 0 :=
  (by decide +kernel : ∀ t : Fin grid1.N, win1_9.index t 0 = 0 ∧ win1_9.index t 1 = 0)

/-- The second linear map's bias, whole. -/
theorem fused_b2 (c : Dev nD) (t : Fin cfg1.N) (y0 : Fin 4) (y1 : Fin 128) :
    (iblk1 V c 9 t : Vec Ideal S4x128 .f32) (ix2 y0 y1) = (V c main_arg10 : Vec Ideal S4x128 .f32) (ix2 y0 y1) := by
  unfold iblk1
  rw [View.read_apply]
  show V c main_arg10 _ = V c main_arg10 _
  congr 1
  funext a
  apply Fin.ext
  match a with
  | ⟨0, _⟩ => show win1_9.index t 0 * 4 + 1 * y0.val = y0.val; rw [(index1_9 t).1]; omega
  | ⟨1, _⟩ => show win1_9.index t 1 * 128 + 1 * y1.val = y1.val; rw [(index1_9 t).2]; omega

/-- Where window 10 of region 1 points at each grid point. -/
theorem index1_10 : ∀ t : Fin cfg1.N, win1_10.index t 0 = 0 ∧ win1_10.index t 1 = 0 :=
  (by decide +kernel : ∀ t : Fin grid1.N, win1_10.index t 0 = 0 ∧ win1_10.index t 1 = 0)

/-- The self-loop weights, whole. -/
theorem fused_wself (c : Dev nD) (t : Fin cfg1.N) (y0 : Fin 128) (y1 : Fin 128) :
    (iblk1 V c 10 t : Vec Ideal S128x128 .f32) (ix2 y0 y1) = (V c main_arg3 : Vec Ideal S128x128 .f32) (ix2 y0 y1) := by
  unfold iblk1
  rw [View.read_apply]
  show V c main_arg3 _ = V c main_arg3 _
  congr 1
  funext a
  apply Fin.ext
  match a with
  | ⟨0, _⟩ => show win1_10.index t 0 * 128 + 1 * y0.val = y0.val; rw [(index1_10 t).1]; omega
  | ⟨1, _⟩ => show win1_10.index t 1 * 128 + 1 * y1.val = y1.val; rw [(index1_10 t).2]; omega

/-- Where window 11 of region 1 points at each grid point. -/
theorem index1_11 : ∀ t : Fin cfg1.N, win1_11.index t 0 = 0 :=
  (by decide +kernel : ∀ t : Fin grid1.N, win1_11.index t 0 = 0)

/-- The self-loop bias, whole. -/
theorem fused_bself (c : Dev nD) (t : Fin cfg1.N) (y0 : Fin 128) :
    (iblk1 V c 11 t : Vec Ideal S128 .f32) (ix1 y0) = (V c main_arg4 : Vec Ideal S128 .f32) (ix1 y0) := by
  unfold iblk1
  rw [View.read_apply]
  show V c main_arg4 _ = V c main_arg4 _
  congr 1
  funext a
  apply Fin.ext
  match a with
  | ⟨0, _⟩ => show win1_11.index t 0 * 128 + 1 * y0.val = y0.val; rw [(index1_11 t)]; omega

/-- Where the result's window points at each grid point. -/
theorem index1_12 : ∀ t : Fin cfg1.N, win1_12.index t 0 = t.val ∧ win1_12.index t 1 = 0 :=
  (by decide +kernel : ∀ t : Fin grid1.N, win1_12.index t 0 = t.val ∧ win1_12.index t 1 = 0)

end Cert.KernelSide

end
-- ==== Proof.KOut.lean ====
/-
  The fused region's result array. At grid point t the region writes back rows 2000·t … 2000·t + 1999 of the
  layer's output — the self-loop linear map plus, for each relation, the second linear map of the normalised,
  scaled, shifted and rectified first linear map — computed from the arrays as the region finds them; the 25
  blocks tile the result, so the result array ends holding the layer's output at every node.
-/
import proofs.«110614_j51762945852038_2_alg».proof.Proof.KFused
import proofs.«110614_j51762945852038_2_alg».proof.Proof.KBlocks1
import proofs.«110614_j51762945852038_2_alg».proof.Proof.KAccum
import Idealize.ShloMosaic.Lib.Pipeline.Value

noncomputable section

namespace Cert.KernelSide

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The other arrays the fused region reads, by coordinates. -/
abbrev meanOf (c : Dev nD) : Fin 4 → Fin 128 → EReal := fun r o => (V c main_v20 : Vec Ideal S4x128 .f32) (ix2 r o)
abbrev varOf (c : Dev nD) : Fin 4 → Fin 128 → EReal := fun r o => (V c main_v24 : Vec Ideal S4x128 .f32) (ix2 r o)
abbrev gammaOf (c : Dev nD) : Fin 4 → Fin 128 → EReal := fun r o => (V c main_arg7 : Vec Ideal S4x128 .f32) (ix2 r o)
abbrev betaOf (c : Dev nD) : Fin 4 → Fin 128 → EReal := fun r o => (V c main_arg8 : Vec Ideal S4x128 .f32) (ix2 r o)
abbrev w2Of (c : Dev nD) : Fin 4 → Fin 128 → Fin 128 → EReal := fun r o p => (V c main_arg9 : Vec Ideal S4x128x128 .f32) (ix3 r o p)
abbrev b2Of (c : Dev nD) : Fin 4 → Fin 128 → EReal := fun r p => (V c main_arg10 : Vec Ideal S4x128 .f32) (ix2 r p)
abbrev wselfOf (c : Dev nD) : Fin 128 → Fin 128 → EReal := fun k p => (V c main_arg3 : Vec Ideal S128x128 .f32) (ix2 k p)
abbrev bselfOf (c : Dev nD) : Fin 128 → EReal := fun p => (V c main_arg4 : Vec Ideal S128 .f32) (ix1 p)

/-- The layer's output at node n, feature p, from the arrays the fused region finds (the mean and the variance
    among them). -/
def layerAt (c : Dev nD) (n : Fin 50000) (p : Fin 128) : EReal :=
  ((∑ k : Fin 128, xOf V c n k * wselfOf V c k p) + bselfOf V c p)
    + ∑ r : Fin 4, ((∑ o : Fin 128,
        max (((Cert.Gin.pre (xOf V c) (aggOf V c) (w1Of V c) (b1Of V c) r n o - meanOf V c r o)
              * Ideal.rsqrt (varOf V c r o + Cert.Gin.cEps)) * gammaOf V c r o + betaOf V c r o) 0 * w2Of V c r o p)
        + b2Of V c r p)

/-- The layer's output as the contents of the result array. -/
def layerArr (c : Dev nD) : Buf (Elt Ideal) ((c : Thread nD τ).loc main_v25) := fun i => layerAt V c (i 0) (i 1)

theorem points25' : cfg1.N = 25 := N_1

set_option maxHeartbeats 1000000 in
/-- What point t writes back is block t of the layer's output. -/
theorem flushed_out (c : Dev nD) (t : Fin cfg1.N) :
    (dat1 V c).flushed 12 t = ((cfg1.win 12).blk t).view.read (Elt Ideal) (layerArr V c) := by
  show (cfg1.win 12).cut (grid1.coords t) ((dat1 V c).after 12 t) = _
  rw [after1_12]
  funext (y : S2000x128.Idx)
  obtain ⟨j, p, rfl⟩ : ∃ (j : Fin 2000) (p : Fin 128), y = ix2 j p := ⟨y 0, y 1, eq_ix2 y⟩
  have hN : cfg1.N = 25 := points25'
  have hb : t.val * 2000 + j.val < 50000 := by have := t.isLt; have := j.isLt; omega
  have hemb : ((cfg1.win 12).blk t).view.emb (ix2 j p) = ix2 (⟨t.val * 2000 + j.val, hb⟩ : Fin 50000) p := by
    funext a
    apply Fin.ext
    match a with
    | ⟨0, _⟩ => show win1_12.index t 0 * 2000 + 1 * j.val = t.val * 2000 + j.val; rw [(index1_12 t).1]; omega
    | ⟨1, _⟩ => show win1_12.index t 1 * 128 + 1 * p.val = p.val; rw [(index1_12 t).2]; omega
  show out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (ix2 j p) = layerArr V c (((cfg1.win 12).blk t).view.emb (ix2 j p))
  rw [hemb]
  refine (fused_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) j p).trans ?_
  show _ = layerAt V c ⟨t.val * 2000 + j.val, hb⟩ p
  unfold layerAt tilePre Cert.Gin.pre
  simp only [fused_x V c t j _ hb, fused_agg V c t _ j _ hb, fused_w1 V c t, fused_b1 V c t, fused_mean V c t, fused_var V c t,
    fused_gamma V c t, fused_beta V c t, fused_w2 V c t, fused_b2 V c t, fused_wself V c t, fused_bself V c t]

/-- An index of the result is in point t's block iff each coordinate is in the block's range on its axis. -/
theorem mem_outBlock (t : Fin cfg1.N) (i : S50000x128.Idx) :
    i ∈ ((cfg1.win 12).blk t).view.set ↔ ∀ a : Fin 2, win1_12.index t a * S2000x128.size a ≤ (i a).val ∧ (i a).val < win1_12.index t a * S2000x128.size a + S2000x128.size a := by
  show i ∈ ((View.whole main_v25).slice (win1_12.rect t)).set ↔ _
  rw [View.set_slice_whole, Rect.mem_set_unit]
  exact Iff.rfl

/-- The result array ends holding the layer's output. -/
theorem out_layer (c : Dev nD) : (dat1 V c).arrAt 12 cfg1.N = layerArr V c :=
  (dat1 V c).arrAt_eq_of_cover 12 (layerArr V c) (fun t _ => flushed_out V c t) fun i => by
    have hN : cfg1.N = 25 := points25'
    have h0 : (i 0).val < 50000 := (i 0).isLt
    have h1 : (i 1).val < 128 := (i 1).isLt
    refine ⟨⟨(i 0).val / 2000, by omega⟩, flush1_12 _, ?_⟩
    rw [mem_outBlock]
    intro a
    match a with
    | ⟨0, _⟩ =>
      show win1_12.index ⟨(i 0).val / 2000, _⟩ 0 * 2000 ≤ (i 0).val ∧ (i 0).val < win1_12.index ⟨(i 0).val / 2000, _⟩ 0 * 2000 + 2000
      rw [(index1_12 _).1]
      show (i 0).val / 2000 * 2000 ≤ (i 0).val ∧ (i 0).val < (i 0).val / 2000 * 2000 + 2000
      omega
    | ⟨1, _⟩ =>
      show win1_12.index ⟨(i 0).val / 2000, _⟩ 1 * 128 ≤ (i 1).val ∧ (i 1).val < win1_12.index ⟨(i 0).val / 2000, _⟩ 1 * 128 + 128
      rw [(index1_12 _).2]
      omega

end Cert.KernelSide

end
-- ==== Proof.KRun.lean ====
/-
  The run of the idealized kernel program with its result array named: every weakly fair execution of the
  program — gather and scatter-add on the host, the statistics region, the host's mean and variance, the
  fused region — terminates without a fault, leaves the eleven argument arrays as launched, and leaves in
  the result array what the fused region's write-backs fold to from the contents that region was entered
  with (`W4` at the result's reference).
-/
import proofs.«110614_j51762945852038_2_alg».proof.Proof.Gen.KernelIdeal.Frame

set_option maxRecDepth 16384

noncomputable section

namespace Cert.KernelSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run from any memory with zero counters: the result array ends at the last boundary's
    contents and the arguments end as launched. -/
theorem run_named : θ_run defs (onTc (τ := τ) (main (F := F))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelSide

end
-- ==== Proof.KValue.lean ====
/-
  The idealized kernel program's result, entry by entry: the layer's output with the batch variance in its
  "mean of squares minus square of the mean" form, over the launched arrays.
-/
import proofs.«110614_j51762945852038_2_alg».proof.Proof.KGlue
import proofs.«110614_j51762945852038_2_alg».proof.Proof.KOut
import proofs.«110614_j51762945852038_2_alg».proof.Proof.KRun

noncomputable section

namespace Cert.KernelSide

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The remaining launched arrays by coordinates. -/
abbrev gammaC (c : Dev nD) : Fin 4 → Fin 128 → EReal := fun r o => (m ((c : Thread nD τ).loc main_arg7) : Vec Ideal S4x128 .f32) (ix2 r o)
abbrev betaC (c : Dev nD) : Fin 4 → Fin 128 → EReal := fun r o => (m ((c : Thread nD τ).loc main_arg8) : Vec Ideal S4x128 .f32) (ix2 r o)
abbrev w2C (c : Dev nD) : Fin 4 → Fin 128 → Fin 128 → EReal := fun r o p => (m ((c : Thread nD τ).loc main_arg9) : Vec Ideal S4x128x128 .f32) (ix3 r o p)
abbrev b2C (c : Dev nD) : Fin 4 → Fin 128 → EReal := fun r p => (m ((c : Thread nD τ).loc main_arg10) : Vec Ideal S4x128 .f32) (ix2 r p)
abbrev wselfC (c : Dev nD) : Fin 128 → Fin 128 → EReal := fun k p => (m ((c : Thread nD τ).loc main_arg3) : Vec Ideal S128x128 .f32) (ix2 k p)
abbrev bselfC (c : Dev nD) : Fin 128 → EReal := fun p => (m ((c : Thread nD τ).loc main_arg4) : Vec Ideal S128 .f32) (ix1 p)

set_option maxHeartbeats 1000000 in
/-- The result array after the run, at node n and feature p. -/
theorem kernel_value (c : Dev nD) (n : Fin 50000) (p : Fin 128) :
    (W4 m ρ c (Proc.devRef .tc main_v25) : Vec Ideal S50000x128 .f32) (ix2 n p)
      = Cert.Gin.outV (xC m c) (aggC m c) (w1C m c) (b1C m c) (Cert.Gin.varK (xC m c) (aggC m c) (w1C m c) (b1C m c))
          (gammaC m c) (betaC m c) (w2C m c) (b2C m c) (wselfC m c) (bselfC m c) n p := by
  have e : W4 m ρ c (Proc.devRef .tc main_v25) = layerArr (V3 m ρ) c := (W4_arr m ρ c 12).trans (out_layer (V3 m ρ) c)
  rw [e]
  show layerAt (V3 m ρ) c n p = _
  unfold layerAt Cert.Gin.outV Cert.Gin.lin2 Cert.Gin.act
  have ex : xOf (V3 m ρ) c = xC m c := by
    funext n k; show (V3 m ρ c main_arg0 : Vec Ideal S50000x128 .f32) (ix2 n k) = _; rw [V3_main_arg0]
  have ea : aggOf (V3 m ρ) c = aggC m c := by
    funext r n k; show (V3 m ρ c main_v17 : Vec Ideal S4x50000x128 .f32) (ix3 r n k) = _; rw [V3_main_v17]
  have ew : w1Of (V3 m ρ) c = w1C m c := by
    funext r k o; show (V3 m ρ c main_arg5 : Vec Ideal S4x128x128 .f32) (ix3 r k o) = _; rw [V3_main_arg5]
  have eb : b1Of (V3 m ρ) c = b1C m c := by
    funext r o; show (V3 m ρ c main_arg6 : Vec Ideal S4x128 .f32) (ix2 r o) = _; rw [V3_main_arg6]
  have em : meanOf (V3 m ρ) c = Cert.Gin.mean (xC m c) (aggC m c) (w1C m c) (b1C m c) := by
    funext r o; exact V3_mean m ρ c r o
  have ev : varOf (V3 m ρ) c = Cert.Gin.varK (xC m c) (aggC m c) (w1C m c) (b1C m c) := by
    funext r o; exact V3_var m ρ c r o
  have eg : gammaOf (V3 m ρ) c = gammaC m c := by
    funext r o; show (V3 m ρ c main_arg7 : Vec Ideal S4x128 .f32) (ix2 r o) = _; rw [V3_main_arg7]
  have ebe : betaOf (V3 m ρ) c = betaC m c := by
    funext r o; show (V3 m ρ c main_arg8 : Vec Ideal S4x128 .f32) (ix2 r o) = _; rw [V3_main_arg8]
  have ew2 : w2Of (V3 m ρ) c = w2C m c := by
    funext r o p; show (V3 m ρ c main_arg9 : Vec Ideal S4x128x128 .f32) (ix3 r o p) = _; rw [V3_main_arg9]
  have eb2 : b2Of (V3 m ρ) c = b2C m c := by
    funext r p; show (V3 m ρ c main_arg10 : Vec Ideal S4x128 .f32) (ix2 r p) = _; rw [V3_main_arg10]
  have ews : wselfOf (V3 m ρ) c = wselfC m c := by
    funext k p; show (V3 m ρ c main_arg3 : Vec Ideal S128x128 .f32) (ix2 k p) = _; rw [V3_main_arg3]
  have ebs : bselfOf (V3 m ρ) c = bselfC m c := by
    funext p; show (V3 m ρ c main_arg4 : Vec Ideal S128 .f32) (ix1 p) = _; rw [V3_main_arg4]
  rw [ex, ea, ew, eb, em, ev, eg, ebe, ew2, eb2, ews, ebs]

end Cert.KernelSide

end
-- ==== Proof.ScatterReal.lean ====
/-
  Two host operations keep an array of real numbers real, at the extended reals.

  A gathered entry is an entry of the operand (the operand read at a computed index), so it is real when every
  entry of the operand is.  A scatter that adds reads, at each index, the operand's entry plus the sum of the
  finitely many updates landing there; a finite sum of real numbers is a real number.
-/
import Idealize.ShloMosaic.PureOps.Ideal
import Idealize.ShloMosaic.PureOps.Contract
import Idealize.ShloMosaic.PureOps.ShapeOps

noncomputable section

namespace Cert.Gin

open Idealize.ShloMosaic

/-- A finite sum of extended reals that are all real numbers is a real number. -/
theorem sum_real {ι : Type*} (s : Finset ι) (f : ι → EReal) (hf : ∀ j, ∃ v : ℝ, f j = v) :
    ∃ v : ℝ, ∑ j ∈ s, f j = v := by
  classical
  choose g hg using hf
  refine ⟨∑ j ∈ s, g j, ?_⟩
  induction s using Finset.induction_on with
  | empty => simp
  | insert a s ha ih => rw [Finset.sum_insert ha, Finset.sum_insert ha, EReal.coe_add, ih, hg]

/-- A scatter-add of real updates onto a real array is a real array. -/
theorem scatterAdd_real {s si u : Shape} {w : Nat} (d : ScatterDims s si u) (z : FVec Ideal s .f32) (idx : IVec si w)
    (upd : FVec Ideal u .f32) (hz : ∀ i, ∃ v : ℝ, z i = v) (hu : ∀ j, ∃ v : ℝ, upd j = v) :
    ∀ i, ∃ v : ℝ, Host.scatterAdd (F := Ideal) d z idx upd i = v := by
  intro i
  obtain ⟨a, ha⟩ := hz i
  obtain ⟨b, hb⟩ := sum_real (Finset.univ.filter (fun j => d.resultIdx? j idx = some i)) upd hu
  refine ⟨a + b, ?_⟩
  show z i + ∑ j ∈ Finset.univ.filter (fun j => d.resultIdx? j idx = some i), upd j = _
  rw [ha, hb, EReal.coe_add]

/-- A gather from a real array is a real array: each result entry is one of the operand's. -/
theorem gather_real {s si o : Shape} {w : Nat} (d : GatherDims s si o) (x : FVec Ideal s .f32) (idx : IVec si w)
    (hx : ∀ i, ∃ v : ℝ, x i = v) : ∀ j, ∃ v : ℝ, Host.gather d x idx j = v :=
  fun j => hx (d.operandIdx j idx)

end Cert.Gin

end
-- ==== Proof.MathVar.lean ====
/-
  The two forms of the batch variance agree on real inputs.

  With z n = pre r n o real numbers, N = 50000 the node count, S = ∑ z n and m = S / N the mean,
    ∑ (z n − m)² = ∑ z n² − 2 m S + N m² = ∑ z n² − S² / N,
  so (∑ (z n − m)²) / N = (∑ z n²) / N − m²: the mean of the squared deviations is the mean of the
  squares less the square of the mean.  The identity is proved over the reals for any finite index
  type and carried to the extended reals, where sums, products and differences of real numbers are
  the coercions of the real sums, products and differences, and division by the real N ≠ 0 is the
  product with 1 / N.
-/
import proofs.«110614_j51762945852038_2_alg».proof.Proof.Spec
import Mathlib

noncomputable section

namespace Cert.Gin

open Idealize.ShloMosaic

/-- A finite sum of real numbers, read in the extended reals, is the sum of the summands read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the mean of the squares less the square of the mean is the mean of the squared
    deviations from the mean, for N the (nonzero) number of terms. -/
theorem real_var_identity {ι : Type*} [Fintype ι] (z : ι → ℝ) (N : ℝ) (hN : N = (Fintype.card ι : ℝ))
    (h0 : N ≠ 0) :
    (∑ i, z i * z i) * (1 / N) - ((∑ i, z i) * (1 / N)) * ((∑ i, z i) * (1 / N))
      = (∑ i, (z i - (∑ j, z j) * (1 / N)) * (z i - (∑ j, z j) * (1 / N))) * (1 / N) := by
  have expand : ∑ i, (z i - (∑ j, z j) * (1 / N)) * (z i - (∑ j, z j) * (1 / N))
      = (∑ i, z i * z i) - 2 * ((∑ j, z j) * (1 / N)) * (∑ i, z i)
        + N * (((∑ j, z j) * (1 / N)) * ((∑ j, z j) * (1 / N))) := by
    have h : ∀ i, (z i - (∑ j, z j) * (1 / N)) * (z i - (∑ j, z j) * (1 / N))
        = z i * z i - 2 * ((∑ j, z j) * (1 / N)) * z i
          + ((∑ j, z j) * (1 / N)) * ((∑ j, z j) * (1 / N)) := fun i => by ring
    simp only [h]
    rw [Finset.sum_add_distrib, Finset.sum_sub_distrib, ← Finset.mul_sum, Finset.sum_const,
      Finset.card_univ, nsmul_eq_mul, ← hN]
  rw [expand]
  field_simp
  ring

/-- The node count literal denotes the real number 50000. -/
theorem cN_eq : cN = ((50000 : ℝ) : EReal) := by
  simp [cN, Ideal.ofBits, Ideal.ieee, -EReal.coe_mul]; norm_num

section
variable {x : Fin 50000 → Fin 128 → EReal} {agg : Fin 4 → Fin 50000 → Fin 128 → EReal}
  {w1 : Fin 4 → Fin 128 → Fin 128 → EReal} {b1 : Fin 4 → Fin 128 → EReal}

/-- The first linear map of real inputs is a real number: a finite sum of products of reals plus a real. -/
theorem pre_real (hx : ∀ n k, ∃ v : ℝ, x n k = v) (hagg : ∀ r n k, ∃ v : ℝ, agg r n k = v)
    (hw1 : ∀ r k o, ∃ v : ℝ, w1 r k o = v) (hb1 : ∀ r o, ∃ v : ℝ, b1 r o = v)
    (r : Fin 4) (n : Fin 50000) (o : Fin 128) : ∃ v : ℝ, pre x agg w1 b1 r n o = v := by
  choose fx hfx using hx
  choose fa hfa using hagg
  choose fw hfw using hw1
  choose fb hfb using hb1
  refine ⟨(∑ k, (fx n k + fa r n k) * fw r k o) + fb r o, ?_⟩
  unfold pre
  simp only [hfx, hfa, hfw, hfb, ← EReal.coe_add, ← EReal.coe_mul, ← coe_sum]

/-- On real inputs the variance as "mean of squares less square of the mean" is the mean of the
    squared deviations. -/
theorem varK_eq_var (hx : ∀ n k, ∃ v : ℝ, x n k = v) (hagg : ∀ r n k, ∃ v : ℝ, agg r n k = v)
    (hw1 : ∀ r k o, ∃ v : ℝ, w1 r k o = v) (hb1 : ∀ r o, ∃ v : ℝ, b1 r o = v)
    (r : Fin 4) (o : Fin 128) : varK x agg w1 b1 r o = var x agg w1 b1 r o := by
  choose z hz using fun n => pre_real hx hagg hw1 hb1 r n o
  have h50 : (50000 : ℝ) ≠ 0 := by norm_num
  unfold varK var mean
  simp only [hz]
  rw [cN_eq]
  simp only [Ideal.div_coe h50, ← EReal.coe_mul, ← coe_sum, ← EReal.coe_sub]
  exact congrArg _ (real_var_identity z 50000 (by simp) h50)

end

end Cert.Gin

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.FiniteInputs.lean ====
/-
  The precondition "every float input is finite", read at the extended reals, for the three arguments the
  variance identity needs: the node features x, the first weights W1 and the first biases b1.

  The printed predicate is a conjunction (a chain of `and`s) of nine "all" reductions, one per float argument,
  each over the element-wise comparison |a| < +inf.  The conjunction being 1 makes every reduction 1, a reduction
  by `and` being 1 makes every compared element 1, and an extended real whose absolute value max(a, -a) lies
  below +inf is neither infinity: it is a real number.
-/
import proofs.«110614_j51762945852038_2_alg».proof.Defs
import proofs.«110614_j51762945852038_2_alg».proof.Proof.Gen.Pre_finite_inputs
import proofs.«110614_j51762945852038_2_alg».proof.Proof.LibSums
import Idealize.ShloMosaic.Lib.ReduceAll

noncomputable section

namespace Cert.Gin

open Idealize.ShloMosaic Idealize.SL.Sem

/-- The rank-0 shape has one index. -/
instance : Subsingleton Cert.Pre_finite_inputs.S_.Idx := ⟨fun a b => funext fun d => d.elim0⟩

/-- Under the precondition, on every device, every entry of x, of W1 and of b1 is a real number. -/
theorem real_args (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∀ i, ∃ v : ℝ, (m ((c.tc : Thread Cert.KernelIdeal.nD Cert.KernelIdeal.τ).loc Cert.KernelIdeal.main_arg0) : FVec Ideal Cert.KernelIdeal.S50000x128 .f32) i = (v : EReal))
    ∧ (∀ i, ∃ v : ℝ, (m ((c.tc : Thread Cert.KernelIdeal.nD Cert.KernelIdeal.τ).loc Cert.KernelIdeal.main_arg5) : FVec Ideal Cert.KernelIdeal.S4x128x128 .f32) i = (v : EReal))
    ∧ (∀ i, ∃ v : ℝ, (m ((c.tc : Thread Cert.KernelIdeal.nD Cert.KernelIdeal.τ).loc Cert.KernelIdeal.main_arg6) : FVec Ideal Cert.KernelIdeal.S4x128 .f32) i = (v : EReal)) := by
  have h0 := congrFun (h c) ValueIdx.ix0
  dsimp only [Cert.Pre_finite_inputs.fn, Cert.Pre_finite_inputs.fn_part1, Cert.Pre_finite_inputs.fn_part2] at h0
  -- the chain of nine conjuncts, outermost (the last argument) first
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, hb1⟩ := IntOp.andi_eq_one.1 h0
  obtain ⟨h0, hw1⟩ := IntOp.andi_eq_one.1 h0
  obtain ⟨h0, -⟩ := IntOp.andi_eq_one.1 h0
  obtain ⟨hx, -⟩ := IntOp.andi_eq_one.1 h0
  refine ⟨fun i => ?_, fun i => ?_, fun i => ?_⟩
  · exact Cert.LibSums.real_of_finite_bit _ (Host.reduce_andi_all _ _ _ _ _ hx i)
  · exact Cert.LibSums.real_of_finite_bit _ (Host.reduce_andi_all _ _ _ _ _ hw1 i)
  · exact Cert.LibSums.real_of_finite_bit _ (Host.reduce_andi_all _ _ _ _ _ hb1 i)

end Cert.Gin

end
-- ==== Proof.KReal.lean ====
/-
  The arrays the variance identity speaks of hold real numbers, and the layer's output is the same with either
  form of the variance.

  The summed neighbour features are a reshaping of a scatter-add of gathered rows of x onto a zero array: every
  entry is an entry of the zero array (the real number 0) plus a finite sum of entries of x, so it is real when x
  is.  With x, W1 and b1 real by the precondition, the four hypotheses of the variance identity hold, and the
  layer's output computed with the variance as "mean of squares less square of the mean" is its output computed
  with the mean of the squared deviations.
-/
import proofs.«110614_j51762945852038_2_alg».proof.Proof.KAgg
import proofs.«110614_j51762945852038_2_alg».proof.Proof.ScatterReal
import proofs.«110614_j51762945852038_2_alg».proof.Proof.MathVar
import proofs.«110614_j51762945852038_2_alg».proof.Proof.FiniteInputs
import proofs.«110614_j51762945852038_2_alg».proof.Proof.Spec
import Idealize.ShloMosaic.PureOps.Ideal.Laws

noncomputable section

namespace Cert.KernelSide

open Idealize.ShloMosaic Idealize.SL.Sem
open Cert.KernelIdeal

/-- The summed neighbour features of real node features are real. -/
theorem agg_real (a0 : (⟨S50000x128, .f32⟩ : BufTy).Contents (Elt Ideal)) (a1 : (⟨S2x600000, .i32⟩ : BufTy).Contents (Elt Ideal))
    (a2 : (⟨S600000, .i32⟩ : BufTy).Contents (Elt Ideal))
    (hx : ∀ i, ∃ v : ℝ, (a0 : FVec Ideal S50000x128 .f32) i = (v : EReal)) :
    ∀ j, ∃ v : ℝ, (aggK a0 a1 a2 : FVec Ideal S4x50000x128 .f32) j = (v : EReal) := by
  intro j
  unfold aggK
  -- a reshaped array reads its operand at the matched index
  refine Cert.Gin.scatterAdd_real _ _ _ _ (fun k => ⟨0, ?_⟩) (Cert.Gin.gather_real _ a0 _ hx) _
  show Ideal.ofBits .f32 0x00000000#32 = _
  rw [Ideal.ofBits_zero_f32]; rfl

/-- On real inputs the layer's output is the same with either form of the variance. -/
theorem outV_variance_forms {x : Fin 50000 → Fin 128 → EReal} {agg : Fin 4 → Fin 50000 → Fin 128 → EReal}
    {w1 : Fin 4 → Fin 128 → Fin 128 → EReal} {b1 : Fin 4 → Fin 128 → EReal}
    (hx : ∀ n k, ∃ v : ℝ, x n k = v) (hagg : ∀ r n k, ∃ v : ℝ, agg r n k = v)
    (hw1 : ∀ r k o, ∃ v : ℝ, w1 r k o = v) (hb1 : ∀ r o, ∃ v : ℝ, b1 r o = v)
    (g be : Fin 4 → Fin 128 → EReal) (w2 : Fin 4 → Fin 128 → Fin 128 → EReal) (b2 : Fin 4 → Fin 128 → EReal)
    (wself : Fin 128 → Fin 128 → EReal) (bself : Fin 128 → EReal) (n : Fin 50000) (p : Fin 128) :
    Cert.Gin.outV x agg w1 b1 (Cert.Gin.varK x agg w1 b1) g be w2 b2 wself bself n p
      = Cert.Gin.outV x agg w1 b1 (Cert.Gin.var x agg w1 b1) g be w2 b2 wself bself n p := by
  have e : Cert.Gin.varK x agg w1 b1 = Cert.Gin.var x agg w1 b1 :=
    funext fun r => funext fun o => Cert.Gin.varK_eq_var hx hagg hw1 hb1 r o
  rw [e]

/-- Under the precondition, on every device, the node features, the summed neighbour features, the first weights
    and the first biases, read by coordinates, are real numbers. -/
theorem layer_reals (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ (n : Fin 50000) (k : Fin 128), ∃ v : ℝ,
        (m ((c.tc : Thread Cert.KernelIdeal.nD Cert.KernelIdeal.τ).loc main_arg0) : Vec Ideal S50000x128 .f32) (ValueIdx.ix2 n k) = (v : EReal))
    ∧ (∀ (r : Fin 4) (n : Fin 50000) (k : Fin 128), ∃ v : ℝ,
        aggK (m ((c.tc : Thread Cert.KernelIdeal.nD Cert.KernelIdeal.τ).loc main_arg0)) (m ((c.tc : Thread Cert.KernelIdeal.nD Cert.KernelIdeal.τ).loc main_arg1))
          (m ((c.tc : Thread Cert.KernelIdeal.nD Cert.KernelIdeal.τ).loc main_arg2)) (ValueIdx.ix3 r n k) = (v : EReal))
    ∧ (∀ (r : Fin 4) (k o : Fin 128), ∃ v : ℝ,
        (m ((c.tc : Thread Cert.KernelIdeal.nD Cert.KernelIdeal.τ).loc main_arg5) : Vec Ideal S4x128x128 .f32) (ValueIdx.ix3 r k o) = (v : EReal))
    ∧ (∀ (r : Fin 4) (o : Fin 128), ∃ v : ℝ,
        (m ((c.tc : Thread Cert.KernelIdeal.nD Cert.KernelIdeal.τ).loc main_arg6) : Vec Ideal S4x128 .f32) (ValueIdx.ix2 r o) = (v : EReal)) := by
  obtain ⟨h0, h5, h6⟩ := Cert.Gin.real_args m h c
  exact ⟨fun n k => h0 _, fun r n k => agg_real _ _ _ h0 _, fun r k o => h5 _, fun r o => h6 _⟩

end Cert.KernelSide

end
-- ==== Proof.RefAgg.lean ====
/-
  The summed neighbour features of the relational layer, as one function of the reference's first three arguments.
-/
import proofs.«110614_j51762945852038_2_alg».proof.Proof.Gen.ReferenceIdeal
import Idealize.ShloMosaic.PureOps.Ideal

noncomputable section

namespace Cert.RefSide

open Idealize.ShloMosaic Cert.ReferenceIdeal Cert.ReferenceIdeal.Gen

/-- The summed neighbour features: the edges' source rows gathered from x (a negative node number counted from the
    end), added into row (edge type · 50000 + target node) of a zero [200000,128] array, read as [4,50000,128]. -/
def aggR (a0 : (⟨S50000x128, .f32⟩ : BufTy).Contents (Elt Ideal)) (a1 : (⟨S2x600000, .i32⟩ : BufTy).Contents (Elt Ideal))
    (a2 : (⟨S600000, .i32⟩ : BufTy).Contents (Elt Ideal)) : (⟨S4x50000x128, .f32⟩ : BufTy).Contents (Elt Ideal) :=
  shapeCast S4x50000x128
    (Host.scatterAdd (F := Ideal) scatter_S200000x128_S600000x1_S600000x128_1_0_0_1
      (broadcastInDim S200000x128 ![] bcast_S_S200000x128 (constant (F := Ideal) S_ .f32 0x00000000#32))
      (broadcastInDim S600000x1 ![0] bcast_S600000_S600000x1_0
        (addi (muli a2 (broadcastInDim S600000 ![] bcast_S_S600000 (constantI S_ 32 50000#32)))
          (shapeCast S600000 (extractStridedSlice S1x600000 ![0, 0] a1 slices_S2x600000_S1x600000_0_0) shapeCasts_S1x600000_S600000)))
      (Host.gather gather_S50000x128_S600000x1_S600000x128_1_0_n_n_0_1_1128 a0
        (broadcastInDim S600000x1 ![0] bcast_S600000_S600000x1_0
          (select
            (cmpi .slt (shapeCast S600000 (extractStridedSlice S1x600000 ![1, 0] a1 slices_S2x600000_S1x600000_1_0) shapeCasts_S1x600000_S600000)
              (broadcastInDim S600000 ![] bcast_S_S600000 (constantI S_ 32 0#32)))
            (addi (shapeCast S600000 (extractStridedSlice S1x600000 ![1, 0] a1 slices_S2x600000_S1x600000_1_0) shapeCasts_S1x600000_S600000)
              (broadcastInDim S600000 ![] bcast_S_S600000 (constantI S_ 32 50000#32)))
            (shapeCast S600000 (extractStridedSlice S1x600000 ![1, 0] a1 slices_S2x600000_S1x600000_1_0) shapeCasts_S1x600000_S600000)))))
    shapeCasts_S200000x128_S4x50000x128

end Cert.RefSide

end
-- ==== Proof.RefRun.lean ====
/-
  The reference program's run: @main with its three called functions (the variance, the
  selection inside it, the rectifier) unfolded is one straight line of host operations, and every weakly fair
  execution of it ends with the result buffer at one closed term of the eleven argument arrays, the arguments
  unchanged.  The term is stated in stages that follow the layer: the first linear map, the batch mean, the
  centred values, the batch variance, the normalised and rectified activation, the second linear map, the
  self-loop map, and their sum over the four relations.
-/
import proofs.«110614_j51762945852038_2_alg».proof.Proof.RefAgg
import proofs.«110614_j51762945852038_2_alg».proof.Proof.Gen.Pre_finite_inputs
import proofs.«110614_j51762945852038_2_alg».proof.Defs
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

/-! ## The result as a term of the arguments -/

/-- A [4,50000,128] array of extended reals. -/
abbrev A3 : Type := FVec Ideal S4x50000x128 .f32
/-- A [4,1,128] array: one value per relation and feature. -/
abbrev A1 : Type := FVec Ideal S4x1x128 .f32
/-- A [4,128] array. -/
abbrev A2 : Type := FVec Ideal S4x128 .f32

/-- A [4,128] array repeated over the 50000 nodes: entry (r, n, o) is entry (r, o). -/
def rows (b : A2) : A3 :=
  broadcastInDim S4x50000x128 ![0, 1, 2] bcast_S4x1x128_S4x50000x128_0_1_2
    (broadcastInDim S4x1x128 ![0, 2] bcast_S4x128_S4x1x128_0_2 b)

/-- A [4,1,128] array repeated over the 50000 nodes. -/
def up (t : A1) : A3 :=
  broadcastInDim S4x50000x128 ![0, 1, 2] bcast_S4x1x128_S4x50000x128_0_1_2 t

/-- A scalar repeated over a [4,1,128] array. -/
def fill (v : FVec Ideal S_ .f32) : A1 :=
  broadcastInDim S4x1x128 ![] bcast_S_S4x1x128 v

/-- The first linear map: (x + agg r) · W1 r + b1 r, the node features repeated over the four relations. -/
def preR (a0 : FVec Ideal S50000x128 .f32) (agg : A3) (a5 : FVec Ideal S4x128x128 .f32) (a6 : A2) : A3 :=
  addf
    (Host.dotGeneral (F := Ideal) dot_S4x50000x128_S4x128x128_S4x50000x128_2_1_1_2_0_0 none
      (addf
        (broadcastInDim S4x50000x128 ![0, 1, 2] bcast_S1x50000x128_S4x50000x128_0_1_2
          (broadcastInDim S1x50000x128 ![1, 2] bcast_S50000x128_S1x50000x128_1_2 a0))
        agg)
      a5)
    (rows a6)

/-- The sum over the 50000 nodes, kept as a [4,1,128] array. -/
def sumN (t : A3) : A1 :=
  broadcastInDim S4x1x128 ![0, 2] bcast_S4x128_S4x1x128_0_2
    (Host.reduceAdd (F := Ideal) t (constant (F := Ideal) S_ .f32 0x00000000#32) reducesTo_S4x50000x128_S4x128_d1 h_S_)

/-- The batch mean: the sum over the nodes divided by the literal 50000. -/
def meanR (pre : A3) : A1 :=
  Host.divf (F := Ideal) (sumN pre) (fill (constant (F := Ideal) S_ .f32 0x47435000#32))

/-- The values less their batch mean. -/
def cenR (pre : A3) : A3 :=
  subf pre (up (meanR pre))

/-- The variance's divisor as the program computes it: the literal 50000 less the integer 0 converted. -/
def denR : FVec Ideal S_ .f32 :=
  subf (constant (F := Ideal) S_ .f32 0x47435000#32) (sitofp (F := Ideal) .f32 (constantI S_ 32 0#32))

/-- The batch variance: the mean of the squared centred values where the divisor is positive, the quiet-NaN literal
    elsewhere. -/
def varR (pre : A3) : A1 :=
  select (broadcastInDim S4x1x128 ![] bcast_S_S4x1x128 (cmpf .ogt denR (constant (F := Ideal) S_ .f32 0x00000000#32)))
    (Host.divf (F := Ideal) (sumN (mulf (cenR pre) (cenR pre))) (fill denR))
    (fill (id (constant (F := Ideal) S_ .f32 0x7FC00000#32)))

/-- Normalised by the variance plus the guard, scaled by gamma, shifted by beta, rectified. -/
def actR (pre : A3) (a7 a8 : A2) : A3 :=
  maximumf
    (addf
      (mulf
        (mulf (cenR pre)
          (up (Host.rsqrt (F := Ideal) (addf (varR pre) (fill (constant (F := Ideal) S_ .f32 0x3727C5AC#32))))))
        (rows a7))
      (rows a8))
    (broadcastInDim S4x50000x128 ![] bcast_S_S4x50000x128 (constant (F := Ideal) S_ .f32 0x00000000#32))

/-- The second linear map: act r · W2 r + b2 r. -/
def lin2R (act : A3) (a9 : FVec Ideal S4x128x128 .f32) (a10 : A2) : A3 :=
  addf (Host.dotGeneral (F := Ideal) dot_S4x50000x128_S4x128x128_S4x50000x128_2_1_1_2_0_0 none act a9) (rows a10)

/-- The self-loop map: x · W_self + b_self. -/
def selfR (a0 : FVec Ideal S50000x128 .f32) (a3 : FVec Ideal S128x128 .f32) (a4 : FVec Ideal S128 .f32) :
    FVec Ideal S50000x128 .f32 :=
  addf (Host.dotGeneral (F := Ideal) dot_S50000x128_S128x128_S50000x128_1_0_0_1_n_n none a0 a3)
    (broadcastInDim S50000x128 ![0, 1] bcast_S1x128_S50000x128_0_1 (broadcastInDim S1x128 ![1] bcast_S128_S1x128_1 a4))

/-- The reference's result: the self-loop map plus the sum over the four relations of the second linear map of the
    activation, the neighbour sums entering only as `aggR a0 a1 a2`. -/
def refOut (a0 : (⟨S50000x128, .f32⟩ : BufTy).Contents (Elt Ideal)) (a1 : (⟨S2x600000, .i32⟩ : BufTy).Contents (Elt Ideal)) (a2 : (⟨S600000, .i32⟩ : BufTy).Contents (Elt Ideal)) (a3 : (⟨S128x128, .f32⟩ : BufTy).Contents (Elt Ideal)) (a4 : (⟨S128, .f32⟩ : BufTy).Contents (Elt Ideal)) (a5 : (⟨S4x128x128, .f32⟩ : BufTy).Contents (Elt Ideal)) (a6 : (⟨S4x128, .f32⟩ : BufTy).Contents (Elt Ideal)) (a7 : (⟨S4x128, .f32⟩ : BufTy).Contents (Elt Ideal)) (a8 : (⟨S4x128, .f32⟩ : BufTy).Contents (Elt Ideal)) (a9 : (⟨S4x128x128, .f32⟩ : BufTy).Contents (Elt Ideal)) (a10 : (⟨S4x128, .f32⟩ : BufTy).Contents (Elt Ideal)) :
    (⟨S50000x128, .f32⟩ : BufTy).Contents (Elt Ideal) :=
  addf (selfR a0 a3 a4)
    (Host.reduceAdd (F := Ideal) (lin2R (actR (preR a0 (aggR a0 a1 a2) a5 a6) a7 a8) a9 a10)
      (constant (F := Ideal) S_ .f32 0x00000000#32) reducesTo_S4x50000x128_S50000x128_d0 h_S_)

/-! ## The program as a straight line -/

variable {F : FTy → Type} [FloatOps F]

/-- @main's operations in order, the three calls unfolded: the variance's twenty and the three of the selection it
    calls run into the buffers of @main's call 0, the rectifier's three into those of call 1. -/
abbrev ops : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 50000#32),
    StableHlo.unary main_c main_v4 (broadcastInDim S600000 ![] bcast_S_S600000 : (⟨S_, .i32⟩ : BufTy).Contents (Elt F) → (⟨S600000, .i32⟩ : BufTy).Contents (Elt F)),
    StableHlo.binary main_arg2 main_v4 main_v5 (muli : (⟨S600000, .i32⟩ : BufTy).Contents (Elt F) → (⟨S600000, .i32⟩ : BufTy).Contents (Elt F) → (⟨S600000, .i32⟩ : BufTy).Contents (Elt F)),
    StableHlo.binary main_v5 main_v1 main_v6 (addi : (⟨S600000, .i32⟩ : BufTy).Contents (Elt F) → (⟨S600000, .i32⟩ : BufTy).Contents (Elt F) → (⟨S600000, .i32⟩ : BufTy).Contents (Elt F)),
    StableHlo.nullary main_c_0 (constantI S_ 32 0#32),
    StableHlo.unary main_c_0 main_v7 (broadcastInDim S600000 ![] bcast_S_S600000 : (⟨S_, .i32⟩ : BufTy).Contents (Elt F) → (⟨S600000, .i32⟩ : BufTy).Contents (Elt F)),
    StableHlo.binary main_v3 main_v7 main_v8 (cmpi .slt : (⟨S600000, .i32⟩ : BufTy).Contents (Elt F) → (⟨S600000, .i32⟩ : BufTy).Contents (Elt F) → (⟨S600000, .i1⟩ : BufTy).Contents (Elt F)),
    StableHlo.nullary main_c_1 (constantI S_ 32 50000#32),
    StableHlo.unary main_c_1 main_v9 (broadcastInDim S600000 ![] bcast_S_S600000 : (⟨S_, .i32⟩ : BufTy).Contents (Elt F) → (⟨S600000, .i32⟩ : BufTy).Contents (Elt F)),
    StableHlo.binary main_v3 main_v9 main_v10 (addi : (⟨S600000, .i32⟩ : BufTy).Contents (Elt F) → (⟨S600000, .i32⟩ : BufTy).Contents (Elt F) → (⟨S600000, .i32⟩ : BufTy).Contents (Elt F)),
    StableHlo.ternary main_v8 main_v10 main_v3 main_v11 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v11 main_v12 (broadcastInDim S600000x1 ![0] bcast_S600000_S600000x1_0 : (⟨S600000, .i32⟩ : BufTy).Contents (Elt F) → (⟨S600000x1, .i32⟩ : BufTy).Contents (Elt F)),
    StableHlo.binary main_arg0 main_v12 main_v13 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v14 (broadcastInDim S200000x128 ![] bcast_S_S200000x128 : (⟨S_, .f32⟩ : BufTy).Contents (Elt F) → (⟨S200000x128, .f32⟩ : BufTy).Contents (Elt F)),
    StableHlo.unary main_v6 main_v15 (broadcastInDim S600000x1 ![0] bcast_S600000_S600000x1_0 : (⟨S600000, .i32⟩ : BufTy).Contents (Elt F) → (⟨S600000x1, .i32⟩ : BufTy).Contents (Elt F)),
    StableHlo.ternary main_v14 main_v15 main_v13 main_v16 ((fun x i u => Host.scatterAdd scatter_S200000x128_S600000x1_S600000x128_1_0_0_1 x i u) : (⟨S200000x128, .f32⟩ : BufTy).Contents (Elt F) → (⟨S600000x1, .i32⟩ : BufTy).Contents (Elt F) → (⟨S600000x128, .f32⟩ : BufTy).Contents (Elt F) → (⟨S200000x128, .f32⟩ : BufTy).Contents (Elt F)),
    StableHlo.reshape main_v16 main_v17 rfl shapeCasts_S200000x128_S4x50000x128,
    StableHlo.unary main_arg0 main_v18 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v18 main_v19 (broadcastInDim S4x50000x128 ![0, 1, 2] bcast_S1x50000x128_S4x50000x128_0_1_2 : (⟨S1x50000x128, .f32⟩ : BufTy).Contents (Elt F) → (⟨S4x50000x128, .f32⟩ : BufTy).Contents (Elt F)),
    StableHlo.binary main_v19 main_v17 main_v20 (addf : (⟨S4x50000x128, .f32⟩ : BufTy).Contents (Elt F) → (⟨S4x50000x128, .f32⟩ : BufTy).Contents (Elt F) → (⟨S4x50000x128, .f32⟩ : BufTy).Contents (Elt F)),
    StableHlo.binary main_v20 main_arg5 main_v21 ((fun l r => Host.dotGeneral dot_S4x50000x128_S4x128x128_S4x50000x128_2_1_1_2_0_0 none l r) : (⟨S4x50000x128, .f32⟩ : BufTy).Contents (Elt F) → (⟨S4x128x128, .f32⟩ : BufTy).Contents (Elt F) → (⟨S4x50000x128, .f32⟩ : BufTy).Contents (Elt F)),
    StableHlo.unary main_arg6 main_v22 (broadcastInDim S4x1x128 ![0, 2] bcast_S4x128_S4x1x128_0_2 : (⟨S4x128, .f32⟩ : BufTy).Contents (Elt F) → (⟨S4x1x128, .f32⟩ : BufTy).Contents (Elt F)),
    StableHlo.unary main_v22 main_v23 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v21 main_v23 main_v24 (addf : (⟨S4x50000x128, .f32⟩ : BufTy).Contents (Elt F) → (⟨S4x50000x128, .f32⟩ : BufTy).Contents (Elt F) → (⟨S4x50000x128, .f32⟩ : BufTy).Contents (Elt F)),
    StableHlo.nullary main_cst_2 (constant S_ .f32 0x00000000#32),
    StableHlo.binary main_v24 main_cst_2 main_v25 ((fun x v => Host.reduceAdd x v reducesTo_S4x50000x128_S4x128_d1 h_S_) : (⟨S4x50000x128, .f32⟩ : BufTy).Contents (Elt F) → (⟨S_, .f32⟩ : BufTy).Contents (Elt F) → (⟨S4x128, .f32⟩ : BufTy).Contents (Elt F)),
    StableHlo.unary main_v25 main_v26 (broadcastInDim S4x1x128 ![0, 2] bcast_S4x128_S4x1x128_0_2 : (⟨S4x128, .f32⟩ : BufTy).Contents (Elt F) → (⟨S4x1x128, .f32⟩ : BufTy).Contents (Elt F)),
    StableHlo.nullary main_cst_3 (constant S_ .f32 0x47435000#32),
    StableHlo.unary main_cst_3 main_v27 (broadcastInDim S4x1x128 ![] bcast_S_S4x1x128 : (⟨S_, .f32⟩ : BufTy).Contents (Elt F) → (⟨S4x1x128, .f32⟩ : BufTy).Contents (Elt F)),
    StableHlo.binary main_v26 main_v27 main_v28 (Host.divf : (⟨S4x1x128, .f32⟩ : BufTy).Contents (Elt F) → (⟨S4x1x128, .f32⟩ : BufTy).Contents (Elt F) → (⟨S4x1x128, .f32⟩ : BufTy).Contents (Elt F)),
    StableHlo.nullary main_c_4 (constantI S_ 32 0#32),
    StableHlo.TRef.nullary main_call0.cst (constant S_ .f32 0x00000000#32),
    StableHlo.TRef.binary (.of main_v24 : StableHlo.TRef sig ⟨S4x50000x128, .f32⟩) main_call0.cst main_call0.v0 (fun x v => Host.reduceAdd x v reducesTo_S4x50000x128_S4x128_d1 h_S_),
    StableHlo.TRef.unary main_call0.v0 main_call0.v1 (broadcastInDim S4x1x128 ![0, 2] bcast_S4x128_S4x1x128_0_2),
    StableHlo.TRef.nullary main_call0.cst_0 (constant S_ .f32 0x47435000#32),
    StableHlo.TRef.unary main_call0.cst_0 main_call0.v2 (broadcastInDim S4x1x128 ![] bcast_S_S4x1x128),
    StableHlo.TRef.binary main_call0.v1 main_call0.v2 main_call0.v3 Host.divf,
    StableHlo.TRef.unary main_call0.v3 main_call0.v4 (broadcastInDim S4x50000x128 ![0, 1, 2] bcast_S4x1x128_S4x50000x128_0_1_2),
    StableHlo.TRef.binary (.of main_v24 : StableHlo.TRef sig ⟨S4x50000x128, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4x50000x128_S4x128_d1 h_S_),
    StableHlo.TRef.unary main_call0.v9 main_call0.v10 (broadcastInDim S4x1x128 ![0, 2] bcast_S4x128_S4x1x128_0_2),
    StableHlo.TRef.unary main_call0.v8 main_call0.v11 (broadcastInDim S4x1x128 ![] bcast_S_S4x1x128),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4x1x128 ![] bcast_S_S4x1x128),
    StableHlo.TRef.ternary main_call0.v13 main_call0.v12 main_call0.call0.v1 main_call0.call0.v2 (fun p a b => select (broadcastInDim S4x1x128 ![] bcast_S_S4x1x128 p) a b),
    StableHlo.unary main_v28 main_v30 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v24 main_v30 main_v31 (subf : (⟨S4x50000x128, .f32⟩ : BufTy).Contents (Elt F) → (⟨S4x50000x128, .f32⟩ : BufTy).Contents (Elt F) → (⟨S4x50000x128, .f32⟩ : BufTy).Contents (Elt F)),
    StableHlo.nullary main_cst_5 (constant S_ .f32 0x3727C5AC#32),
    StableHlo.unary main_cst_5 main_v32 (broadcastInDim S4x1x128 ![] bcast_S_S4x1x128 : (⟨S_, .f32⟩ : BufTy).Contents (Elt F) → (⟨S4x1x128, .f32⟩ : BufTy).Contents (Elt F)),
    StableHlo.binary main_v29 main_v32 main_v33 (addf : (⟨S4x1x128, .f32⟩ : BufTy).Contents (Elt F) → (⟨S4x1x128, .f32⟩ : BufTy).Contents (Elt F) → (⟨S4x1x128, .f32⟩ : BufTy).Contents (Elt F)),
    StableHlo.unary main_v33 main_v34 (Host.rsqrt : (⟨S4x1x128, .f32⟩ : BufTy).Contents (Elt F) → (⟨S4x1x128, .f32⟩ : BufTy).Contents (Elt F)),
    StableHlo.unary main_v34 main_v35 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v31 main_v35 main_v36 (mulf : (⟨S4x50000x128, .f32⟩ : BufTy).Contents (Elt F) → (⟨S4x50000x128, .f32⟩ : BufTy).Contents (Elt F) → (⟨S4x50000x128, .f32⟩ : BufTy).Contents (Elt F)),
    StableHlo.unary main_arg7 main_v37 (broadcastInDim S4x1x128 ![0, 2] bcast_S4x128_S4x1x128_0_2 : (⟨S4x128, .f32⟩ : BufTy).Contents (Elt F) → (⟨S4x1x128, .f32⟩ : BufTy).Contents (Elt F)),
    StableHlo.unary main_v37 main_v38 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v36 main_v38 main_v39 (mulf : (⟨S4x50000x128, .f32⟩ : BufTy).Contents (Elt F) → (⟨S4x50000x128, .f32⟩ : BufTy).Contents (Elt F) → (⟨S4x50000x128, .f32⟩ : BufTy).Contents (Elt F)),
    StableHlo.unary main_arg8 main_v40 (broadcastInDim S4x1x128 ![0, 2] bcast_S4x128_S4x1x128_0_2 : (⟨S4x128, .f32⟩ : BufTy).Contents (Elt F) → (⟨S4x1x128, .f32⟩ : BufTy).Contents (Elt F)),
    StableHlo.unary main_v40 main_v41 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v39 main_v41 main_v42 (addf : (⟨S4x50000x128, .f32⟩ : BufTy).Contents (Elt F) → (⟨S4x50000x128, .f32⟩ : BufTy).Contents (Elt F) → (⟨S4x50000x128, .f32⟩ : BufTy).Contents (Elt F)),
    StableHlo.TRef.nullary main_call1.cst (constant S_ .f32 0x00000000#32),
    StableHlo.TRef.unary main_call1.cst main_call1.v0 (broadcastInDim S4x50000x128 ![] bcast_S_S4x50000x128),
    StableHlo.TRef.binary (.of main_v42 : StableHlo.TRef sig ⟨S4x50000x128, .f32⟩) main_call1.v0 main_call1.v1 maximumf,
    StableHlo.binary main_v43 main_arg9 main_v44 ((fun l r => Host.dotGeneral dot_S4x50000x128_S4x128x128_S4x50000x128_2_1_1_2_0_0 none l r) : (⟨S4x50000x128, .f32⟩ : BufTy).Contents (Elt F) → (⟨S4x128x128, .f32⟩ : BufTy).Contents (Elt F) → (⟨S4x50000x128, .f32⟩ : BufTy).Contents (Elt F)),
    StableHlo.unary main_arg10 main_v45 (broadcastInDim S4x1x128 ![0, 2] bcast_S4x128_S4x1x128_0_2 : (⟨S4x128, .f32⟩ : BufTy).Contents (Elt F) → (⟨S4x1x128, .f32⟩ : BufTy).Contents (Elt F)),
    StableHlo.unary main_v45 main_v46 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v44 main_v46 main_v47 (addf : (⟨S4x50000x128, .f32⟩ : BufTy).Contents (Elt F) → (⟨S4x50000x128, .f32⟩ : BufTy).Contents (Elt F) → (⟨S4x50000x128, .f32⟩ : BufTy).Contents (Elt F)),
    StableHlo.binary main_arg0 main_arg3 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x00000000#32),
    StableHlo.binary main_v47 main_cst_6 main_v52 ((fun x v => Host.reduceAdd x v reducesTo_S4x50000x128_S50000x128_d0 h_S_) : (⟨S4x50000x128, .f32⟩ : BufTy).Contents (Elt F) → (⟨S_, .f32⟩ : BufTy).Contents (Elt F) → (⟨S50000x128, .f32⟩ : BufTy).Contents (Elt F)),
    StableHlo.binary main_v51 main_v52 main_v53 (addf : (⟨S50000x128, .f32⟩ : BufTy).Contents (Elt F) → (⟨S50000x128, .f32⟩ : BufTy).Contents (Elt F) → (⟨S50000x128, .f32⟩ : BufTy).Contents (Elt F)) ]

-- eighty-seven binds re-associated: the rewrite under the chain recurses once per statement
set_option maxRecDepth 8192 in
set_option maxHeartbeats 4000000 in
/-- @main is that straight line: its two windows and the called functions unfolded, the sequencing re-associated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., reshape_bufs_sub .., unary_bufs_sub .., unary_bufs_sub ..,
    binary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    nullary_bufs_sub .., binary_bufs_sub .., binary_bufs_sub ..⟩

/-! ## The run -/

attribute [local irreducible] Host.scatterAdd Host.gather Host.reduceAdd in
set_option maxRecDepth 65536 in
set_option maxHeartbeats 4000000 in
/-- What the result buffer holds after the line, from any contents of the buffers: `refOut` of the arguments'
    contents.  Each operation's result is read at its own buffer and passed over at every other; what is left is
    the composed term, which is `refOut` with its stages unfolded. -/
theorem out_eq (V : Valuation τ sig (Elt Ideal)) :
    after (ops (F := Ideal)) V (main_v53 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  after_results_simp
  rfl

set_option maxHeartbeats 4000000 in
/-- No operation of the line writes an argument buffer. -/
theorem args_kept (V : Valuation τ sig (Elt Ideal)) :
    after (ops (F := Ideal)) V (main_arg0 : DevRef τ sig) = V (main_arg0 : DevRef τ sig)
    ∧ after (ops (F := Ideal)) V (main_arg1 : DevRef τ sig) = V (main_arg1 : DevRef τ sig)
    ∧ after (ops (F := Ideal)) V (main_arg2 : DevRef τ sig) = V (main_arg2 : DevRef τ sig)
    ∧ after (ops (F := Ideal)) V (main_arg3 : DevRef τ sig) = V (main_arg3 : DevRef τ sig)
    ∧ after (ops (F := Ideal)) V (main_arg4 : DevRef τ sig) = V (main_arg4 : DevRef τ sig)
    ∧ after (ops (F := Ideal)) V (main_arg5 : DevRef τ sig) = V (main_arg5 : DevRef τ sig)
    ∧ after (ops (F := Ideal)) V (main_arg6 : DevRef τ sig) = V (main_arg6 : DevRef τ sig)
    ∧ after (ops (F := Ideal)) V (main_arg7 : DevRef τ sig) = V (main_arg7 : DevRef τ sig)
    ∧ after (ops (F := Ideal)) V (main_arg8 : DevRef τ sig) = V (main_arg8 : DevRef τ sig)
    ∧ after (ops (F := Ideal)) V (main_arg9 : DevRef τ sig) = V (main_arg9 : DevRef τ sig)
    ∧ after (ops (F := Ideal)) V (main_arg10 : DevRef τ sig) = V (main_arg10 : DevRef τ sig) := by
  refine ⟨?_, ?_, ?_, ?_, ?_, ?_, ?_, ?_, ?_, ?_, ?_⟩ <;> after_results_simp

/-- On the one device, from any memory with zero counters: every weakly fair execution of the reference's @main
    terminates with the result buffer at `refOut` of the argument arrays, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread nD τ).loc main_v53) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
        ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10))) :=
  (θ_run defs _ _).mono (fun _ h c =>
      ⟨(h c main_v53).trans (out_eq _),
        (h c main_arg0).trans (args_kept _).1,
        (h c main_arg1).trans (args_kept _).2.1,
        (h c main_arg2).trans (args_kept _).2.2.1,
        (h c main_arg3).trans (args_kept _).2.2.2.1,
        (h c main_arg4).trans (args_kept _).2.2.2.2.1,
        (h c main_arg5).trans (args_kept _).2.2.2.2.2.1,
        (h c main_arg6).trans (args_kept _).2.2.2.2.2.2.1,
        (h c main_arg7).trans (args_kept _).2.2.2.2.2.2.2.1,
        (h c main_arg8).trans (args_kept _).2.2.2.2.2.2.2.2.1,
        (h c main_arg9).trans (args_kept _).2.2.2.2.2.2.2.2.2.1,
        (h c main_arg10).trans (args_kept _).2.2.2.2.2.2.2.2.2.2⟩)
    (run_seq scopedRefs_eq scopedSems_eq defs main (fun _ => ops) main_eq (fun _ => ops_sub) m ρ)

/-- The reference's frame: it runs, and its argument arrays end unchanged (the run with the result dropped). -/
theorem frame : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (run m ρ)

end Cert.RefSide

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«110614_j51762945852038_2_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.RefOps.lean ====
/-
  The reference's layout operations, contractions and sums read at coordinates, at the extended reals.

  Over the reference's own shapes: a [4,128] array laid out as [4,1,128]; a [4,1,128] array repeated over the
  50000 nodes; the node features laid out as [1,50000,128] and repeated over the four relations; a scalar repeated
  over an array; the product of a [4,50000,128] array with a [4,128,128] stack of matrices, one matrix per
  relation, as the sum over the contracted feature; the sum of a [4,50000,128] array over its nodes, and over its
  relations.
-/
import proofs.«110614_j51762945852038_2_alg».proof.Proof.Gen.ReferenceIdeal
import proofs.«110614_j51762945852038_2_alg».proof.Proof.LibHostDense
import Idealize.ShloMosaic.PureOps.Ideal.Laws
import Idealize.ShloMosaic.Lib.ValueIdx
import Idealize.ShloMosaic.Lib.Pipeline.Value

noncomputable section

namespace Cert.RefSide

open Idealize.ShloMosaic Idealize.ShloMosaic.ValueIdx Cert.ReferenceIdeal Cert.ReferenceIdeal.Gen
open scoped BigOperators

variable {α : Type}

/-! ## Layout -/

/-- A [4,128] array laid out as [4,1,128] reads, at (r, u, o), the array at (r, o). -/
theorem mid_apply (b : S4x128.Idx → α) (r : Fin 4) (u : Fin 1) (o : Fin 128) :
    broadcastInDim S4x1x128 ![0, 2] bcast_S4x128_S4x1x128_0_2 b (ix3 r u o) = b (ix2 r o) := by
  refine broadcastInDim_apply _ _ b (ix3 r u o) (ix2 r o) fun a => ?_
  match a with
  | ⟨0, _⟩ => rfl
  | ⟨1, _⟩ => rfl

/-- A [4,1,128] array repeated over the 50000 nodes reads, at (r, n, o), the array at (r, 0, o). -/
theorem up_bcast_apply (t : S4x1x128.Idx → α) (r : Fin 4) (n : Fin 50000) (o : Fin 128) :
    broadcastInDim S4x50000x128 ![0, 1, 2] bcast_S4x1x128_S4x50000x128_0_1_2 t (ix3 r n o) = t (ix3 r (0 : Fin 1) o) := by
  refine broadcastInDim_apply _ _ t (ix3 r n o) (ix3 r (0 : Fin 1) o) fun a => ?_
  match a with
  | ⟨0, _⟩ => rfl
  | ⟨1, _⟩ => rfl
  | ⟨2, _⟩ => rfl

/-- The node features laid out as [1,50000,128] read, at (u, n, k), the features at (n, k). -/
theorem lead_apply (x : S50000x128.Idx → α) (u : Fin 1) (n : Fin 50000) (k : Fin 128) :
    broadcastInDim S1x50000x128 ![1, 2] bcast_S50000x128_S1x50000x128_1_2 x (ix3 u n k) = x (ix2 n k) := by
  refine broadcastInDim_apply _ _ x (ix3 u n k) (ix2 n k) fun a => ?_
  match a with
  | ⟨0, _⟩ => rfl
  | ⟨1, _⟩ => rfl

/-- A [1,50000,128] array repeated over the four relations reads, at (r, n, k), the array at (0, n, k). -/
theorem rel_bcast_apply (y : S1x50000x128.Idx → α) (r : Fin 4) (n : Fin 50000) (k : Fin 128) :
    broadcastInDim S4x50000x128 ![0, 1, 2] bcast_S1x50000x128_S4x50000x128_0_1_2 y (ix3 r n k) = y (ix3 (0 : Fin 1) n k) := by
  refine broadcastInDim_apply _ _ y (ix3 r n k) (ix3 (0 : Fin 1) n k) fun a => ?_
  match a with
  | ⟨0, _⟩ => rfl
  | ⟨1, _⟩ => rfl
  | ⟨2, _⟩ => rfl

/-! ## The product with one matrix per relation -/

local notation "dot3" => dot_S4x50000x128_S4x128x128_S4x50000x128_2_1_1_2_0_0

/-- The left operand is read at the result's relation … -/
theorem lhs3_0 (i : S4x50000x128.Idx) (q : DotDims.contr dot3 |>.Idx) : (DotDims.lhsIdx dot3 i q 0).val = (i 0).val := by
  unfold DotDims.lhsIdx
  rw [dif_pos (show (0 : Fin S4x50000x128.rank) ∈ DotDims.lhsBatch dot3 by decide)]
  rfl
/-- … at the result's node … -/
theorem lhs3_1 (i : S4x50000x128.Idx) (q : DotDims.contr dot3 |>.Idx) : (DotDims.lhsIdx dot3 i q 1).val = (i 1).val := by
  unfold DotDims.lhsIdx
  rw [dif_neg (show ¬(1 : Fin S4x50000x128.rank) ∈ DotDims.lhsBatch dot3 by decide),
    dif_pos (show (1 : Fin S4x50000x128.rank) ∈ DotDims.lhsNonContracting dot3 by decide)]
  rfl
/-- … and at the contracted feature. -/
theorem lhs3_2 (i : S4x50000x128.Idx) (q : DotDims.contr dot3 |>.Idx) :
    (DotDims.lhsIdx dot3 i q 2).val = (q ⟨0, by decide⟩).val :=
  DotDims.lhsIdx_val_of_single dot3 rfl i q
/-- The stack of matrices is read at the result's relation … -/
theorem rhs3_0 (i : S4x50000x128.Idx) (q : DotDims.contr dot3 |>.Idx) : (DotDims.rhsIdx dot3 i q 0).val = (i 0).val := by
  unfold DotDims.rhsIdx
  rw [dif_pos (show (0 : Fin S4x128x128.rank) ∈ DotDims.rhsBatch dot3 by decide)]
  rfl
/-- … at the contracted feature … -/
theorem rhs3_1 (i : S4x50000x128.Idx) (q : DotDims.contr dot3 |>.Idx) :
    (DotDims.rhsIdx dot3 i q 1).val = (q ⟨0, by decide⟩).val :=
  DotDims.rhsIdx_val_of_single dot3 rfl i q
/-- … and at the result's output feature. -/
theorem rhs3_2 (i : S4x50000x128.Idx) (q : DotDims.contr dot3 |>.Idx) : (DotDims.rhsIdx dot3 i q 2).val = (i 2).val := by
  unfold DotDims.rhsIdx
  rw [dif_neg (show ¬(2 : Fin S4x128x128.rank) ∈ DotDims.rhsBatch dot3 by decide),
    dif_pos (show (2 : Fin S4x128x128.rank) ∈ DotDims.rhsNonContracting dot3 by decide)]
  rfl

/-- The product at (r, n, o): the sum over the contracted feature k of l (r, n, k) · w (r, k, o). -/
theorem dot3_apply (l : FVec Ideal S4x50000x128 .f32) (w : FVec Ideal S4x128x128 .f32) (r : Fin 4) (n : Fin 50000) (o : Fin 128) :
    Host.dotGeneral (F := Ideal) dot3 none l w (ix3 r n o) = ∑ k : Fin 128, l (ix3 r n k) * w (ix3 r k o) := by
  simp only [Host.dotGeneral]
  rw [Ideal.dotGeneral_apply, ← Equiv.sum_comp (contrEquiv1 dot3 128 rfl rfl).symm]
  refine Finset.sum_congr rfl fun k _ => ?_
  have hk := contrEquiv1_symm_val dot3 128 rfl rfl k
  have el : DotDims.lhsIdx dot3 (ix3 r n o) ((contrEquiv1 dot3 128 rfl rfl).symm k) = ix3 r n k := funext fun a => Fin.ext (by
    match a with
    | ⟨0, _⟩ => exact lhs3_0 _ _
    | ⟨1, _⟩ => exact lhs3_1 _ _
    | ⟨2, _⟩ => exact (lhs3_2 _ _).trans hk)
  have er : DotDims.rhsIdx dot3 (ix3 r n o) ((contrEquiv1 dot3 128 rfl rfl).symm k) = ix3 r k o := funext fun a => Fin.ext (by
    match a with
    | ⟨0, _⟩ => exact rhs3_0 _ _
    | ⟨1, _⟩ => exact (rhs3_1 _ _).trans hk
    | ⟨2, _⟩ => exact rhs3_2 _ _)
  rw [el, er]

/-! ## The sums -/

/-- The sum of a [4,50000,128] array over its nodes from the zero word, at (r, o): the sum over n of the array at (r, n, o). -/
theorem sumNodes_apply (t : FVec Ideal S4x50000x128 .f32) (r : Fin 4) (o : Fin 128) :
    Host.reduceAdd (F := Ideal) t (constant (F := Ideal) S_ .f32 0x00000000#32) reducesTo_S4x50000x128_S4x128_d1 h_S_ (ix2 r o)
      = ∑ n : Fin 50000, t (ix3 r n o) := by
  simp only [Host.reduceAdd, Ideal.hostReduceAdd_def]
  rw [Ideal.hostReduceAdd_single reducesTo_S4x50000x128_S4x128_d1 (by decide)]
  simp only [constant_apply, Ideal.ofBits_zero_f32, zero_add]
  refine Finset.sum_congr rfl fun k _ => ?_
  exact congrArg t (funext fun a => Fin.ext (by match a with | ⟨0, _⟩ => rfl | ⟨1, _⟩ => rfl | ⟨2, _⟩ => rfl))

/-- The sum of a [4,50000,128] array over its relations from the zero word, at (n, p): the sum over r of the array at (r, n, p). -/
theorem sumRels_apply (t : FVec Ideal S4x50000x128 .f32) (n : Fin 50000) (p : Fin 128) :
    Host.reduceAdd (F := Ideal) t (constant (F := Ideal) S_ .f32 0x00000000#32) reducesTo_S4x50000x128_S50000x128_d0 h_S_ (ix2 n p)
      = ∑ r : Fin 4, t (ix3 r n p) := by
  simp only [Host.reduceAdd, Ideal.hostReduceAdd_def]
  rw [Ideal.hostReduceAdd_single reducesTo_S4x50000x128_S50000x128_d0 (by decide)]
  simp only [constant_apply, Ideal.ofBits_zero_f32, zero_add]
  refine Finset.sum_congr rfl fun k _ => ?_
  exact congrArg t (funext fun a => Fin.ext (by match a with | ⟨0, _⟩ => rfl | ⟨1, _⟩ => rfl | ⟨2, _⟩ => rfl))

end Cert.RefSide

end
-- ==== Proof.RefRead.lean ====
/-
  The reference's result read at a node and an output feature: it is the specification's layer with the batch
  variance in its "mean of the squared deviations" form.

  Each stage of the result term is read at coordinates — the first linear map, the sum over the nodes, the batch
  mean, the centred values, the variance (whose divisor, the literal 50000 less the integer 0 converted, is the
  literal 50000, and whose selection takes the computed branch because that number is positive), the rectified
  activation, the second linear map, the self-loop map — and the stages are then put together over the sums.
-/
import proofs.«110614_j51762945852038_2_alg».proof.Proof.RefRun
import proofs.«110614_j51762945852038_2_alg».proof.Proof.RefOps
import proofs.«110614_j51762945852038_2_alg».proof.Proof.Spec

noncomputable section

namespace Cert.RefSide

open Idealize.ShloMosaic Idealize.ShloMosaic.ValueIdx Cert.ReferenceIdeal Cert.ReferenceIdeal.Gen
open Cert.LibHostDense (bcastScalar_apply bcastRows_apply bcastRow_apply hostDot_plain_apply)
open scoped BigOperators

/-! ## The small stages -/

theorem rows_apply (b : A2) (r : Fin 4) (n : Fin 50000) (o : Fin 128) : rows b (ix3 r n o) = b (ix2 r o) := by
  unfold rows
  rw [up_bcast_apply, mid_apply]

theorem up_apply (t : A1) (r : Fin 4) (n : Fin 50000) (o : Fin 128) : up t (ix3 r n o) = t (ix3 r (0 : Fin 1) o) := by
  unfold up
  rw [up_bcast_apply]

theorem fill_apply (v : FVec Ideal S_ .f32) (i : S4x1x128.Idx) : fill v i = v ix0 := by
  unfold fill
  rw [bcastScalar_apply]

/-- The first linear map at (r, n, o) is the specification's. -/
theorem preR_apply (a0 : FVec Ideal S50000x128 .f32) (agg : A3) (a5 : FVec Ideal S4x128x128 .f32) (a6 : A2)
    (r : Fin 4) (n : Fin 50000) (o : Fin 128) :
    preR a0 agg a5 a6 (ix3 r n o)
      = Cert.Gin.pre (fun n k => a0 (ix2 n k)) (fun r n k => agg (ix3 r n k)) (fun r k o => a5 (ix3 r k o))
          (fun r o => a6 (ix2 r o)) r n o := by
  unfold preR Cert.Gin.pre
  rw [addf_apply, dot3_apply, rows_apply]
  refine congrArg (· + _) (Finset.sum_congr rfl fun k _ => ?_)
  rw [addf_apply, rel_bcast_apply, lead_apply]

/-- The sum over the nodes, at (r, u, o). -/
theorem sumN_apply (t : A3) (r : Fin 4) (u : Fin 1) (o : Fin 128) : sumN t (ix3 r u o) = ∑ n : Fin 50000, t (ix3 r n o) := by
  unfold sumN
  rw [mid_apply, sumNodes_apply]

/-- The batch mean at (r, u, o): the sum over the nodes divided by the literal 50000. -/
theorem meanR_apply (pre : A3) (r : Fin 4) (u : Fin 1) (o : Fin 128) :
    meanR pre (ix3 r u o) = Ideal.div (∑ n : Fin 50000, pre (ix3 r n o)) Cert.Gin.cN := by
  unfold meanR
  show Ideal.div (sumN pre (ix3 r u o)) (fill _ (ix3 r u o)) = _
  rw [sumN_apply, fill_apply, constant_apply]

/-- The centred values at (r, n, o). -/
theorem cenR_apply (pre : A3) (r : Fin 4) (n : Fin 50000) (o : Fin 128) :
    cenR pre (ix3 r n o) = pre (ix3 r n o) - Ideal.div (∑ n' : Fin 50000, pre (ix3 r n' o)) Cert.Gin.cN := by
  unfold cenR
  rw [subf_apply, up_apply, meanR_apply]

/-! ## The variance's divisor and its selection -/

/-- The node count literal denotes the real number 50000. -/
theorem cN_real : Cert.Gin.cN = ((50000 : ℝ) : EReal) := by
  simp [Cert.Gin.cN, Ideal.ofBits, Ideal.ieee, -EReal.coe_mul]; norm_num

/-- The divisor the program computes — the literal 50000 less the integer 0 converted — is the literal 50000. -/
theorem denR_eq (i : S_.Idx) : denR i = Cert.Gin.cN := by
  show Ideal.ofBits .f32 0x47435000#32 - ((((0#32 : BitVec 32).toInt : ℤ) : ℝ) : EReal) = _
  simp

/-- The divisor is positive, so the comparison's bit is one. -/
theorem gate_eq (i : S4x1x128.Idx) :
    broadcastInDim S4x1x128 ![] bcast_S_S4x1x128 (cmpf .ogt denR (constant (F := Ideal) S_ .f32 0x00000000#32)) i = 1#1 := by
  rw [bcastScalar_apply, cmpf_apply, denR_eq, constant_apply, Ideal.cmpf_def, Ideal.ofBits_zero_f32]
  have h : (0 : EReal) < Cert.Gin.cN := by rw [cN_real]; exact EReal.coe_pos.mpr (by norm_num)
  simp [Ideal.cmp, h]

/-- The batch variance at (r, u, o): the mean of the squared centred values. -/
theorem varR_apply (pre : A3) (r : Fin 4) (u : Fin 1) (o : Fin 128) :
    varR pre (ix3 r u o)
      = Ideal.div (∑ n : Fin 50000,
          (pre (ix3 r n o) - Ideal.div (∑ n' : Fin 50000, pre (ix3 r n' o)) Cert.Gin.cN)
            * (pre (ix3 r n o) - Ideal.div (∑ n' : Fin 50000, pre (ix3 r n' o)) Cert.Gin.cN)) Cert.Gin.cN := by
  unfold varR
  rw [select_apply, gate_eq, select_one]
  show Ideal.div (sumN _ (ix3 r u o)) (fill denR (ix3 r u o)) = _
  rw [sumN_apply, fill_apply, denR_eq]
  simp only [mulf_apply, cenR_apply]

/-! ## The activation, the second linear map, the self-loop map -/

/-- The activation at (r, n, o). -/
theorem actR_apply (pre : A3) (a7 a8 : A2) (r : Fin 4) (n : Fin 50000) (o : Fin 128) :
    actR pre a7 a8 (ix3 r n o)
      = max (((pre (ix3 r n o) - Ideal.div (∑ n' : Fin 50000, pre (ix3 r n' o)) Cert.Gin.cN)
              * Ideal.rsqrt (Ideal.div (∑ m : Fin 50000,
                  (pre (ix3 r m o) - Ideal.div (∑ n' : Fin 50000, pre (ix3 r n' o)) Cert.Gin.cN)
                    * (pre (ix3 r m o) - Ideal.div (∑ n' : Fin 50000, pre (ix3 r n' o)) Cert.Gin.cN)) Cert.Gin.cN
                + Cert.Gin.cEps))
            * a7 (ix2 r o) + a8 (ix2 r o)) 0 := by
  unfold actR
  rw [maximumf_apply, addf_apply, mulf_apply, mulf_apply, cenR_apply, up_apply, rows_apply, rows_apply,
    bcastScalar_apply, constant_apply, Ideal.ofBits_zero_f32]
  show max ((_ * Ideal.rsqrt (addf (varR pre) (fill _) (ix3 r (0 : Fin 1) o))) * _ + _) 0 = _
  rw [addf_apply, varR_apply, fill_apply, constant_apply]

/-- The second linear map at (r, n, p). -/
theorem lin2R_apply (act : A3) (a9 : FVec Ideal S4x128x128 .f32) (a10 : A2) (r : Fin 4) (n : Fin 50000) (p : Fin 128) :
    lin2R act a9 a10 (ix3 r n p) = (∑ o : Fin 128, act (ix3 r n o) * a9 (ix3 r o p)) + a10 (ix2 r p) := by
  unfold lin2R
  rw [addf_apply, dot3_apply, rows_apply]

/-- The self-loop map at (n, p). -/
theorem selfR_apply (a0 : FVec Ideal S50000x128 .f32) (a3 : FVec Ideal S128x128 .f32) (a4 : FVec Ideal S128 .f32)
    (n : Fin 50000) (p : Fin 128) :
    selfR a0 a3 a4 (ix2 n p) = (∑ k : Fin 128, a0 (ix2 n k) * a3 (ix2 k p)) + a4 (ix1 p) := by
  unfold selfR
  rw [addf_apply, hostDot_plain_apply _ rfl rfl rfl rfl rfl rfl, bcastRows_apply, bcastRow_apply]

/-! ## The result -/

/-- The reference's result at node n and output feature p is the specification's layer over the arguments'
    coordinate functions, with the variance as the mean of the squared deviations. -/
theorem refOut_apply (a0 : (⟨S50000x128, .f32⟩ : BufTy).Contents (Elt Ideal)) (a1 : (⟨S2x600000, .i32⟩ : BufTy).Contents (Elt Ideal)) (a2 : (⟨S600000, .i32⟩ : BufTy).Contents (Elt Ideal)) (a3 : (⟨S128x128, .f32⟩ : BufTy).Contents (Elt Ideal)) (a4 : (⟨S128, .f32⟩ : BufTy).Contents (Elt Ideal)) (a5 : (⟨S4x128x128, .f32⟩ : BufTy).Contents (Elt Ideal)) (a6 : (⟨S4x128, .f32⟩ : BufTy).Contents (Elt Ideal)) (a7 : (⟨S4x128, .f32⟩ : BufTy).Contents (Elt Ideal)) (a8 : (⟨S4x128, .f32⟩ : BufTy).Contents (Elt Ideal)) (a9 : (⟨S4x128x128, .f32⟩ : BufTy).Contents (Elt Ideal)) (a10 : (⟨S4x128, .f32⟩ : BufTy).Contents (Elt Ideal))
    (n : Fin 50000) (p : Fin 128) :
    refOut a0 a1 a2 a3 a4 a5 a6 a7 a8 a9 a10 (ix2 n p) =
      Cert.Gin.outV (fun n k => a0 (ix2 n k)) (fun r n k => aggR a0 a1 a2 (ix3 r n k)) (fun r k o => a5 (ix3 r k o)) (fun r o => a6 (ix2 r o))
        (Cert.Gin.var (fun n k => a0 (ix2 n k)) (fun r n k => aggR a0 a1 a2 (ix3 r n k)) (fun r k o => a5 (ix3 r k o)) (fun r o => a6 (ix2 r o)))
        (fun r o => a7 (ix2 r o)) (fun r o => a8 (ix2 r o)) (fun r k o => a9 (ix3 r k o)) (fun r o => a10 (ix2 r o)) (fun k p => a3 (ix2 k p)) (fun k => a4 (ix1 k)) n p := by
  unfold refOut
  generalize aggR a0 a1 a2 = agg
  rw [addf_apply, selfR_apply, sumRels_apply]
  simp only [Cert.Gin.outV, Cert.Gin.lin2, Cert.Gin.act, Cert.Gin.var, Cert.Gin.mean]
  refine congrArg (_ + ·) (Finset.sum_congr rfl fun r _ => ?_)
  rw [lin2R_apply]
  refine congrArg (· + _) (Finset.sum_congr rfl fun o _ => ?_)
  rw [actR_apply]
  simp only [preR_apply]

end Cert.RefSide

end
-- ==== Proof.lean ====
/-
  A relational graph-isomorphism layer, as a two-region kernel program and as a whole-array reference: the
  claims' assembly.

  Both programs first sum, for every node and relation, the features of the node's neighbours (a gather of the
  edges' source rows and a scatter-add into row "relation · N + target"): the same operations on the same
  arguments, carried as one function. The reference then applies, to whole [4, N, 128] arrays, the first linear
  map, the batch normalisation with the variance as the mean of squared deviations, the rectifier, the second
  linear map, and adds the relations to the self-loop linear map. The kernel program's first region walks the
  nodes in 25 tiles of 2000 and accumulates the column sums of the first linear map and of its square; the
  host divides by N and forms the variance as the mean of squares less the square of the mean; the second
  region recomputes the first linear map per tile and applies the rest. On the extended reals a sum may be
  regrouped freely, so the tile sums are the sums over all nodes; the two forms of the variance agree because
  every term is a real number — the inputs are finite, and a scatter-add of finitely many reals is real.
-/
import proofs.«110614_j51762945852038_2_alg».proof.Defs
import proofs.«110614_j51762945852038_2_alg».proof.Proof.Gen.Kernel
import proofs.«110614_j51762945852038_2_alg».proof.Proof.Gen.Kernel.Frame
import proofs.«110614_j51762945852038_2_alg».proof.Proof.Gen.KernelIdeal
import proofs.«110614_j51762945852038_2_alg».proof.Proof.Gen.KernelIdeal.Frame
import proofs.«110614_j51762945852038_2_alg».proof.Proof.Gen.ReferenceIdeal
import proofs.«110614_j51762945852038_2_alg».proof.Proof.Gen.Pre_finite_inputs
import proofs.«110614_j51762945852038_2_alg».proof.Proof.KValue
import proofs.«110614_j51762945852038_2_alg».proof.Proof.KReal
import proofs.«110614_j51762945852038_2_alg».proof.Proof.RefRun
import proofs.«110614_j51762945852038_2_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs and leaves its arguments unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The summed neighbour features are one function in both programs. -/
theorem agg_same (a0 : (⟨Cert.KernelIdeal.S50000x128, .f32⟩ : BufTy).Contents (Elt Ideal)) (a1 : (⟨Cert.KernelIdeal.S2x600000, .i32⟩ : BufTy).Contents (Elt Ideal))
    (a2 : (⟨Cert.KernelIdeal.S600000, .i32⟩ : BufTy).Contents (Elt Ideal)) :
    Cert.RefSide.aggR a0 a1 a2 = Cert.KernelSide.aggK a0 a1 a2 := rfl

/-- From memories agreeing on the arguments both idealized programs end with the same result array: the layer's
    output, whose two forms of the batch variance agree on real numbers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W4 m ρ c (Proc.devRef .tc Cert.KernelIdeal.main_v25), Cert.KernelSide.run_named m ρ, ?_⟩
  refine (θ_run Cert.ReferenceIdeal.defs _ _).mono (fun _ h c => ⟨(h c).1.trans ?_, (h c).2⟩) (Cert.RefSide.run m' ρ')
  obtain ⟨e0, e1, e2, e3, e4, e5, e6, e7, e8, e9, e10⟩ := hagree c
  rw [e0, e1, e2, e3, e4, e5, e6, e7, e8, e9, e10]
  funext i
  obtain ⟨n, p, rfl⟩ : ∃ (n : Fin 50000) (p : Fin 128), i = ix2 n p := ⟨i 0, i 1, eq_ix2 i⟩
  rw [Cert.RefSide.refOut_apply]
  simp only [agg_same]
  obtain ⟨hx, hagg, hw, hb⟩ := Cert.KernelSide.layer_reals m hpre c
  refine Eq.trans ?_ (Cert.KernelSide.kernel_value m ρ c n p).symm
  exact (Cert.KernelSide.outV_variance_forms hx hagg hw hb _ _ _ _ _ _ n p).symm

theorem claim : Cert.Claim :=
  ⟨Cert.Kernel.Gen.facts, Cert.KernelIdeal.Gen.facts, Cert.ReferenceIdeal.Gen.facts, Cert.Pre_finite_inputs.Gen.facts,
    frame_kernel, frame_kernelIdeal, Cert.RefSide.frame, trivial, algebraic⟩

end Cert.Proof

end
